-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S1024 : Shape := ⟨1, ![1024]⟩
abbrev S2048x1024 : Shape := ⟨2, ![2048, 1024]⟩
abbrev S1024x1024 : Shape := ⟨2, ![1024, 1024]⟩
abbrev S_ : Shape := ⟨0, ![]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg4 : FVec F S2048x1024 .f32) (main_arg5 : FVec F S1024x1024 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S2048x1024 .f32 := Host.absf main_arg4
  let main_cst_6 : FVec F S_ .f32 := constant S_ .f32 0x7F800000#32
  let main_v20 : FVec F S2048x1024 .f32 := broadcastInDim S2048x1024 ![] bcast_S_S2048x1024 main_cst_6
  let main_v21 : IVec S2048x1024 1 := cmpf .olt main_v19 main_v20
  let main_c_7 : IVec S_ 1 := constantI S_ 1 1#1
  let main_v22 : IVec S_ 1 := (fun x v => Host.reduce IntOp.andi x v reducesTo_S2048x1024_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  main_v28

def fn {F : FTy → Type} [FloatOps F] (main_arg0 : FVec F S2x2048x1024 .f32) (main_arg1 : FVec F S2x2048x1024 .f32) (main_arg2 : FVec F S1024 .f32) (main_arg3 : FVec F S1024 .f32) (main_arg4 : FVec F S2048x1024 .f32) (main_arg5 : FVec F S1024x1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2x2048x1024 .f32 := Host.absf main_arg1
  let main_cst_0 : FVec F S_ .f32 := constant S_ .f32 0x7F800000#32
  let main_v5 : FVec F S2x2048x1024 .f32 := broadcastInDim S2x2048x1024 ![] bcast_S_S2x2048x1024 main_cst_0
  let main_v6 : IVec S2x2048x1024 1 := cmpf .olt main_v4 main_v5
  let main_c_1 : IVec S_ 1 := constantI S_ 1 1#1
  let main_v7 : IVec S_ 1 := (fun x v => Host.reduce IntOp.andi x v reducesTo_S2x2048x1024_S_d0_1_2 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_v13 main_v16
-- ==== Kernel.lean ====
abbrev S2x2048x1024 : Shape := ⟨3, ![2, 2048, 1024]⟩
abbrev S1024 : Shape := ⟨1, ![1024]⟩
abbrev S2048x1024 : Shape := ⟨2, ![2048, 1024]⟩
abbrev S1024x1024 : Shape := ⟨2, ![1024, 1024]⟩
abbrev S4096x1024 : Shape := ⟨2, ![4096, 1024]⟩
abbrev S1024x2048 : Shape := ⟨2, ![1024, 2048]⟩
abbrev S2x16x2048x64 : Shape := ⟨4, ![2, 16, 2048, 64]⟩
abbrev S256x1024 : Shape := ⟨2, ![256, 1024]⟩
abbrev S1x16x256x64 : Shape := ⟨4, ![1, 16, 256, 64]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩
abbrev S256x64 : Shape := ⟨2, ![256, 64]⟩
abbrev S1x1x256x64 : Shape := ⟨4, ![1, 1, 256, 64]⟩
abbrev S1x2x256x64 : Shape := ⟨4, ![1, 2, 256, 64]⟩
abbrev S1x2x2048x64 : Shape := ⟨4, ![1, 2, 2048, 64]⟩
abbrev S1x256x128 : Shape := ⟨3, ![1, 256, 128]⟩
abbrev S1x1x2048x64 : Shape := ⟨4, ![1, 1, 2048, 64]⟩
abbrev S2048x64 : Shape := ⟨2, ![2048, 64]⟩
abbrev S1x256x64 : Shape := ⟨3, ![1, 256, 64]⟩

abbrev nBuf : Space → Nat
  | .hbm => 16
  | .vmem => 24
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S4096x1024, .f32⟩
  | .hbm, ⟨7, _⟩ => ⟨S4096x1024, .f32⟩
  | .hbm, ⟨8, _⟩ => ⟨S1024x1024, .f32⟩
  | .hbm, ⟨9, _⟩ => ⟨S1024x1024, .bf16⟩
  | .hbm, ⟨10, _⟩ => ⟨S1024x2048, .f32⟩
  | .hbm, ⟨11, _⟩ => ⟨S1024x2048, .bf16⟩
  | .hbm, ⟨12, _⟩ => ⟨S2x16x2048x64, .bf16⟩
  | .hbm, ⟨13, _⟩ => ⟨S2x16x2048x64, .bf16⟩
  | .hbm, ⟨14, _⟩ => ⟨S2x16x2048x64, .bf16⟩
  | .hbm, ⟨15, _⟩ => ⟨S2x2048x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1024, .f32⟩
  | .local _ .vmem, ⟨5, _⟩ => ⟨S1024, .f32⟩
  | .local _ .vmem, ⟨6, _⟩ => ⟨S1024x2048, .bf16⟩
  | .local _ .vmem, ⟨7, _⟩ => ⟨S1024x1024, .bf16⟩
  | .local _ .vmem, ⟨8, _⟩ => ⟨S1x16x256x64, .bf16⟩
  | .local _ .vmem, ⟨9, _⟩ => ⟨S1x16x256x64, .bf16⟩
  | .local _ .vmem, ⟨10, _⟩ => ⟨S1x16x256x64, .bf16⟩
  | .local _ .vmem, ⟨11, _⟩ => ⟨S1x16x256x64, .bf16⟩
  | .local _ .vmem, ⟨12, _⟩ => ⟨S1x16x256x64, .bf16⟩
  | .local _ .vmem, ⟨13, _⟩ => ⟨S1x16x256x64, .bf16⟩
  | .local _ .vmem, ⟨14, _⟩ => ⟨S1x2x256x64, .bf16⟩
  | .local _ .vmem, ⟨15, _⟩ => ⟨S1x2x256x64, .bf16⟩
  | .local _ .vmem, ⟨16, _⟩ => ⟨S1x2x2048x64, .bf16⟩
  | .local _ .vmem, ⟨17, _⟩ => ⟨S1x2x2048x64, .bf16⟩
  | .local _ .vmem, ⟨18, _⟩ => ⟨S1x2x2048x64, .bf16⟩
  | .local _ .vmem, ⟨19, _⟩ => ⟨S1x2x2048x64, .bf16⟩
  | .local _ .vmem, ⟨20, _⟩ => ⟨S1x256x128, .f32⟩
  | .local _ .vmem, ⟨21, _⟩ => ⟨S1x256x128, .f32⟩
  | .local _ .vmem, ⟨22, _⟩ => ⟨S1x256x128, .f32⟩
  | .local _ .vmem, ⟨23, _⟩ => ⟨S1x256x128, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_7 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_8 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x16x256x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x16x256x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x256x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨2, ![16, 8], ![false, false]⟩

def cc1_transform_0 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, arg1.toNat, c0_i32_10.toNat]

def cc1_transform_1 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_2 (i : grid1.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc1_transform_3 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc1_transform_4 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage1_0 : Fin 2 → Memref sig .tc .vmem S1x2x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2x2048x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2x2048x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S2x2048x1024_S4096x1024 : S2x2048x1024.ShapeCasts S4096x1024
  transposes_S1024x1024_S1024x1024_1_0 : S1024x1024.Transposes [1, 0] S1024x1024
  bitsLt_bf16_f32 : FTy.bits .bf16 < FTy.bits .f32
  transposes_S2048x1024_S1024x2048_1_0 : S2048x1024.Transposes [1, 0] S1024x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  reduces_S256x1024_S256 : S256x1024.Reduces [1] S256
  shapeCasts_S256_S256x1 : S256.ShapeCasts S256x1
  broadcasts_S256x1_S256x1024 : S256x1.Broadcasts S256x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S256x1024 : S1x1024.Broadcasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  slices_S256x2048_o0_0_S256x1024 : S256x2048.Slices ![0, 0] S256x1024
  slices_S256x2048_o0_1024_S256x1024 : S256x2048.Slices ![0, 1024] S256x1024
  slices_S256x1024_o0_0_S256x64 : S256x1024.Slices ![0, 0] S256x64
  inb_S1x16x256x64_S1x1x256x64_0_0_0_0 : ∀ a, (![0, 0, 0, 0] : Fin 4 → Nat) a + S1x1x256x64.size a ≤ S1x16x256x64.size a
  h_S1x1x256x64 : 0 < S1x1x256x64.numel
  shapeCasts_S1x1x256x64_S256x64 : S1x1x256x64.ShapeCasts S256x64
  shapeCasts_S256x64_S1x1x256x64 : S256x64.ShapeCasts S1x1x256x64
  packedbf16_S1x16x256x64_S1x1x256x64_0_0_0_0 : (Rect.unit (s := S1x16x256x64) ![0, 0, 0, 0] S1x1x256x64.size inb_S1x16x256x64_S1x1x256x64_0_0_0_0).PackedRows (EltTy.packing .bf16)
  slices_S256x1024_o0_64_S256x64 : S256x1024.Slices ![0, 64] S256x64
  inb_S1x16x256x64_S1x1x256x64_0_1_0_0 : ∀ a, (![0, 1, 0, 0] : Fin 4 → Nat) a + S1x1x256x64.size a ≤ S1x16x256x64.size a
  packedbf16_S1x16x256x64_S1x1x256x64_0_1_0_0 : (Rect.unit (s := S1x16x256x64) ![0, 1, 0, 0] S1x1x256x64.size inb_S1x16x256x64_S1x1x256x64_0_1_0_0).PackedRows (EltTy.packing .bf16)
  slices_S256x1024_o0_128_S256x64 : S256x1024.Slices ![0, 128] S256x64
  inb_S1x16x256x64_S1x1x256x64_0_2_0_0 : ∀ a, (![0, 2, 0, 0] : Fin 4 → Nat) a + S1x1x256x64.size a ≤ S1x16x256x64.size a
  packedbf16_S1x16x256x64_S1x1x256x64_0_2_0_0 : (Rect.unit (s := S1x16x256x64) ![0, 2, 0, 0] S1x1x256x64.size inb_S1x16x256x64_S1x1x256x64_0_2_0_0).PackedRows (EltTy.packing .bf16)
  slices_S256x1024_o0_192_S256x64 : S256x1024.Slices ![0, 192] S256x64
  inb_S1x16x256x64_S1x1x256x64_0_3_0_0 : ∀ a, (![0, 3, 0, 0] : Fin 4 → Nat) a + S1x1x256x64.size a ≤ S1x16x256x64.size a
  packedbf16_S1x16x256x64_S1x1x256x64_0_3_0_0 : (Rect.unit (s := S1x16x256x64) ![0, 3, 0, 0] S1x1x256x64.size inb_S1x16x256x64_S1x1x256x64_0_3_0_0).PackedRows (EltTy.packing .bf16)
  slices_S256x1024_o0_256_S256x64 : S256x1024.Slices ![0, 256] S256x64
  inb_S1x16x256x64_S1x1x256x64_0_4_0_0 : ∀ a, (![0, 4, 0, 0] : Fin 4 → Nat) a + S1x1x256x64.size a ≤ S1x16x256x64.size a
  packedbf16_S1x16x256x64_S1x1x256x64_0_4_0_0 : (Rect.unit (s := S1x16x256x64) ![0, 4, 0, 0] S1x1x256x64.size inb_S1x16x256x64_S1x1x256x64_0_4_0_0).PackedRows (EltTy.packing .bf16)
  slices_S256x1024_o0_320_S256x64 : S256x1024.Slices ![0, 320] S256x64
  inb_S1x16x256x64_S1x1x256x64_0_5_0_0 : ∀ a, (![0, 5, 0, 0] : Fin 4 → Nat) a + S1x1x256x64.size a ≤ S1x16x256x64.size a
  packedbf16_S1x16x256x64_S1x1x256x64_0_5_0_0 : (Rect.unit (s := S1x16x256x64) ![0, 5, 0, 0] S1x1x256x64.size inb_S1x16x256x64_S1x1x256x64_0_5_0_0).PackedRows (EltTy.packing .bf16)
  slices_S256x1024_o0_384_S256x64 : S256x1024.Slices ![0, 384] S256x64
  inb_S1x16x256x64_S1x1x256x64_0_6_0_0 : ∀ a, (![0, 6, 0, 0] : Fin 4 → Nat) a + S1x1x256x64.size a ≤ S1x16x256x64.size a
  packedbf16_S1x16x256x64_S1x1x256x64_0_6_0_0 : (Rect.unit (s := S1x16x256x64) ![0, 6, 0, 0] S1x1x256x64.size inb_S1x16x256x64_S1x1x256x64_0_6_0_0).PackedRows (EltTy.packing .bf16)
  slices_S256x1024_o0_448_S256x64 : S256x1024.Slices ![0, 448] S256x64
  inb_S1x16x256x64_S1x1x256x64_0_7_0_0 : ∀ a, (![0, 7, 0, 0] : Fin 4 → Nat) a + S1x1x256x64.size a ≤ S1x16x256x64.size a
  packedbf16_S1x16x256x64_S1x1x256x64_0_7_0_0 : (Rect.unit (s := S1x16x256x64) ![0, 7, 0, 0] S1x1x256x64.size inb_S1x16x256x64_S1x1x256x64_0_7_0_0).PackedRows (EltTy.packing .bf16)
  slices_S256x1024_o0_512_S256x64 : S256x1024.Slices ![0, 512] S256x64
  inb_S1x16x256x64_S1x1x256x64_0_8_0_0 : ∀ a, (![0, 8, 0, 0] : Fin 4 → Nat) a + S1x1x256x64.size a ≤ S1x16x256x64.size a
  packedbf16_S1x16x256x64_S1x1x256x64_0_8_0_0 : (Rect.unit (s := S1x16x256x64) ![0, 8, 0, 0] S1x1x256x64.size inb_S1x16x256x64_S1x1x256x64_0_8_0_0).PackedRows (EltTy.packing .bf16)
  slices_S256x1024_o0_576_S256x64 : S256x1024.Slices ![0, 576] S256x64
  inb_S1x16x256x64_S1x1x256x64_0_9_0_0 : ∀ a, (![0, 9, 0, 0] : Fin 4 → Nat) a + S1x1x256x64.size a ≤ S1x16x256x64.size a
  packedbf16_S1x16x256x64_S1x1x256x64_0_9_0_0 : (Rect.unit (s := S1x16x256x64) ![0, 9, 0, 0] S1x1x256x64.size inb_S1x16x256x64_S1x1x256x64_0_9_0_0).PackedRows (EltTy.packing .bf16)
  slices_S256x1024_o0_640_S256x64 : S256x1024.Slices ![0, 640] S256x64
  inb_S1x16x256x64_S1x1x256x64_0_10_0_0 : ∀ a, (![0, 10, 0, 0] : Fin 4 → Nat) a + S1x1x256x64.size a ≤ S1x16x256x64.size a
  packedbf16_S1x16x256x64_S1x1x256x64_0_10_0_0 : (Rect.unit (s := S1x16x256x64) ![0, 10, 0, 0] S1x1x256x64.size inb_S1x16x256x64_S1x1x256x64_0_10_0_0).PackedRows (EltTy.packing .bf16)
  slices_S256x1024_o0_704_S256x64 : S256x1024.Slices ![0, 704] S256x64
  inb_S1x16x256x64_S1x1x256x64_0_11_0_0 : ∀ a, (![0, 11, 0, 0] : Fin 4 → Nat) a + S1x1x256x64.size a ≤ S1x16x256x64.size a
  packedbf16_S1x16x256x64_S1x1x256x64_0_11_0_0 : (Rect.unit (s := S1x16x256x64) ![0, 11, 0, 0] S1x1x256x64.size inb_S1x16x256x64_S1x1x256x64_0_11_0_0).PackedRows (EltTy.packing .bf16)
  slices_S256x1024_o0_768_S256x64 : S256x1024.Slices ![0, 768] S256x64
  inb_S1x16x256x64_S1x1x256x64_0_12_0_0 : ∀ a, (![0, 12, 0, 0] : Fin 4 → Nat) a + S1x1x256x64.size a ≤ S1x16x256x64.size a
  packedbf16_S1x16x256x64_S1x1x256x64_0_12_0_0 : (Rect.unit (s := S1x16x256x64) ![0, 12, 0, 0] S1x1x256x64.size inb_S1x16x256x64_S1x1x256x64_0_12_0_0).PackedRows (EltTy.packing .bf16)
  slices_S256x1024_o0_832_S256x64 : S256x1024.Slices ![0, 832] S256x64
  inb_S1x16x256x64_S1x1x256x64_0_13_0_0 : ∀ a, (![0, 13, 0, 0] : Fin 4 → Nat) a + S1x1x256x64.size a ≤ S1x16x256x64.size a
  packedbf16_S1x16x256x64_S1x1x256x64_0_13_0_0 : (Rect.unit (s := S1x16x256x64) ![0, 13, 0, 0] S1x1x256x64.size inb_S1x16x256x64_S1x1x256x64_0_13_0_0).PackedRows (EltTy.packing .bf16)
  slices_S256x1024_o0_896_S256x64 : S256x1024.Slices ![0, 896] S256x64
  inb_S1x16x256x64_S1x1x256x64_0_14_0_0 : ∀ a, (![0, 14, 0, 0] : Fin 4 → Nat) a + S1x1x256x64.size a ≤ S1x16x256x64.size a
  packedbf16_S1x16x256x64_S1x1x256x64_0_14_0_0 : (Rect.unit (s := S1x16x256x64) ![0, 14, 0, 0] S1x1x256x64.size inb_S1x16x256x64_S1x1x256x64_0_14_0_0).PackedRows (EltTy.packing .bf16)
  slices_S256x1024_o0_960_S256x64 : S256x1024.Slices ![0, 960] S256x64
  inb_S1x16x256x64_S1x1x256x64_0_15_0_0 : ∀ a, (![0, 15, 0, 0] : Fin 4 → Nat) a + S1x1x256x64.size a ≤ S1x16x256x64.size a
  packedbf16_S1x16x256x64_S1x1x256x64_0_15_0_0 : (Rect.unit (s := S1x16x256x64) ![0, 15, 0, 0] S1x1x256x64.size inb_S1x16x256x64_S1x1x256x64_0_15_0_0).PackedRows (EltTy.packing .bf16)
  inb_S1x2x256x64_S1x1x256x64_0_0_0_0 : ∀ a, (![0, 0, 0, 0] : Fin 4 → Nat) a + S1x1x256x64.size a ≤ S1x2x256x64.size a
  inb_S1x2x2048x64_S1x1x2048x64_0_0_0_0 : ∀ a, (![0, 0, 0, 0] : Fin 4 → Nat) a + S1x1x2048x64.size a ≤ S1x2x2048x64.size a
  h_S1x1x2048x64 : 0 < S1x1x2048x64.numel
  shapeCasts_S1x1x2048x64_S2048x64 : S1x1x2048x64.ShapeCasts S2048x64
  reduces_S256x2048_S256 : S256x2048.Reduces [1] S256
  broadcasts_S256x1_S256x2048 : S256x1.Broadcasts S256x2048
  broadcasts_S256x1_S256x64 : S256x1.Broadcasts S256x64
  inb_S1x256x128_S1x256x64_0_0_0 : ∀ a, (![0, 0, 0] : Fin 3 → Nat) a + S1x256x64.size a ≤ S1x256x128.size a
  h_S1x256x64 : 0 < S1x256x64.numel
  shapeCasts_S1x256x64_S256x64 : S1x256x64.ShapeCasts S256x64
  shapeCasts_S256x64_S1x256x64 : S256x64.ShapeCasts S1x256x64
  inb_S1x2x256x64_S1x1x256x64_0_1_0_0 : ∀ a, (![0, 1, 0, 0] : Fin 4 → Nat) a + S1x1x256x64.size a ≤ S1x2x256x64.size a
  inb_S1x2x2048x64_S1x1x2048x64_0_1_0_0 : ∀ a, (![0, 1, 0, 0] : Fin 4 → Nat) a + S1x1x2048x64.size a ≤ S1x2x2048x64.size a
  inb_S1x256x128_S1x256x64_0_0_64 : ∀ a, (![0, 0, 64] : Fin 3 → Nat) a + S1x256x64.size a ≤ S1x256x128.size a
  dot_S256x1024_S1024x1024_S256x1024_1_0_0_1_n_n_wf : DotDims.WF S256x1024 S1024x1024 S256x1024 [1] [0] [0] [1] [] []
  dot_S256x1024_S1024x2048_S256x2048_1_0_0_1_n_n_wf : DotDims.WF S256x1024 S1024x2048 S256x2048 [1] [0] [0] [1] [] []
  dot_S256x64_S2048x64_S256x2048_1_1_0_0_n_n_wf : DotDims.WF S256x64 S2048x64 S256x2048 [1] [1] [0] [0] [] []
  dot_S256x2048_S2048x64_S256x64_1_0_0_1_n_n_wf : DotDims.WF S256x2048 S2048x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x256x64.size a ≤ S2x16x2048x64.size a
  hwx0_6 : ∀ i : grid0.Coords, EltTy.bits .bf16 = 32 ∨ (Rect.block (s := S2x16x2048x64) S1x16x256x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x16x256x64.size a ≤ S2x16x2048x64.size a
  hwx0_7 : ∀ i : grid0.Coords, EltTy.bits .bf16 = 32 ∨ (Rect.block (s := S2x16x2048x64) S1x16x256x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x16x256x64.size a ≤ S2x16x2048x64.size a
  hwx0_8 : ∀ i : grid0.Coords, EltTy.bits .bf16 = 32 ∨ (Rect.block (s := S2x16x2048x64) S1x16x256x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x2x256x64.size a ≤ S2x16x2048x64.size a
  hwx1_0 : ∀ i : grid1.Coords, EltTy.bits .bf16 = 32 ∨ (Rect.block (s := S2x16x2048x64) S1x2x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2x2048x64.size a ≤ S2x16x2048x64.size a
  hwx1_1 : ∀ i : grid1.Coords, EltTy.bits .bf16 = 32 ∨ (Rect.block (s := S2x16x2048x64) S1x2x2048x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2x2048x64.size a ≤ S2x16x2048x64.size a
  hwx1_2 : ∀ i : grid1.Coords, EltTy.bits .bf16 = 32 ∨ (Rect.block (s := S2x16x2048x64) S1x2x2048x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x128.size a ≤ S2x2048x1024.size a
  hwx1_3 : ∀ i : grid1.Coords, EltTy.bits .f32 = 32 ∨ (Rect.block (s := S2x2048x1024) S1x256x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x128.size a ≤ S2x2048x1024.size a
  hwx1_4 : ∀ i : grid1.Coords, EltTy.bits .f32 = 32 ∨ (Rect.block (s := S2x2048x1024) S1x256x128.size (cc1_transform_4 i) (hinb1_4 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x64_S2048x64_S256x2048_1_1_0_0_n_n : DotDims S256x64 S2048x64 S256x2048 where
  lhsContracting := [1]
  rhsContracting := [1]
  lhsNonContracting := [0]
  rhsNonContracting := [0]
  lhsBatch := []
  rhsBatch := []
  wf := dot_S256x64_S2048x64_S256x2048_1_1_0_0_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x16x256x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x16x256x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_2) S1x16x256x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v6_0) S1x2x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x2x2048x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6_2) S1x2x2048x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S1x256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1x256x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x2048x1024 : Shape := ⟨3, ![2, 2048, 1024]⟩
abbrev S1024 : Shape := ⟨1, ![1024]⟩
abbrev S2048x1024 : Shape := ⟨2, ![2048, 1024]⟩
abbrev S1024x1024 : Shape := ⟨2, ![1024, 1024]⟩
abbrev S_ : Shape := ⟨0, ![]⟩
abbrev S2x2048 : Shape := ⟨2, ![2, 2048]⟩
abbrev S2x2048x1 : Shape := ⟨3, ![2, 2048, 1]⟩
abbrev S1x1x1024 : Shape := ⟨3, ![1, 1, 1024]⟩
abbrev S2x2048x2048 : Shape := ⟨3, ![2, 2048, 2048]⟩
abbrev S2x2048x16x64 : Shape := ⟨4, ![2, 2048, 16, 64]⟩
abbrev S2x16x2048x64 : Shape := ⟨4, ![2, 16, 2048, 64]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩

abbrev nBuf : Space → Nat
  | .hbm => 67
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S2x2048x1024, .f32⟩
  | .hbm, ⟨2, _⟩ => ⟨S1024, .f32⟩
  | .hbm, ⟨3, _⟩ => ⟨S1024, .f32⟩
  | .hbm, ⟨4, _⟩ => ⟨S2048x1024, .f32⟩
  | .hbm, ⟨5, _⟩ => ⟨S1024x1024, .f32⟩
  | .hbm, ⟨6, _⟩ => ⟨S_, .f32⟩
  | .hbm, ⟨7, _⟩ => ⟨S2x2048, .f32⟩
  | .hbm, ⟨8, _⟩ => ⟨S2x2048x1, .f32⟩
  | .hbm, ⟨9, _⟩ => ⟨S_, .f32⟩
  | .hbm, ⟨10, _⟩ => ⟨S2x2048x1, .f32⟩
  | .hbm, ⟨11, _⟩ => ⟨S2x2048x1, .f32⟩
  | .hbm, ⟨12, _⟩ => ⟨S2x2048x1024, .f32⟩
  | .hbm, ⟨13, _⟩ => ⟨S2x2048x1024, .f32⟩
  | .hbm, ⟨14, _⟩ => ⟨S2x2048x1024, .f32⟩
  | .hbm, ⟨15, _⟩ => ⟨S_, .f32⟩
  | .hbm, ⟨16, _⟩ => ⟨S2x2048, .f32⟩
  | .hbm, ⟨17, _⟩ => ⟨S2x2048x1, .f32⟩
  | .hbm, ⟨18, _⟩ => ⟨S_, .f32⟩
  | .hbm, ⟨19, _⟩ => ⟨S2x2048x1, .f32⟩
  | .hbm, ⟨20, _⟩ => ⟨S2x2048x1, .f32⟩
  | .hbm, ⟨21, _⟩ => ⟨S2x2048x1024, .f32⟩
  | .hbm, ⟨22, _⟩ => ⟨S2x2048x1024, .f32⟩
  | .hbm, ⟨23, _⟩ => ⟨S_, .f32⟩
  | .hbm, ⟨24, _⟩ => ⟨S2x2048x1, .f32⟩
  | .hbm, ⟨25, _⟩ => ⟨S2x2048x1, .f32⟩
  | .hbm, ⟨26, _⟩ => ⟨S2x2048x1, .f32⟩
  | .hbm, ⟨27, _⟩ => ⟨S2x2048x1024, .f32⟩
  | .hbm, ⟨28, _⟩ => ⟨S2x2048x1024, .f32⟩
  | .hbm, ⟨29, _⟩ => ⟨S1x1x1024, .f32⟩
  | .hbm, ⟨30, _⟩ => ⟨S2x2048x1024, .f32⟩
  | .hbm, ⟨31, _⟩ => ⟨S2x2048x1024, .f32⟩
  | .hbm, ⟨32, _⟩ => ⟨S1x1x1024, .f32⟩
  | .hbm, ⟨33, _⟩ => ⟨S2x2048x1024, .f32⟩
  | .hbm, ⟨34, _⟩ => ⟨S2x2048x1024, .f32⟩
  | .hbm, ⟨35, _⟩ => ⟨S2x2048x2048, .f32⟩
  | .hbm, ⟨36, _⟩ => ⟨S2x2048x1024, .f32⟩
  | .hbm, ⟨37, _⟩ => ⟨S2x2048x1024, .f32⟩
  | .hbm, ⟨38, _⟩ => ⟨S2x2048x1024, .f32⟩
  | .hbm, ⟨39, _⟩ => ⟨S2x2048x16x64, .f32⟩
  | .hbm, ⟨40, _⟩ => ⟨S2x16x2048x64, .f32⟩
  | .hbm, ⟨41, _⟩ => ⟨S2x2048x16x64, .f32⟩
  | .hbm, ⟨42, _⟩ => ⟨S2x16x2048x64, .f32⟩
  | .hbm, ⟨43, _⟩ => ⟨S2x2048x16x64, .f32⟩
  | .hbm, ⟨44, _⟩ => ⟨S2x16x2048x64, .f32⟩
  | .hbm, ⟨45, _⟩ => ⟨S2x16x2048x2048, .f32⟩
  | .hbm, ⟨46, _⟩ => ⟨S_, .f32⟩
  | .hbm, ⟨47, _⟩ => ⟨S2x16x2048x2048, .f32⟩
  | .hbm, ⟨48, _⟩ => ⟨S2x16x2048x2048, .f32⟩
  | .hbm, ⟨49, _⟩ => ⟨S_, .f32⟩
  | .hbm, ⟨50, _⟩ => ⟨S2x16x2048, .f32⟩
  | .hbm, ⟨51, _⟩ => ⟨S_, .f32⟩
  | .hbm, ⟨52, _⟩ => ⟨S2x16x2048, .f32⟩
  | .hbm, ⟨53, _⟩ => ⟨S2x16x2048, .f32⟩
  | .hbm, ⟨54, _⟩ => ⟨S2x16x2048x1, .f32⟩
  | .hbm, ⟨55, _⟩ => ⟨S2x16x2048x2048, .f32⟩
  | .hbm, ⟨56, _⟩ => ⟨S2x16x2048x2048, .f32⟩
  | .hbm, ⟨57, _⟩ => ⟨S2x16x2048x2048, .f32⟩
  | .hbm, ⟨58, _⟩ => ⟨S_, .f32⟩
  | .hbm, ⟨59, _⟩ => ⟨S2x16x2048, .f32⟩
  | .hbm, ⟨60, _⟩ => ⟨S2x16x2048x1, .f32⟩
  | .hbm, ⟨61, _⟩ => ⟨S2x16x2048x2048, .f32⟩
  | .hbm, ⟨62, _⟩ => ⟨S2x16x2048x2048, .f32⟩
  | .hbm, ⟨63, _⟩ => ⟨S2x16x2048x64, .f32⟩
  | .hbm, ⟨64, _⟩ => ⟨S2x2048x16x64, .f32⟩
  | .hbm, ⟨65, _⟩ => ⟨S2x2048x1024, .f32⟩
  | .hbm, ⟨66, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_4 : Ref sig .tc := ⟨.hbm, 46, rfl⟩
abbrev main_v35 : Ref sig .tc := ⟨.hbm, 47, rfl⟩
abbrev main_v36 : Ref sig .tc := ⟨.hbm, 48, rfl⟩
abbrev main_cst_5 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]

class Facts₀ : Prop where
  reducesTo_S2x2048x1024_S2x2048_d2 : S2x2048x1024.ReducesTo [2] S2x2048
  h_S_ : 0 < S_.numel
  bcast_S2x2048_S2x2048x1_0_1 : S2x2048.BroadcastsInDim S2x2048x1 (![0, 1] : Fin 2 → Fin S2x2048x1.rank)
  bcast_S_S2x2048x1 : S_.BroadcastsInDim S2x2048x1 (![] : Fin 0 → Fin S2x2048x1.rank)
  bcast_S2x2048x1_S2x2048x1024_0_1_2 : S2x2048x1.BroadcastsInDim S2x2048x1024 (![0, 1, 2] : Fin 3 → Fin S2x2048x1024.rank)
  bcast_S1024_S1x1x1024_2 : S1024.BroadcastsInDim S1x1x1024 (![2] : Fin 1 → Fin S1x1x1024.rank)
  bcast_S1x1x1024_S2x2048x1024_0_1_2 : S1x1x1024.BroadcastsInDim S2x2048x1024 (![0, 1, 2] : Fin 3 → Fin S2x2048x1024.rank)
  slices_S2x2048x2048_S2x2048x1024_0_0_0 : S2x2048x2048.Slices ![0, 0, 0] S2x2048x1024
  slices_S2x2048x2048_S2x2048x1024_0_0_1024 : S2x2048x2048.Slices ![0, 0, 1024] S2x2048x1024
  shapeCasts_S2x2048x1024_S2x2048x16x64 : S2x2048x1024.ShapeCasts S2x2048x16x64
  transposes_S2x2048x16x64_S2x16x2048x64_0_2_1_3 : S2x2048x16x64.Transposes [0, 2, 1, 3] S2x16x2048x64
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  transposes_S2x16x2048x64_S2x2048x16x64_0_2_1_3 : S2x16x2048x64.Transposes [0, 2, 1, 3] S2x2048x16x64
  shapeCasts_S2x2048x16x64_S2x2048x1024 : S2x2048x16x64.ShapeCasts S2x2048x1024
  dot_S2x2048x1024_S2048x1024_S2x2048x2048_2_1_01_0_n_n_wf : DotDims.WF S2x2048x1024 S2048x1024 S2x2048x2048 [2] [1] [0, 1] [0] [] []
  dot_S2x2048x1024_S1024x1024_S2x2048x1024_2_1_01_0_n_n_wf : DotDims.WF S2x2048x1024 S1024x1024 S2x2048x1024 [2] [1] [0, 1] [0] [] []
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x2048x1024_S2048x1024_S2x2048x2048_2_1_01_0_n_n : DotDims S2x2048x1024 S2048x1024 S2x2048x2048 where
  lhsContracting := [2]
  rhsContracting := [1]
  lhsNonContracting := [0, 1]
  rhsNonContracting := [0]
  lhsBatch := []
  rhsBatch := []
  wf := dot_S2x2048x1024_S2048x1024_S2x2048x2048_2_1_01_0_n_n_wf
def dot_S2x2048x1024_S1024x1024_S2x2048x1024_2_1_01_0_n_n : DotDims S2x2048x1024 S1024x1024 S2x2048x1024 where
  lhsContracting := [2]
  rhsContracting := [1]
  lhsNonContracting := [0, 1]
  rhsNonContracting := [0]
  lhsBatch := []
  rhsBatch := []
  wf := dot_S2x2048x1024_S1024x1024_S2x2048x1024_2_1_01_0_n_n_wf
def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.KernelRun.lean ====
/-
  The idealized kernel's run with its result array named. Every weakly fair execution of the program ends with
  the result buffer holding what the second region's write-backs leave of it, and with the six argument arrays as
  launched: the two regions and the host stretch before them, run in order from the launch memory, each region
  entered from the contents the segment before it leaves.
-/
import proofs.«120350_j23639499997334_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result buffer ends at the last boundary's contents of it, the arguments as launched. -/
theorem run_result : θ_run defs (onTc (τ := τ) (main (F := F))) ⟨m, fun _ => 0, ρ⟩ (fun r => ∀ c : Dev nD,
      r.2.mem ((c.tc : Thread nD τ).loc main_v7) = W3 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v7 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c)⟩)

end Cert.KernelIdeal.RunValue

end
-- ==== Proof.Spec.lean ====
/-
  The mathematics of one cross-attention layer, stated once over extended reals with every index a literal
  coordinate: a layer norm over the 1024 features of each of the 2 x 2048 rows, a query projection of the
  normalised rows and a key/value projection of the cross rows (each entry a sum over 1024 features), the split
  of the 1024 (resp. 2 x 1024) projected columns into 16 heads of 64 lanes, and per (batch, head) the softmax of
  the scaled scores applied to the values, plus the residual.

  Two arrangements of the last step are stated: the one that normalises AFTER summing against the values,
  (sum_k p_k v_k) / (sum_k p_k), with the scores scaled by the factor 1/8; and the one that normalises BEFORE,
  sum_k (p_k / sum p) v_k, with the scores divided by 8. They are equal once every entry is a real number.
-/
import Idealize.ShloMosaic.PureOps.Ideal
import Idealize.ShloMosaic.PureOps.Ideal.Laws

noncomputable section

namespace Cert.CrossAttn

open Idealize.ShloMosaic

/-! ## Layer norm and the two projections -/

section Proj

variable (X C : Fin 2 → Fin 2048 → Fin 1024 → EReal) (γ β : Fin 1024 → EReal)
  (Wkv : Fin 2048 → Fin 1024 → EReal) (Wq : Fin 1024 → Fin 1024 → EReal)

/-- The mean of row (b, s): its 1024 entries summed, divided by 1024. -/
def mean (b : Fin 2) (s : Fin 2048) : EReal :=
  Ideal.div (∑ d : Fin 1024, X b s d) (Ideal.ofBits .f32 0x44800000#32)

/-- The row with its mean taken off. -/
def cen (b : Fin 2) (s : Fin 2048) (d : Fin 1024) : EReal := X b s d - mean X b s

/-- The variance of row (b, s): the mean of the centred squares. -/
def var (b : Fin 2) (s : Fin 2048) : EReal :=
  Ideal.div (∑ d : Fin 1024, cen X b s d * cen X b s d) (Ideal.ofBits .f32 0x44800000#32)

/-- The normalised row: centred, scaled by the inverse root of the variance plus epsilon, then the affine map. -/
def lnorm (b : Fin 2) (s : Fin 2048) (d : Fin 1024) : EReal :=
  cen X b s d * Ideal.rsqrt (var X b s + Ideal.ofBits .f32 0x3727C5AC#32) * γ d + β d

/-- The query projection: row (b, s) of the normalised input against row e of the query weight. -/
def qproj (b : Fin 2) (s : Fin 2048) (e : Fin 1024) : EReal :=
  ∑ d : Fin 1024, lnorm X γ β b s d * Wq e d

/-- The key/value projection: row (b, s) of the cross input against row e of the key/value weight. -/
def kvproj (b : Fin 2) (s : Fin 2048) (e : Fin 2048) : EReal :=
  ∑ d : Fin 1024, C b s d * Wkv e d

end Proj

/-! ## Heads -/

/-- Column 64 h + j of the 1024 query (or key) columns: lane j of head h. -/
def lane (h : Fin 16) (j : Fin 64) : Fin 1024 := ⟨64 * h.val + j.val, by omega⟩
/-- The same column among the 2048 key/value columns (keys are the first 1024). -/
def laneK (h : Fin 16) (j : Fin 64) : Fin 2048 := ⟨64 * h.val + j.val, by omega⟩
/-- Lane j of head h among the value columns (the last 1024 of the 2048). -/
def laneV (h : Fin 16) (j : Fin 64) : Fin 2048 := ⟨1024 + (64 * h.val + j.val), by omega⟩
/-- The head a column belongs to, and its lane there. -/
def headOf (e : Fin 1024) : Fin 16 := ⟨e.val / 64, by omega⟩
def laneOf (e : Fin 1024) : Fin 64 := ⟨e.val % 64, Nat.mod_lt _ (by norm_num)⟩

theorem lane_headOf_laneOf (e : Fin 1024) : lane (headOf e) (laneOf e) = e :=
  Fin.ext (by simp only [lane, headOf, laneOf]; omega)

/-! ## One head's attention -/

section Head

variable (q k v : Fin 2048 → Fin 64 → EReal)

/-- The raw score of query row i against key row n: the sum over the 64 lanes. -/
def score (i n : Fin 2048) : EReal := ∑ j : Fin 64, q i j * k n j

/-- The greatest entry of a row of 2048 scores, as a fold of max from minus infinity. -/
def rowmax (s : Fin 2048 → EReal) : EReal :=
  (Finset.univ : Finset (Fin 2048)).fold max (Ideal.ofBits .f32 0xFF800000#32) s

/-- The exponential of a score less its row's greatest. -/
def pexp (s : Fin 2048 → Fin 2048 → EReal) (i n : Fin 2048) : EReal := Ideal.exp (s i n - rowmax (s i))

/-- Normalising AFTER the sum against the values. -/
def attAfter (s : Fin 2048 → Fin 2048 → EReal) (i : Fin 2048) (j : Fin 64) : EReal :=
  Ideal.div (∑ n : Fin 2048, pexp s i n * v n j) (∑ n : Fin 2048, pexp s i n)

/-- Normalising BEFORE the sum against the values. -/
def attBefore (s : Fin 2048 → Fin 2048 → EReal) (i : Fin 2048) (j : Fin 64) : EReal :=
  ∑ n : Fin 2048, Ideal.div (pexp s i n) (∑ n' : Fin 2048, pexp s i n') * v n j

/-- Scores scaled by the factor one eighth. -/
def scoreMul (i n : Fin 2048) : EReal := score q k i n * Ideal.ofBits .f32 0x3E000000#32
/-- Scores divided by eight. -/
def scoreDiv (i n : Fin 2048) : EReal := Ideal.div (score q k i n) (Ideal.ofBits .f32 0x41000000#32)

end Head

/-! ## The layer -/

section Layer

variable (X C : Fin 2 → Fin 2048 → Fin 1024 → EReal) (γ β : Fin 1024 → EReal)
  (Wkv : Fin 2048 → Fin 1024 → EReal) (Wq : Fin 1024 → Fin 1024 → EReal)

/-- Head h of batch b: its queries, keys and values, each 2048 rows of 64 lanes. -/
def qHead (b : Fin 2) (h : Fin 16) (i : Fin 2048) (j : Fin 64) : EReal := qproj X γ β Wq b i (lane h j)
def kHead (b : Fin 2) (h : Fin 16) (n : Fin 2048) (j : Fin 64) : EReal := kvproj C Wkv b n (laneK h j)
def vHead (b : Fin 2) (h : Fin 16) (n : Fin 2048) (j : Fin 64) : EReal := kvproj C Wkv b n (laneV h j)

/-- The layer's result at (b, s, e), normalising after the sum, scores times one eighth. -/
def layerAfter (b : Fin 2) (s : Fin 2048) (e : Fin 1024) : EReal :=
  attAfter (vHead C Wkv b (headOf e))
    (scoreMul (qHead X γ β Wq b (headOf e)) (kHead C Wkv b (headOf e))) s (laneOf e) + X b s e

/-- The layer's result at (b, s, e), normalising before the sum, scores divided by eight. -/
def layerBefore (b : Fin 2) (s : Fin 2048) (e : Fin 1024) : EReal :=
  attBefore (vHead C Wkv b (headOf e))
    (scoreDiv (qHead X γ β Wq b (headOf e)) (kHead C Wkv b (headOf e))) s (laneOf e) + X b s e

end Layer

end Cert.CrossAttn

end
-- ==== Proof.RowSpec.lean ====
/-
  Row-level forms of the layer's definitions. A block of rows sees one row at a time: the layer norm of a row
  depends only on that row, and a query row's attention depends on the keys and values and on that row's scores
  only. Each definition here is the corresponding whole-array one read at a row, by unfolding.
-/
import proofs.«120350_j23639499997334_2_alg».proof.Proof.Spec

noncomputable section

namespace Cert.CrossAttn

open Idealize.ShloMosaic

/-- The mean of one row of 1024 entries. -/
def rowMean (row : Fin 1024 → EReal) : EReal :=
  Ideal.div (∑ d : Fin 1024, row d) (Ideal.ofBits .f32 0x44800000#32)

/-- The variance of one row: the mean of its centred squares. -/
def rowVar (row : Fin 1024 → EReal) : EReal :=
  Ideal.div (∑ d : Fin 1024, (row d - rowMean row) * (row d - rowMean row)) (Ideal.ofBits .f32 0x44800000#32)

/-- The layer norm of one row. -/
def lnRow (row γ β : Fin 1024 → EReal) (d : Fin 1024) : EReal :=
  (row d - rowMean row) * Ideal.rsqrt (rowVar row + Ideal.ofBits .f32 0x3727C5AC#32) * γ d + β d

theorem lnorm_eq_lnRow (X : Fin 2 → Fin 2048 → Fin 1024 → EReal) (γ β : Fin 1024 → EReal)
    (b : Fin 2) (s : Fin 2048) (d : Fin 1024) : lnorm X γ β b s d = lnRow (X b s) γ β d := rfl

/-- One query row's scaled scores against every key row. -/
def scoreRow (qrow : Fin 64 → EReal) (k : Fin 2048 → Fin 64 → EReal) (n : Fin 2048) : EReal :=
  (∑ j : Fin 64, qrow j * k n j) * Ideal.ofBits .f32 0x3E000000#32

theorem scoreMul_eq_scoreRow (q k : Fin 2048 → Fin 64 → EReal) (i : Fin 2048) :
    scoreMul q k i = scoreRow (q i) k := rfl

/-- One query row's attention, normalising after the sum against the values. -/
def attRow (srow : Fin 2048 → EReal) (v : Fin 2048 → Fin 64 → EReal) (j : Fin 64) : EReal :=
  Ideal.div (∑ n : Fin 2048, Ideal.exp (srow n - rowmax srow) * v n j)
    (∑ n : Fin 2048, Ideal.exp (srow n - rowmax srow))

theorem attAfter_eq_attRow (v : Fin 2048 → Fin 64 → EReal) (s : Fin 2048 → Fin 2048 → EReal)
    (i : Fin 2048) (j : Fin 64) : attAfter v s i j = attRow (s i) v j := rfl

end Cert.CrossAttn

end
-- ==== Proof.Body0.lean ====
/-
  The layer-norm-and-projection body's matrices read at an index.

  The query block: each of the 256 rows of 1024 entries is centred on its mean, scaled by the inverse root of its
  variance plus epsilon, mapped affinely by two 1024-vectors broadcast along the rows, and contracted against a
  1024 x 1024 matrix; at (r, e) this is the sum over d of the row's layer norm at d times the matrix at (d, e).
  The key/value block is the plain contraction of a 256 x 1024 block against a 1024 x 2048 matrix, and the key and
  value blocks are its first and last 1024 columns. Changes of format are the identity on extended reals.
-/
import proofs.«120350_j23639499997334_2_alg».proof.Proof.Gen.KernelIdeal.Skeleton
import proofs.«120350_j23639499997334_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn

open Idealize.ShloMosaic Idealize.ShloMosaic.ValueIdx Cert.KernelIdeal Cert.KernelIdeal.Gen

/-! ## Two layout forms of a column kept as a unit axis -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row sum -/

/-- The sum over axis 1 of a 256 x 1024 block, read at row `r`, is the sum of that row's 1024 entries. -/
theorem rowsum_apply (x : FVec Ideal S256x1024 .f32) (r : Fin 256) :
    multiReduction (F := Ideal) .add [1] S256 x 0x00000000#32 reduces_S256x1024_S256 (.inl rfl) rfl (ix1 r)
      = ∑ d : Fin 1024, x (ix2 r d) := by
  refine (Ideal.multiReduction_add_single x 0x00000000#32 reduces_S256x1024_S256 (.inl rfl) rfl (ix1 r)).trans ?_
  refine Finset.sum_congr rfl fun k _ => ?_
  exact congrArg x (funext fun a => Fin.ext (by match a with | ⟨0, _⟩ => rfl | ⟨1, _⟩ => rfl))

/-! ## The two contractions -/

theorem qdot_lhs0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem qdot_lhs1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem qdot_rhs0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem qdot_rhs1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The 256 x 1024 by 1024 x 1024 contraction into a zero accumulator, read at `(r, e)`: the sum over the 1024
    contracted coordinates. -/
theorem qmatmul_apply (A : FVec Ideal S256x1024 .bf16) (B : FVec Ideal S1024x1024 .bf16) (r : Fin 256) (e : Fin 1024) :
    matmul dot_S256x1024_S1024x1024_S256x1024_1_0_0_1_n_n none A B (constant (F := Ideal) S256x1024 .f32 0x00000000#32) (ix2 r e)
      = ∑ d : Fin 1024, A (ix2 r d) * B (ix2 d e) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r e) ((contrEquiv1 dot_S256x1024_S1024x1024_S256x1024_1_0_0_1_n_n 1024 rfl rfl).symm k) = ix2 r k := funext fun a => Fin.ext (by
    match a with
    | ⟨0, _⟩ => exact qdot_lhs0 _ _
    | ⟨1, _⟩ => exact (qdot_lhs1 _ _).trans hk)
  have er : dot_S256x1024_S1024x1024_S256x1024_1_0_0_1_n_n.rhsIdx (ix2 r e) ((contrEquiv1 dot_S256x1024_S1024x1024_S256x1024_1_0_0_1_n_n 1024 rfl rfl).symm k) = ix2 k e := funext fun a => Fin.ext (by
    match a with
    | ⟨0, _⟩ => exact (qdot_rhs0 _ _).trans hk
    | ⟨1, _⟩ => exact qdot_rhs1 _ _)
  rw [el, er]

theorem kvdot_lhs0 (i : S256x2048.Idx) (q : dot_S256x1024_S1024x2048_S256x2048_1_0_0_1_n_n.contr.Idx) :
    (dot_S256x1024_S1024x2048_S256x2048_1_0_0_1_n_n.lhsIdx i q 0).val = (i 0).val := by
  unfold DotDims.lhsIdx
  rw [dif_neg (show ¬(0 : Fin S256x1024.rank) ∈ dot_S256x1024_S1024x2048_S256x2048_1_0_0_1_n_n.lhsBatch by decide), dif_pos (show (0 : Fin S256x1024.rank) ∈ dot_S256x1024_S1024x2048_S256x2048_1_0_0_1_n_n.lhsNonContracting by decide)]
  rfl
theorem kvdot_lhs1 (i : S256x2048.Idx) (q : dot_S256x1024_S1024x2048_S256x2048_1_0_0_1_n_n.contr.Idx) :
    (dot_S256x1024_S1024x2048_S256x2048_1_0_0_1_n_n.lhsIdx i q 1).val = (q ⟨0, by decide⟩).val :=
  dot_S256x1024_S1024x2048_S256x2048_1_0_0_1_n_n.lhsIdx_val_of_single rfl i q
theorem kvdot_rhs0 (i : S256x2048.Idx) (q : dot_S256x1024_S1024x2048_S256x2048_1_0_0_1_n_n.contr.Idx) :
    (dot_S256x1024_S1024x2048_S256x2048_1_0_0_1_n_n.rhsIdx i q 0).val = (q ⟨0, by decide⟩).val :=
  dot_S256x1024_S1024x2048_S256x2048_1_0_0_1_n_n.rhsIdx_val_of_single rfl i q
theorem kvdot_rhs1 (i : S256x2048.Idx) (q : dot_S256x1024_S1024x2048_S256x2048_1_0_0_1_n_n.contr.Idx) :
    (dot_S256x1024_S1024x2048_S256x2048_1_0_0_1_n_n.rhsIdx i q 1).val = (i 1).val := by
  unfold DotDims.rhsIdx
  rw [dif_neg (show ¬(1 : Fin S1024x2048.rank) ∈ dot_S256x1024_S1024x2048_S256x2048_1_0_0_1_n_n.rhsBatch by decide), dif_pos (show (1 : Fin S1024x2048.rank) ∈ dot_S256x1024_S1024x2048_S256x2048_1_0_0_1_n_n.rhsNonContracting by decide)]
  rfl

/-- The 256 x 1024 by 1024 x 2048 contraction into a zero accumulator, read at `(r, e)`. -/
theorem kvmatmul_apply (A : FVec Ideal S256x1024 .bf16) (B : FVec Ideal S1024x2048 .bf16) (r : Fin 256) (e : Fin 2048) :
    matmul dot_S256x1024_S1024x2048_S256x2048_1_0_0_1_n_n none A B (constant (F := Ideal) S256x2048 .f32 0x00000000#32) (ix2 r e)
      = ∑ d : Fin 1024, A (ix2 r d) * B (ix2 d e) := by
  simp only [matmul]
  rw [Ideal.matmul_constant_zero_apply, ← Equiv.sum_comp (contrEquiv1 dot_S256x1024_S1024x2048_S256x2048_1_0_0_1_n_n 1024 rfl rfl).symm]
  refine Finset.sum_congr rfl fun k _ => ?_
  have hk := contrEquiv1_symm_val dot_S256x1024_S1024x2048_S256x2048_1_0_0_1_n_n 1024 rfl rfl k
  have el : dot_S256x1024_S1024x2048_S256x2048_1_0_0_1_n_n.lhsIdx (ix2 r e) ((contrEquiv1 dot_S256x1024_S1024x2048_S256x2048_1_0_0_1_n_n 1024 rfl rfl).symm k) = ix2 r k := funext fun a => Fin.ext (by
    match a with
    | ⟨0, _⟩ => exact kvdot_lhs0 _ _
    | ⟨1, _⟩ => exact (kvdot_lhs1 _ _).trans hk)
  have er : dot_S256x1024_S1024x2048_S256x2048_1_0_0_1_n_n.rhsIdx (ix2 r e) ((contrEquiv1 dot_S256x1024_S1024x2048_S256x2048_1_0_0_1_n_n 1024 rfl rfl).symm k) = ix2 k e := funext fun a => Fin.ext (by
    match a with
    | ⟨0, _⟩ => exact (kvdot_rhs0 _ _).trans hk
    | ⟨1, _⟩ => exact kvdot_rhs1 _ _)
  rw [el, er]

/-! ## The layer norm of a block of rows, stage by stage -/

/-- A vector of 256 row sums kept as a column and divided by 1024. -/
def colMean (y : FVec Ideal S256 .f32) : FVec Ideal S256x1 .f32 :=
  divf (shapeCast S256x1 y shapeCasts_S256_S256x1) (broadcast S256x1 (Scalar.ofBits (F := Ideal) .f32 0x44800000#32))

theorem colMean_apply (y : FVec Ideal S256 .f32) (r : Fin 256) (u : Fin 1) :
    colMean y (ix2 r u) = Ideal.div (y (ix1 r)) (Ideal.ofBits .f32 0x44800000#32) := by
  unfold colMean
  refine (divf_apply _ _ _).trans ?_
  exact congrArg (Ideal.div · (Ideal.ofBits .f32 0x44800000#32)) (shapeCast_a_a1_apply y shapeCasts_S256_S256x1 r u)

/-- The column of row means of a block. -/
def blkMean (x : FVec Ideal S256x1024 .f32) : FVec Ideal S256x1 .f32 :=
  colMean (multiReduction (F := Ideal) .add [1] S256 x 0x00000000#32 reduces_S256x1024_S256 (.inl rfl) rfl)

/-- The row mean at row `r`. -/
theorem blkMean_apply (x : FVec Ideal S256x1024 .f32) (r : Fin 256) (u : Fin 1) :
    blkMean x (ix2 r u) = rowMean (fun d => x (ix2 r d)) := by
  unfold blkMean
  refine (colMean_apply _ r u).trans ?_
  exact congrArg (Ideal.div · (Ideal.ofBits .f32 0x44800000#32)) (rowsum_apply x r)

/-- The block with each row's mean taken off. -/
def blkCen (x : FVec Ideal S256x1024 .f32) : FVec Ideal S256x1024 .f32 :=
  subf x (broadcastTo S256x1024 (blkMean x) broadcasts_S256x1_S256x1024)

/-- The centred entry at `(r, d)`. -/
theorem blkCen_apply (x : FVec Ideal S256x1024 .f32) (r : Fin 256) (d : Fin 1024) :
    blkCen x (ix2 r d) = x (ix2 r d) - rowMean (fun d' => x (ix2 r d')) := by
  unfold blkCen
  refine (subf_apply _ _ _).trans ?_
  refine congrArg (x (ix2 r d) - ·) ?_
  exact (broadcastTo_a1_ab_apply (blkMean x) broadcasts_S256x1_S256x1024 r d).trans (blkMean_apply x r 0)

/-- The column of row variances of a block. -/
def blkVar (x : FVec Ideal S256x1024 .f32) : FVec Ideal S256x1 .f32 :=
  colMean (multiReduction (F := Ideal) .add [1] S256 (mulf (blkCen x) (blkCen x)) 0x00000000#32 reduces_S256x1024_S256 (.inl rfl) rfl)

/-- The row variance at row `r`. -/
theorem blkVar_apply (x : FVec Ideal S256x1024 .f32) (r : Fin 256) (u : Fin 1) :
    blkVar x (ix2 r u) = rowVar (fun d => x (ix2 r d)) := by
  unfold blkVar
  refine (colMean_apply _ r u).trans ?_
  refine congrArg (Ideal.div · (Ideal.ofBits .f32 0x44800000#32)) ?_
  refine (rowsum_apply _ r).trans ?_
  refine Finset.sum_congr rfl fun d _ => ?_
  refine (mulf_apply _ _ _).trans ?_
  exact congrArg₂ (· * ·) (blkCen_apply x r d) (blkCen_apply x r d)

/-- The column of row scales: the inverse root of the variance plus epsilon. -/
def blkScale (x : FVec Ideal S256x1024 .f32) : FVec Ideal S256x1 .f32 :=
  rsqrt (addf (blkVar x) (broadcast S256x1 (Scalar.ofBits (F := Ideal) .f32 0x3727C5AC#32)))

/-- The scale at row `r`. -/
theorem blkScale_apply (x : FVec Ideal S256x1024 .f32) (r : Fin 256) (u : Fin 1) :
    blkScale x (ix2 r u) = Ideal.rsqrt (rowVar (fun d => x (ix2 r d)) + Ideal.ofBits .f32 0x3727C5AC#32) := by
  unfold blkScale
  show Ideal.rsqrt (blkVar x (ix2 r u) + Ideal.ofBits .f32 0x3727C5AC#32) = _
  rw [blkVar_apply x r u]

/-- A 1024-vector laid along every row of a block. -/
def rowVec (g : FVec Ideal S1024 .f32) : FVec Ideal S256x1024 .f32 :=
  broadcastTo S256x1024 (shapeCast S1x1024 g shapeCasts_S1024_S1x1024) broadcasts_S1x1024_S256x1024

theorem rowVec_apply (g : FVec Ideal S1024 .f32) (r : Fin 256) (d : Fin 1024) : rowVec g (ix2 r d) = g (ix1 d) := by
  unfold rowVec
  exact (broadcastTo_1b_ab_apply _ broadcasts_S1x1024_S256x1024 r d).trans
    (shapeCast_a_1a_apply g shapeCasts_S1024_S1x1024 0 d)

/-- The normalised block: centred, scaled row by row, then the affine map. -/
def blkNorm (x : FVec Ideal S256x1024 .f32) (g b : FVec Ideal S1024 .f32) : FVec Ideal S256x1024 .f32 :=
  addf (mulf (mulf (blkCen x) (broadcastTo S256x1024 (blkScale x) broadcasts_S256x1_S256x1024)) (rowVec g)) (rowVec b)

/-- The normalised entry at `(r, d)` is the layer norm of row `r` at `d`. -/
theorem blkNorm_apply (x : FVec Ideal S256x1024 .f32) (g b : FVec Ideal S1024 .f32) (r : Fin 256) (d : Fin 1024) :
    blkNorm x g b (ix2 r d) = lnRow (fun d' => x (ix2 r d')) (fun d' => g (ix1 d')) (fun d' => b (ix1 d')) d := by
  unfold blkNorm
  show blkCen x (ix2 r d) * broadcastTo S256x1024 (blkScale x) broadcasts_S256x1_S256x1024 (ix2 r d) * rowVec g (ix2 r d)
      + rowVec b (ix2 r d) = _
  rw [blkCen_apply x r d, broadcastTo_a1_ab_apply (blkScale x) broadcasts_S256x1_S256x1024 r d, blkScale_apply x r 0,
    rowVec_apply g r d, rowVec_apply b r d]
  rfl

/-! ## The query block -/

/-- The query block from its operands: the normalised block contracted against the weight. -/
def qBlock (x : FVec Ideal S256x1024 .f32) (g b : FVec Ideal S1024 .f32) (w : FVec Ideal S1024x1024 .bf16) :
    FVec Ideal S256x1024 .bf16 :=
  truncf .bf16 (matmul dot_S256x1024_S1024x1024_S256x1024_1_0_0_1_n_n none (truncf .bf16 (blkNorm x g b) bitsLt_bf16_f32) w
    (constant (F := Ideal) S256x1024 .f32 0x00000000#32)) bitsLt_bf16_f32

theorem k0_pay4_eq (v0 : Vec Ideal S256x1024 .f32) (v18 v22 : Vec Ideal S1024 .f32) (v30 : Vec Ideal S1024x1024 .bf16) :
    k0_pay4 (F := Ideal) v0 v18 v22 v30
      = qBlock (shapeCast S256x1024 v0 shapeCasts_S256x1024_S256x1024) v18 v22
          (shapeCast S1024x1024 v30 shapeCasts_S1024x1024_S1024x1024) := rfl

theorem pay_q_apply (v0 : Vec Ideal S256x1024 .f32) (v18 v22 : Vec Ideal S1024 .f32) (v30 : Vec Ideal S1024x1024 .bf16)
    (r : Fin 256) (e : Fin 1024) :
    k0_pay4 (F := Ideal) v0 v18 v22 v30 (ix2 r e)
      = ∑ d : Fin 1024, lnRow (fun d' => v0 (ix2 r d')) (fun d' => v18 (ix1 d')) (fun d' => v22 (ix1 d')) d * v30 (ix2 d e) := by
  rw [k0_pay4_eq, shapeCast_self, shapeCast_self]
  unfold qBlock
  refine (truncf_apply (ψ := .bf16) (φ := .f32) _ bitsLt_bf16_f32 (ix2 r e)).trans ?_
  refine (qmatmul_apply _ _ r e).trans ?_
  refine Finset.sum_congr rfl fun d _ => ?_
  exact congrArg (· * v30 (ix2 d e)) ((truncf_apply (ψ := .bf16) (φ := .f32) (blkNorm v0 v18 v22) bitsLt_bf16_f32 (ix2 r d)).trans
    (blkNorm_apply v0 v18 v22 r d))

/-! ## The key/value block and its two halves -/

/-- The key/value block from its operands. -/
def kvBlock (x : FVec Ideal S256x1024 .f32) (w : FVec Ideal S1024x2048 .bf16) : FVec Ideal S256x2048 .f32 :=
  matmul dot_S256x1024_S1024x2048_S256x2048_1_0_0_1_n_n none (truncf .bf16 x bitsLt_bf16_f32) w (constant (F := Ideal) S256x2048 .f32 0x00000000#32)

theorem k0_pay3_eq (v27 : Vec Ideal S256x1024 .f32) (v33 : Vec Ideal S1024x2048 .bf16) :
    k0_pay3 (F := Ideal) v27 v33
      = kvBlock (shapeCast S256x1024 v27 shapeCasts_S256x1024_S256x1024)
          (shapeCast S1024x2048 v33 shapeCasts_S1024x2048_S1024x2048) := rfl

theorem pay_kv_apply (v27 : Vec Ideal S256x1024 .f32) (v33 : Vec Ideal S1024x2048 .bf16) (r : Fin 256) (e : Fin 2048) :
    k0_pay3 (F := Ideal) v27 v33 (ix2 r e) = ∑ d : Fin 1024, v27 (ix2 r d) * v33 (ix2 d e) := by
  rw [k0_pay3_eq, shapeCast_self, shapeCast_self]
  unfold kvBlock
  refine (kvmatmul_apply _ _ r e).trans ?_
  exact Finset.sum_congr rfl fun d _ => rfl

theorem pay_k_apply (v27 : Vec Ideal S256x1024 .f32) (v33 : Vec Ideal S1024x2048 .bf16) (r : Fin 256) (e : Fin 1024) :
    k0_pay5 (F := Ideal) v27 v33 (ix2 r e) = ∑ d : Fin 1024, v27 (ix2 r d) * v33 (ix2 d ⟨e.val, by omega⟩) := by
  unfold k0_pay5
  show extractStridedSlice S256x1024 ![0, 0] (k0_pay3 (F := Ideal) v27 v33) slices_S256x2048_o0_0_S256x1024 (ix2 r e) = _
  refine (slice2_axis1_apply 0 (k0_pay3 (F := Ideal) v27 v33) slices_S256x2048_o0_0_S256x1024 r e ⟨e.val, by omega⟩
    (Nat.zero_add _).symm).trans ?_
  exact pay_kv_apply v27 v33 r ⟨e.val, by omega⟩

theorem pay_v_apply (v27 : Vec Ideal S256x1024 .f32) (v33 : Vec Ideal S1024x2048 .bf16) (r : Fin 256) (e : Fin 1024) :
    k0_pay6 (F := Ideal) v27 v33 (ix2 r e) = ∑ d : Fin 1024, v27 (ix2 r d) * v33 (ix2 d ⟨1024 + e.val, by omega⟩) := by
  unfold k0_pay6
  show extractStridedSlice S256x1024 ![0, 1024] (k0_pay3 (F := Ideal) v27 v33) slices_S256x2048_o0_1024_S256x1024 (ix2 r e) = _
  refine (slice2_axis1_apply 1024 (k0_pay3 (F := Ideal) v27 v33) slices_S256x2048_o0_1024_S256x1024 r e ⟨1024 + e.val, by omega⟩
    rfl).trans ?_
  exact pay_kv_apply v27 v33 r ⟨1024 + e.val, by omega⟩

end Cert.CrossAttn

end
-- ==== Proof.Blocks0.lean ====
/-
  The projection region, from blocks to the arrays. Each of the 16 grid points takes 256 consecutive rows of the
  flattened inputs (all within one batch) and writes, into each of the query, key and value arrays, the block
  (batch, all 16 heads, that row tile, all 64 lanes): head h, lane j of the block is column 64 h + j of the point's
  256 x 1024 matrix — the normalised rows against the transposed query weight, or the cross rows against the first or
  the second 1024 columns of the transposed key/value weight. A 64-column slice of that matrix recast as a
  [1, 1, 256, 64] piece is stored at head h; the 16 pieces tile the block, and the 16 blocks tile each array. Read at
  an index, each array is therefore one function of the arrays the region finds.
-/
import proofs.«120350_j23639499997334_2_alg».proof.Proof.Gen.KernelIdeal.Frame
import proofs.«120350_j23639499997334_2_alg».proof.Proof.RowSpec
import proofs.«120350_j23639499997334_2_alg».proof.Proof.Body0
import Idealize.ShloMosaic.Lib.ValueIdx
import Idealize.ShloMosaic.Lib.Pipeline.Value

set_option maxRecDepth 16384

noncomputable section

namespace Cert.CrossAttn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz1 : (![0] : Fin 1 → Nat) = fun _ => 0 := funext fun a => by fin_cases a <;> rfl
theorem hz2 : (![0, 0] : Fin 2 → Nat) = fun _ => 0 := funext fun a => by fin_cases a <;> rfl

/-- A 64-column slice of a 256 x 1024 matrix starting at column o, recast as a [1, 1, 256, 64] block, read at an
    index x: the matrix at the index k whose row is x 2 and whose column is o + x 3. -/
theorem slice_cast_apply (M : Vec Ideal S256x1024 .bf16) {o : Nat} (hs : S256x1024.Slices ![0, o] S256x64)
    (hc : S256x64.ShapeCasts S1x1x256x64) (x : S1x1x256x64.Idx) (k : S256x1024.Idx)
    (hk0 : (k 0).val = (x 2).val) (hk1 : (k 1).val = o + (x 3).val) :
    shapeCast S1x1x256x64 (extractStridedSlice S256x64 ![0, o] M hs) hc x = M k := by
  have h0 : (x 0).val < 1 := (x 0).isLt
  have h1 : (x 1).val < 1 := (x 1).isLt
  have h3 : (x 3).val < 64 := (x 3).isLt
  refine (shapeCast_apply _ hc x (ix2 (x 2) (x 3)) ?_).trans ?_
  · rw [Shape.rowMajor_val_two, Shape.rowMajor_val_four]
    show (x 2).val * 64 + (x 3).val = (((x 0).val * 1 + (x 1).val) * 256 + (x 2).val) * 64 + (x 3).val
    omega
  · refine extractStridedSlice_apply _ M hs _ k fun a => ?_
    match a with
    | ⟨0, _⟩ => show (k 0).val = 0 + (x 2).val; omega
    | ⟨1, _⟩ => show (k 1).val = o + (x 3).val; omega

/-- A [1, 16, 256, 64] block holding, for head h and lane j, column 64 h + j of a 256 x 1024 matrix. -/
def blockOut0 (M : Vec Ideal S256x1024 .bf16) : S1x16x256x64.Idx → EReal := fun y => M (ix2 (y 2) (lane (y 1) (y 3)))

/-- The first head's slice, taken of the loads directly, is the offset-0 slice of the query matrix. -/
theorem k0_pay7_eq (v0 : Vec Ideal S256x1024 .f32) (v18 v22 : Vec Ideal S1024 .f32) (v30 : Vec Ideal S1024x1024 .bf16) :
    k0_pay7 (F := Ideal) v0 v18 v22 v30
      = extractStridedSlice S256x64 ![0, 0] (k0_pay4 (F := Ideal) v0 v18 v22 v30) Facts₀.slices_S256x1024_o0_0_S256x64 := rfl

theorem out0_6_apply (x0 x1 : Vec Ideal S256x1024 .f32) (x2 x3 : Vec Ideal S1024 .f32) (x4 : Vec Ideal S1024x2048 .bf16)
    (x5 : Vec Ideal S1024x1024 .bf16) (y : S1x16x256x64.Idx) :
    out0_6 (F := Ideal) x0 x1 x2 x3 x4 x5 y = blockOut0 (k0_pay4 x0 x2 x3 x5) y := by
  unfold out0_6
  simp only [View.ld_unit_zero (S := S256x1024) hz2, View.ld_unit_zero (S := S1024) hz1,
    View.ld_unit_zero (S := S1024x1024) hz2, View.ld_unit_zero (S := S1024x2048) hz2]
  rw [k0_pay7_eq]
  generalize k0_pay4 x0 x2 x3 x5 = M
  refine View.canon_apply_of_pieces (Val := Elt Ideal) (blockOut0 M) _ ?_ y (cover0_6 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · -- head 15: columns 960 … 1023 of the matrix
    revert x; intro (x : S1x1x256x64.Idx)
    have h1 : (x 1).val < 1 := (x 1).isLt
    refine slice_cast_apply M Facts₀.slices_S256x1024_o0_960_S256x64 Facts₀.shapeCasts_S256x64_S1x1x256x64 x _ ?_ ?_
    · show 0 + 1 * (x 2).val = (x 2).val; omega
    · show 64 * (15 + 1 * (x 1).val) + (0 + 1 * (x 3).val) = 960 + (x 3).val; omega
  · -- head 14: columns 896 … 959 of the matrix
    revert x; intro (x : S1x1x256x64.Idx)
    have h1 : (x 1).val < 1 := (x 1).isLt
    refine slice_cast_apply M Facts₀.slices_S256x1024_o0_896_S256x64 Facts₀.shapeCasts_S256x64_S1x1x256x64 x _ ?_ ?_
    · show 0 + 1 * (x 2).val = (x 2).val; omega
    · show 64 * (14 + 1 * (x 1).val) + (0 + 1 * (x 3).val) = 896 + (x 3).val; omega
  · -- head 13: columns 832 … 895 of the matrix
    revert x; intro (x : S1x1x256x64.Idx)
    have h1 : (x 1).val < 1 := (x 1).isLt
    refine slice_cast_apply M Facts₀.slices_S256x1024_o0_832_S256x64 Facts₀.shapeCasts_S256x64_S1x1x256x64 x _ ?_ ?_
    · show 0 + 1 * (x 2).val = (x 2).val; omega
    · show 64 * (13 + 1 * (x 1).val) + (0 + 1 * (x 3).val) = 832 + (x 3).val; omega
  · -- head 12: columns 768 … 831 of the matrix
    revert x; intro (x : S1x1x256x64.Idx)
    have h1 : (x 1).val < 1 := (x 1).isLt
    refine slice_cast_apply M Facts₀.slices_S256x1024_o0_768_S256x64 Facts₀.shapeCasts_S256x64_S1x1x256x64 x _ ?_ ?_
    · show 0 + 1 * (x 2).val = (x 2).val; omega
    · show 64 * (12 + 1 * (x 1).val) + (0 + 1 * (x 3).val) = 768 + (x 3).val; omega
  · -- head 11: columns 704 … 767 of the matrix
    revert x; intro (x : S1x1x256x64.Idx)
    have h1 : (x 1).val < 1 := (x 1).isLt
    refine slice_cast_apply M Facts₀.slices_S256x1024_o0_704_S256x64 Facts₀.shapeCasts_S256x64_S1x1x256x64 x _ ?_ ?_
    · show 0 + 1 * (x 2).val = (x 2).val; omega
    · show 64 * (11 + 1 * (x 1).val) + (0 + 1 * (x 3).val) = 704 + (x 3).val; omega
  · -- head 10: columns 640 … 703 of the matrix
    revert x; intro (x : S1x1x256x64.Idx)
    have h1 : (x 1).val < 1 := (x 1).isLt
    refine slice_cast_apply M Facts₀.slices_S256x1024_o0_640_S256x64 Facts₀.shapeCasts_S256x64_S1x1x256x64 x _ ?_ ?_
    · show 0 + 1 * (x 2).val = (x 2).val; omega
    · show 64 * (10 + 1 * (x 1).val) + (0 + 1 * (x 3).val) = 640 + (x 3).val; omega
  · -- head 9: columns 576 … 639 of the matrix
    revert x; intro (x : S1x1x256x64.Idx)
    have h1 : (x 1).val < 1 := (x 1).isLt
    refine slice_cast_apply M Facts₀.slices_S256x1024_o0_576_S256x64 Facts₀.shapeCasts_S256x64_S1x1x256x64 x _ ?_ ?_
    · show 0 + 1 * (x 2).val = (x 2).val; omega
    · show 64 * (9 + 1 * (x 1).val) + (0 + 1 * (x 3).val) = 576 + (x 3).val; omega
  · -- head 8: columns 512 … 575 of the matrix
    revert x; intro (x : S1x1x256x64.Idx)
    have h1 : (x 1).val < 1 := (x 1).isLt
    refine slice_cast_apply M Facts₀.slices_S256x1024_o0_512_S256x64 Facts₀.shapeCasts_S256x64_S1x1x256x64 x _ ?_ ?_
    · show 0 + 1 * (x 2).val = (x 2).val; omega
    · show 64 * (8 + 1 * (x 1).val) + (0 + 1 * (x 3).val) = 512 + (x 3).val; omega
  · -- head 7: columns 448 … 511 of the matrix
    revert x; intro (x : S1x1x256x64.Idx)
    have h1 : (x 1).val < 1 := (x 1).isLt
    refine slice_cast_apply M Facts₀.slices_S256x1024_o0_448_S256x64 Facts₀.shapeCasts_S256x64_S1x1x256x64 x _ ?_ ?_
    · show 0 + 1 * (x 2).val = (x 2).val; omega
    · show 64 * (7 + 1 * (x 1).val) + (0 + 1 * (x 3).val) = 448 + (x 3).val; omega
  · -- head 6: columns 384 … 447 of the matrix
    revert x; intro (x : S1x1x256x64.Idx)
    have h1 : (x 1).val < 1 := (x 1).isLt
    refine slice_cast_apply M Facts₀.slices_S256x1024_o0_384_S256x64 Facts₀.shapeCasts_S256x64_S1x1x256x64 x _ ?_ ?_
    · show 0 + 1 * (x 2).val = (x 2).val; omega
    · show 64 * (6 + 1 * (x 1).val) + (0 + 1 * (x 3).val) = 384 + (x 3).val; omega
  · -- head 5: columns 320 … 383 of the matrix
    revert x; intro (x : S1x1x256x64.Idx)
    have h1 : (x 1).val < 1 := (x 1).isLt
    refine slice_cast_apply M Facts₀.slices_S256x1024_o0_320_S256x64 Facts₀.shapeCasts_S256x64_S1x1x256x64 x _ ?_ ?_
    · show 0 + 1 * (x 2).val = (x 2).val; omega
    · show 64 * (5 + 1 * (x 1).val) + (0 + 1 * (x 3).val) = 320 + (x 3).val; omega
  · -- head 4: columns 256 … 319 of the matrix
    revert x; intro (x : S1x1x256x64.Idx)
    have h1 : (x 1).val < 1 := (x 1).isLt
    refine slice_cast_apply M Facts₀.slices_S256x1024_o0_256_S256x64 Facts₀.shapeCasts_S256x64_S1x1x256x64 x _ ?_ ?_
    · show 0 + 1 * (x 2).val = (x 2).val; omega
    · show 64 * (4 + 1 * (x 1).val) + (0 + 1 * (x 3).val) = 256 + (x 3).val; omega
  · -- head 3: columns 192 … 255 of the matrix
    revert x; intro (x : S1x1x256x64.Idx)
    have h1 : (x 1).val < 1 := (x 1).isLt
    refine slice_cast_apply M Facts₀.slices_S256x1024_o0_192_S256x64 Facts₀.shapeCasts_S256x64_S1x1x256x64 x _ ?_ ?_
    · show 0 + 1 * (x 2).val = (x 2).val; omega
    · show 64 * (3 + 1 * (x 1).val) + (0 + 1 * (x 3).val) = 192 + (x 3).val; omega
  · -- head 2: columns 128 … 191 of the matrix
    revert x; intro (x : S1x1x256x64.Idx)
    have h1 : (x 1).val < 1 := (x 1).isLt
    refine slice_cast_apply M Facts₀.slices_S256x1024_o0_128_S256x64 Facts₀.shapeCasts_S256x64_S1x1x256x64 x _ ?_ ?_
    · show 0 + 1 * (x 2).val = (x 2).val; omega
    · show 64 * (2 + 1 * (x 1).val) + (0 + 1 * (x 3).val) = 128 + (x 3).val; omega
  · -- head 1: columns 64 … 127 of the matrix
    revert x; intro (x : S1x1x256x64.Idx)
    have h1 : (x 1).val < 1 := (x 1).isLt
    refine slice_cast_apply M Facts₀.slices_S256x1024_o0_64_S256x64 Facts₀.shapeCasts_S256x64_S1x1x256x64 x _ ?_ ?_
    · show 0 + 1 * (x 2).val = (x 2).val; omega
    · show 64 * (1 + 1 * (x 1).val) + (0 + 1 * (x 3).val) = 64 + (x 3).val; omega
  · -- head 0: columns 0 … 63 of the matrix
    revert x; intro (x : S1x1x256x64.Idx)
    have h1 : (x 1).val < 1 := (x 1).isLt
    refine slice_cast_apply M Facts₀.slices_S256x1024_o0_0_S256x64 Facts₀.shapeCasts_S256x64_S1x1x256x64 x _ ?_ ?_
    · show 0 + 1 * (x 2).val = (x 2).val; omega
    · show 64 * (0 + 1 * (x 1).val) + (0 + 1 * (x 3).val) = 0 + (x 3).val; omega

theorem out0_7_apply (x0 x1 : Vec Ideal S256x1024 .f32) (x2 x3 : Vec Ideal S1024 .f32) (x4 : Vec Ideal S1024x2048 .bf16)
    (x5 : Vec Ideal S1024x1024 .bf16) (y : S1x16x256x64.Idx) :
    out0_7 (F := Ideal) x0 x1 x2 x3 x4 x5 y = blockOut0 (k0_pay5 x1 x4) y := by
  unfold out0_7
  simp only [View.ld_unit_zero (S := S256x1024) hz2, View.ld_unit_zero (S := S1024) hz1,
    View.ld_unit_zero (S := S1024x1024) hz2, View.ld_unit_zero (S := S1024x2048) hz2]
  generalize k0_pay5 x1 x4 = M
  refine View.canon_apply_of_pieces (Val := Elt Ideal) (blockOut0 M) _ ?_ y (cover0_7 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · -- head 15: columns 960 … 1023 of the matrix
    revert x; intro (x : S1x1x256x64.Idx)
    have h1 : (x 1).val < 1 := (x 1).isLt
    refine slice_cast_apply M Facts₀.slices_S256x1024_o0_960_S256x64 Facts₀.shapeCasts_S256x64_S1x1x256x64 x _ ?_ ?_
    · show 0 + 1 * (x 2).val = (x 2).val; omega
    · show 64 * (15 + 1 * (x 1).val) + (0 + 1 * (x 3).val) = 960 + (x 3).val; omega
  · -- head 14: columns 896 … 959 of the matrix
    revert x; intro (x : S1x1x256x64.Idx)
    have h1 : (x 1).val < 1 := (x 1).isLt
    refine slice_cast_apply M Facts₀.slices_S256x1024_o0_896_S256x64 Facts₀.shapeCasts_S256x64_S1x1x256x64 x _ ?_ ?_
    · show 0 + 1 * (x 2).val = (x 2).val; omega
    · show 64 * (14 + 1 * (x 1).val) + (0 + 1 * (x 3).val) = 896 + (x 3).val; omega
  · -- head 13: columns 832 … 895 of the matrix
    revert x; intro (x : S1x1x256x64.Idx)
    have h1 : (x 1).val < 1 := (x 1).isLt
    refine slice_cast_apply M Facts₀.slices_S256x1024_o0_832_S256x64 Facts₀.shapeCasts_S256x64_S1x1x256x64 x _ ?_ ?_
    · show 0 + 1 * (x 2).val = (x 2).val; omega
    · show 64 * (13 + 1 * (x 1).val) + (0 + 1 * (x 3).val) = 832 + (x 3).val; omega
  · -- head 12: columns 768 … 831 of the matrix
    revert x; intro (x : S1x1x256x64.Idx)
    have h1 : (x 1).val < 1 := (x 1).isLt
    refine slice_cast_apply M Facts₀.slices_S256x1024_o0_768_S256x64 Facts₀.shapeCasts_S256x64_S1x1x256x64 x _ ?_ ?_
    · show 0 + 1 * (x 2).val = (x 2).val; omega
    · show 64 * (12 + 1 * (x 1).val) + (0 + 1 * (x 3).val) = 768 + (x 3).val; omega
  · -- head 11: columns 704 … 767 of the matrix
    revert x; intro (x : S1x1x256x64.Idx)
    have h1 : (x 1).val < 1 := (x 1).isLt
    refine slice_cast_apply M Facts₀.slices_S256x1024_o0_704_S256x64 Facts₀.shapeCasts_S256x64_S1x1x256x64 x _ ?_ ?_
    · show 0 + 1 * (x 2).val = (x 2).val; omega
    · show 64 * (11 + 1 * (x 1).val) + (0 + 1 * (x 3).val) = 704 + (x 3).val; omega
  · -- head 10: columns 640 … 703 of the matrix
    revert x; intro (x : S1x1x256x64.Idx)
    have h1 : (x 1).val < 1 := (x 1).isLt
    refine slice_cast_apply M Facts₀.slices_S256x1024_o0_640_S256x64 Facts₀.shapeCasts_S256x64_S1x1x256x64 x _ ?_ ?_
    · show 0 + 1 * (x 2).val = (x 2).val; omega
    · show 64 * (10 + 1 * (x 1).val) + (0 + 1 * (x 3).val) = 640 + (x 3).val; omega
  · -- head 9: columns 576 … 639 of the matrix
    revert x; intro (x : S1x1x256x64.Idx)
    have h1 : (x 1).val < 1 := (x 1).isLt
    refine slice_cast_apply M Facts₀.slices_S256x1024_o0_576_S256x64 Facts₀.shapeCasts_S256x64_S1x1x256x64 x _ ?_ ?_
    · show 0 + 1 * (x 2).val = (x 2).val; omega
    · show 64 * (9 + 1 * (x 1).val) + (0 + 1 * (x 3).val) = 576 + (x 3).val; omega
  · -- head 8: columns 512 … 575 of the matrix
    revert x; intro (x : S1x1x256x64.Idx)
    have h1 : (x 1).val < 1 := (x 1).isLt
    refine slice_cast_apply M Facts₀.slices_S256x1024_o0_512_S256x64 Facts₀.shapeCasts_S256x64_S1x1x256x64 x _ ?_ ?_
    · show 0 + 1 * (x 2).val = (x 2).val; omega
    · show 64 * (8 + 1 * (x 1).val) + (0 + 1 * (x 3).val) = 512 + (x 3).val; omega
  · -- head 7: columns 448 … 511 of the matrix
    revert x; intro (x : S1x1x256x64.Idx)
    have h1 : (x 1).val < 1 := (x 1).isLt
    refine slice_cast_apply M Facts₀.slices_S256x1024_o0_448_S256x64 Facts₀.shapeCasts_S256x64_S1x1x256x64 x _ ?_ ?_
    · show 0 + 1 * (x 2).val = (x 2).val; omega
    · show 64 * (7 + 1 * (x 1).val) + (0 + 1 * (x 3).val) = 448 + (x 3).val; omega
  · -- head 6: columns 384 … 447 of the matrix
    revert x; intro (x : S1x1x256x64.Idx)
    have h1 : (x 1).val < 1 := (x 1).isLt
    refine slice_cast_apply M Facts₀.slices_S256x1024_o0_384_S256x64 Facts₀.shapeCasts_S256x64_S1x1x256x64 x _ ?_ ?_
    · show 0 + 1 * (x 2).val = (x 2).val; omega
    · show 64 * (6 + 1 * (x 1).val) + (0 + 1 * (x 3).val) = 384 + (x 3).val; omega
  · -- head 5: columns 320 … 383 of the matrix
    revert x; intro (x : S1x1x256x64.Idx)
    have h1 : (x 1).val < 1 := (x 1).isLt
    refine slice_cast_apply M Facts₀.slices_S256x1024_o0_320_S256x64 Facts₀.shapeCasts_S256x64_S1x1x256x64 x _ ?_ ?_
    · show 0 + 1 * (x 2).val = (x 2).val; omega
    · show 64 * (5 + 1 * (x 1).val) + (0 + 1 * (x 3).val) = 320 + (x 3).val; omega
  · -- head 4: columns 256 … 319 of the matrix
    revert x; intro (x : S1x1x256x64.Idx)
    have h1 : (x 1).val < 1 := (x 1).isLt
    refine slice_cast_apply M Facts₀.slices_S256x1024_o0_256_S256x64 Facts₀.shapeCasts_S256x64_S1x1x256x64 x _ ?_ ?_
    · show 0 + 1 * (x 2).val = (x 2).val; omega
    · show 64 * (4 + 1 * (x 1).val) + (0 + 1 * (x 3).val) = 256 + (x 3).val; omega
  · -- head 3: columns 192 … 255 of the matrix
    revert x; intro (x : S1x1x256x64.Idx)
    have h1 : (x 1).val < 1 := (x 1).isLt
    refine slice_cast_apply M Facts₀.slices_S256x1024_o0_192_S256x64 Facts₀.shapeCasts_S256x64_S1x1x256x64 x _ ?_ ?_
    · show 0 + 1 * (x 2).val = (x 2).val; omega
    · show 64 * (3 + 1 * (x 1).val) + (0 + 1 * (x 3).val) = 192 + (x 3).val; omega
  · -- head 2: columns 128 … 191 of the matrix
    revert x; intro (x : S1x1x256x64.Idx)
    have h1 : (x 1).val < 1 := (x 1).isLt
    refine slice_cast_apply M Facts₀.slices_S256x1024_o0_128_S256x64 Facts₀.shapeCasts_S256x64_S1x1x256x64 x _ ?_ ?_
    · show 0 + 1 * (x 2).val = (x 2).val; omega
    · show 64 * (2 + 1 * (x 1).val) + (0 + 1 * (x 3).val) = 128 + (x 3).val; omega
  · -- head 1: columns 64 … 127 of the matrix
    revert x; intro (x : S1x1x256x64.Idx)
    have h1 : (x 1).val < 1 := (x 1).isLt
    refine slice_cast_apply M Facts₀.slices_S256x1024_o0_64_S256x64 Facts₀.shapeCasts_S256x64_S1x1x256x64 x _ ?_ ?_
    · show 0 + 1 * (x 2).val = (x 2).val; omega
    · show 64 * (1 + 1 * (x 1).val) + (0 + 1 * (x 3).val) = 64 + (x 3).val; omega
  · -- head 0: columns 0 … 63 of the matrix
    revert x; intro (x : S1x1x256x64.Idx)
    have h1 : (x 1).val < 1 := (x 1).isLt
    refine slice_cast_apply M Facts₀.slices_S256x1024_o0_0_S256x64 Facts₀.shapeCasts_S256x64_S1x1x256x64 x _ ?_ ?_
    · show 0 + 1 * (x 2).val = (x 2).val; omega
    · show 64 * (0 + 1 * (x 1).val) + (0 + 1 * (x 3).val) = 0 + (x 3).val; omega

theorem out0_8_apply (x0 x1 : Vec Ideal S256x1024 .f32) (x2 x3 : Vec Ideal S1024 .f32) (x4 : Vec Ideal S1024x2048 .bf16)
    (x5 : Vec Ideal S1024x1024 .bf16) (y : S1x16x256x64.Idx) :
    out0_8 (F := Ideal) x0 x1 x2 x3 x4 x5 y = blockOut0 (k0_pay6 x1 x4) y := by
  unfold out0_8
  simp only [View.ld_unit_zero (S := S256x1024) hz2, View.ld_unit_zero (S := S1024) hz1,
    View.ld_unit_zero (S := S1024x1024) hz2, View.ld_unit_zero (S := S1024x2048) hz2]
  generalize k0_pay6 x1 x4 = M
  refine View.canon_apply_of_pieces (Val := Elt Ideal) (blockOut0 M) _ ?_ y (cover0_8 _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl
  · -- head 15: columns 960 … 1023 of the matrix
    revert x; intro (x : S1x1x256x64.Idx)
    have h1 : (x 1).val < 1 := (x 1).isLt
    refine slice_cast_apply M Facts₀.slices_S256x1024_o0_960_S256x64 Facts₀.shapeCasts_S256x64_S1x1x256x64 x _ ?_ ?_
    · show 0 + 1 * (x 2).val = (x 2).val; omega
    · show 64 * (15 + 1 * (x 1).val) + (0 + 1 * (x 3).val) = 960 + (x 3).val; omega
  · -- head 14: columns 896 … 959 of the matrix
    revert x; intro (x : S1x1x256x64.Idx)
    have h1 : (x 1).val < 1 := (x 1).isLt
    refine slice_cast_apply M Facts₀.slices_S256x1024_o0_896_S256x64 Facts₀.shapeCasts_S256x64_S1x1x256x64 x _ ?_ ?_
    · show 0 + 1 * (x 2).val = (x 2).val; omega
    · show 64 * (14 + 1 * (x 1).val) + (0 + 1 * (x 3).val) = 896 + (x 3).val; omega
  · -- head 13: columns 832 … 895 of the matrix
    revert x; intro (x : S1x1x256x64.Idx)
    have h1 : (x 1).val < 1 := (x 1).isLt
    refine slice_cast_apply M Facts₀.slices_S256x1024_o0_832_S256x64 Facts₀.shapeCasts_S256x64_S1x1x256x64 x _ ?_ ?_
    · show 0 + 1 * (x 2).val = (x 2).val; omega
    · show 64 * (13 + 1 * (x 1).val) + (0 + 1 * (x 3).val) = 832 + (x 3).val; omega
  · -- head 12: columns 768 … 831 of the matrix
    revert x; intro (x : S1x1x256x64.Idx)
    have h1 : (x 1).val < 1 := (x 1).isLt
    refine slice_cast_apply M Facts₀.slices_S256x1024_o0_768_S256x64 Facts₀.shapeCasts_S256x64_S1x1x256x64 x _ ?_ ?_
    · show 0 + 1 * (x 2).val = (x 2).val; omega
    · show 64 * (12 + 1 * (x 1).val) + (0 + 1 * (x 3).val) = 768 + (x 3).val; omega
  · -- head 11: columns 704 … 767 of the matrix
    revert x; intro (x : S1x1x256x64.Idx)
    have h1 : (x 1).val < 1 := (x 1).isLt
    refine slice_cast_apply M Facts₀.slices_S256x1024_o0_704_S256x64 Facts₀.shapeCasts_S256x64_S1x1x256x64 x _ ?_ ?_
    · show 0 + 1 * (x 2).val = (x 2).val; omega
    · show 64 * (11 + 1 * (x 1).val) + (0 + 1 * (x 3).val) = 704 + (x 3).val; omega
  · -- head 10: columns 640 … 703 of the matrix
    revert x; intro (x : S1x1x256x64.Idx)
    have h1 : (x 1).val < 1 := (x 1).isLt
    refine slice_cast_apply M Facts₀.slices_S256x1024_o0_640_S256x64 Facts₀.shapeCasts_S256x64_S1x1x256x64 x _ ?_ ?_
    · show 0 + 1 * (x 2).val = (x 2).val; omega
    · show 64 * (10 + 1 * (x 1).val) + (0 + 1 * (x 3).val) = 640 + (x 3).val; omega
  · -- head 9: columns 576 … 639 of the matrix
    revert x; intro (x : S1x1x256x64.Idx)
    have h1 : (x 1).val < 1 := (x 1).isLt
    refine slice_cast_apply M Facts₀.slices_S256x1024_o0_576_S256x64 Facts₀.shapeCasts_S256x64_S1x1x256x64 x _ ?_ ?_
    · show 0 + 1 * (x 2).val = (x 2).val; omega
    · show 64 * (9 + 1 * (x 1).val) + (0 + 1 * (x 3).val) = 576 + (x 3).val; omega
  · -- head 8: columns 512 … 575 of the matrix
    revert x; intro (x : S1x1x256x64.Idx)
    have h1 : (x 1).val < 1 := (x 1).isLt
    refine slice_cast_apply M Facts₀.slices_S256x1024_o0_512_S256x64 Facts₀.shapeCasts_S256x64_S1x1x256x64 x _ ?_ ?_
    · show 0 + 1 * (x 2).val = (x 2).val; omega
    · show 64 * (8 + 1 * (x 1).val) + (0 + 1 * (x 3).val) = 512 + (x 3).val; omega
  · -- head 7: columns 448 … 511 of the matrix
    revert x; intro (x : S1x1x256x64.Idx)
    have h1 : (x 1).val < 1 := (x 1).isLt
    refine slice_cast_apply M Facts₀.slices_S256x1024_o0_448_S256x64 Facts₀.shapeCasts_S256x64_S1x1x256x64 x _ ?_ ?_
    · show 0 + 1 * (x 2).val = (x 2).val; omega
    · show 64 * (7 + 1 * (x 1).val) + (0 + 1 * (x 3).val) = 448 + (x 3).val; omega
  · -- head 6: columns 384 … 447 of the matrix
    revert x; intro (x : S1x1x256x64.Idx)
    have h1 : (x 1).val < 1 := (x 1).isLt
    refine slice_cast_apply M Facts₀.slices_S256x1024_o0_384_S256x64 Facts₀.shapeCasts_S256x64_S1x1x256x64 x _ ?_ ?_
    · show 0 + 1 * (x 2).val = (x 2).val; omega
    · show 64 * (6 + 1 * (x 1).val) + (0 + 1 * (x 3).val) = 384 + (x 3).val; omega
  · -- head 5: columns 320 … 383 of the matrix
    revert x; intro (x : S1x1x256x64.Idx)
    have h1 : (x 1).val < 1 := (x 1).isLt
    refine slice_cast_apply M Facts₀.slices_S256x1024_o0_320_S256x64 Facts₀.shapeCasts_S256x64_S1x1x256x64 x _ ?_ ?_
    · show 0 + 1 * (x 2).val = (x 2).val; omega
    · show 64 * (5 + 1 * (x 1).val) + (0 + 1 * (x 3).val) = 320 + (x 3).val; omega
  · -- head 4: columns 256 … 319 of the matrix
    revert x; intro (x : S1x1x256x64.Idx)
    have h1 : (x 1).val < 1 := (x 1).isLt
    refine slice_cast_apply M Facts₀.slices_S256x1024_o0_256_S256x64 Facts₀.shapeCasts_S256x64_S1x1x256x64 x _ ?_ ?_
    · show 0 + 1 * (x 2).val = (x 2).val; omega
    · show 64 * (4 + 1 * (x 1).val) + (0 + 1 * (x 3).val) = 256 + (x 3).val; omega
  · -- head 3: columns 192 … 255 of the matrix
    revert x; intro (x : S1x1x256x64.Idx)
    have h1 : (x 1).val < 1 := (x 1).isLt
    refine slice_cast_apply M Facts₀.slices_S256x1024_o0_192_S256x64 Facts₀.shapeCasts_S256x64_S1x1x256x64 x _ ?_ ?_
    · show 0 + 1 * (x 2).val = (x 2).val; omega
    · show 64 * (3 + 1 * (x 1).val) + (0 + 1 * (x 3).val) = 192 + (x 3).val; omega
  · -- head 2: columns 128 … 191 of the matrix
    revert x; intro (x : S1x1x256x64.Idx)
    have h1 : (x 1).val < 1 := (x 1).isLt
    refine slice_cast_apply M Facts₀.slices_S256x1024_o0_128_S256x64 Facts₀.shapeCasts_S256x64_S1x1x256x64 x _ ?_ ?_
    · show 0 + 1 * (x 2).val = (x 2).val; omega
    · show 64 * (2 + 1 * (x 1).val) + (0 + 1 * (x 3).val) = 128 + (x 3).val; omega
  · -- head 1: columns 64 … 127 of the matrix
    revert x; intro (x : S1x1x256x64.Idx)
    have h1 : (x 1).val < 1 := (x 1).isLt
    refine slice_cast_apply M Facts₀.slices_S256x1024_o0_64_S256x64 Facts₀.shapeCasts_S256x64_S1x1x256x64 x _ ?_ ?_
    · show 0 + 1 * (x 2).val = (x 2).val; omega
    · show 64 * (1 + 1 * (x 1).val) + (0 + 1 * (x 3).val) = 64 + (x 3).val; omega
  · -- head 0: columns 0 … 63 of the matrix
    revert x; intro (x : S1x1x256x64.Idx)
    have h1 : (x 1).val < 1 := (x 1).isLt
    refine slice_cast_apply M Facts₀.slices_S256x1024_o0_0_S256x64 Facts₀.shapeCasts_S256x64_S1x1x256x64 x _ ?_ ?_
    · show 0 + 1 * (x 2).val = (x 2).val; omega
    · show 64 * (0 + 1 * (x 1).val) + (0 + 1 * (x 3).val) = 0 + (x 3).val; omega

/-! ## From blocks to the arrays -/

variable (V : (c : Dev nD) → (b : Ref sig .tc) → Buf (Elt Ideal) ((c : Thread nD τ).loc b))

/-- Row s of batch b among the 4096 rows of the flattened input. -/
def row2 (b : Fin 2) (s : Fin 2048) : Fin 4096 := ⟨2048 * b.val + s.val, by omega⟩

/-- The query array: entry (b, h, s, j) is the normalised row 2048 b + s of the flattened input against column 64 h + j
    of the transposed query weight. -/
def qArray (X2 : S4096x1024.Idx → EReal) (γ β : S1024.Idx → EReal) (WqT : S1024x1024.Idx → EReal) :
    S2x16x2048x64.Idx → EReal := fun i =>
  ∑ d : Fin 1024, lnRow (fun d' => X2 (ix2 (row2 (i 0) (i 2)) d')) (fun d' => γ (ix1 d')) (fun d' => β (ix1 d')) d
    * WqT (ix2 d (lane (i 1) (i 3)))

/-- The key array: row 2048 b + s of the flattened cross input against column 64 h + j of the transposed key/value weight. -/
def kArray (C2 : S4096x1024.Idx → EReal) (WkvT : S1024x2048.Idx → EReal) : S2x16x2048x64.Idx → EReal := fun i =>
  ∑ d : Fin 1024, C2 (ix2 (row2 (i 0) (i 2)) d) * WkvT (ix2 d (laneK (i 1) (i 3)))

/-- The value array: the same against column 1024 + 64 h + j. -/
def vArray (C2 : S4096x1024.Idx → EReal) (WkvT : S1024x2048.Idx → EReal) : S2x16x2048x64.Idx → EReal := fun i =>
  ∑ d : Fin 1024, C2 (ix2 (row2 (i 0) (i 2)) d) * WkvT (ix2 d (laneV (i 1) (i 3)))

/-- The printed index maps over the 16 grid points: the two row-blocked inputs sit at row block 8 b + s for the output block
    (b, 0, s, 0); the four whole-array inputs at block 0; the three outputs share one index map. -/
theorem idx_facts0 : ∀ t : Fin cfg0.N,
    win0_0.index t (0 : Fin 2) = 8 * win0_6.index t (0 : Fin 4) + win0_6.index t (2 : Fin 4) ∧ win0_0.index t (1 : Fin 2) = 0
    ∧ win0_1.index t (0 : Fin 2) = 8 * win0_6.index t (0 : Fin 4) + win0_6.index t (2 : Fin 4) ∧ win0_1.index t (1 : Fin 2) = 0
    ∧ win0_2.index t (0 : Fin 1) = 0 ∧ win0_3.index t (0 : Fin 1) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 4) ≤ 1 ∧ win0_6.index t (1 : Fin 4) = 0 ∧ win0_6.index t (2 : Fin 4) ≤ 7 ∧ win0_6.index t (3 : Fin 4) = 0
    ∧ win0_7.index t (0 : Fin 4) = win0_6.index t (0 : Fin 4) ∧ win0_7.index t (1 : Fin 4) = 0
    ∧ win0_7.index t (2 : Fin 4) = win0_6.index t (2 : Fin 4) ∧ win0_7.index t (3 : Fin 4) = 0
    ∧ win0_8.index t (0 : Fin 4) = win0_6.index t (0 : Fin 4) ∧ win0_8.index t (1 : Fin 4) = 0
    ∧ win0_8.index t (2 : Fin 4) = win0_6.index t (2 : Fin 4) ∧ win0_8.index t (3 : Fin 4) = 0
    ∧ True ∧ True :=
  (by decide +kernel : ∀ t : Fin grid0.N, _)

/-- Every (batch, row tile) is some point's output block, for each of the three outputs. -/
theorem idx_onto0 : ∀ (q0 : Fin 2) (q2 : Fin 8), ∃ t : Fin cfg0.N, win0_6.index t = ![q0.val, 0, q2.val, 0]
    ∧ win0_7.index t = ![q0.val, 0, q2.val, 0] ∧ win0_8.index t = ![q0.val, 0, q2.val, 0] :=
  (by decide +kernel : ∀ (q0 : Fin 2) (q2 : Fin 8), ∃ t : Fin grid0.N, win0_6.index t = ![q0.val, 0, q2.val, 0]
    ∧ win0_7.index t = ![q0.val, 0, q2.val, 0] ∧ win0_8.index t = ![q0.val, 0, q2.val, 0])

/-- What point t writes back of window 6 is block t of the whole-array function, of the arrays as the region finds them. -/
theorem flushed0_6_eq (c : Dev nD) (t : Fin cfg0.N) :
    (dat0 V c).flushed 6 t = ((cfg0.win 6).blk t).view.read (Elt Ideal) (qArray (V c main_v0) (V c main_arg2) (V c main_arg3) (V c main_v3)) := by
  show (cfg0.win 6).cut (grid0.coords t) ((dat0 V c).after 6 t) = _
  rw [after0_6]
  funext y
  show out0_6 (iblk0 V c 0 t) (iblk0 V c 1 t) (iblk0 V c 2 t) (iblk0 V c 3 t) (iblk0 V c 4 t) (iblk0 V c 5 t) y
    = qArray (V c main_v0) (V c main_arg2) (V c main_arg3) (V c main_v3) (((cfg0.win 6).blk t).view.emb y)
  rw [out0_6_apply]
  obtain ⟨a00, a01, a10, a11, a2, a3, a40, a41, a50, a51, s0, s1, s2, s3, e70, e71, e72, e73, e80, e81, e82, e83, b0, b2⟩ := idx_facts0 t
  revert y; intro (y : S1x16x256x64.Idx)
  obtain ⟨y0, y1, y2, y3, rfl⟩ : ∃ (y0 : Fin 1) (y1 : Fin 16) (y2 : Fin 256) (y3 : Fin 64), y = ix4 y0 y1 y2 y3 :=
    ⟨y 0, y 1, y 2, y 3, eq_ix4 y⟩
  have hy0 : y0 = 0 := Fin.ext (by omega)
  subst hy0
  generalize hi : ((cfg0.win 6).blk t).view.emb (ix4 (0 : Fin 1) y1 y2 y3) = i
  have i0 : (i 0).val = win0_6.index t (0 : Fin 4) := by
    rw [← hi]; show win0_6.index t (0 : Fin 4) * 1 + 1 * 0 = _; omega
  have i1 : (i 1).val = y1.val := by
    rw [← hi]; show win0_6.index t (1 : Fin 4) * 16 + 1 * y1.val = _; omega
  have i2 : (i 2).val = win0_6.index t (2 : Fin 4) * 256 + y2.val := by
    rw [← hi]; show win0_6.index t (2 : Fin 4) * 256 + 1 * y2.val = _; omega
  have i3 : (i 3).val = y3.val := by
    rw [← hi]; show win0_6.index t (3 : Fin 4) * 64 + 1 * y3.val = _; omega
  show k0_pay4 (iblk0 V c 0 t) (iblk0 V c 2 t) (iblk0 V c 3 t) (iblk0 V c 5 t) (ix2 y2 (lane y1 y3)) = _
  rw [pay_q_apply]
  have hrow : ∀ d' : Fin 1024, iblk0 V c 0 t (ix2 y2 d') = V c main_v0 (ix2 (row2 (i 0) (i 2)) d') := fun d' => by
    show V c main_v0 (((cfg0.win 0).blk t).view.emb (ix2 y2 d')) = _
    refine congrArg (V c main_v0) (funext fun a => Fin.ext ?_)
    match a with
    | ⟨0, _⟩ => show win0_0.index t (0 : Fin 2) * 256 + 1 * y2.val = 2048 * (i 0).val + (i 2).val; omega
    | ⟨1, _⟩ => show win0_0.index t (1 : Fin 2) * 1024 + 1 * d'.val = d'.val; omega
  have hg : ∀ d' : Fin 1024, iblk0 V c 2 t (ix1 d') = V c main_arg2 (ix1 d') := fun d' => by
    show V c main_arg2 (((cfg0.win 2).blk t).view.emb (ix1 d')) = _
    refine congrArg (V c main_arg2) (funext fun a => Fin.ext ?_)
    match a with
    | ⟨0, _⟩ => show win0_2.index t (0 : Fin 1) * 1024 + 1 * d'.val = d'.val; omega
  have hb : ∀ d' : Fin 1024, iblk0 V c 3 t (ix1 d') = V c main_arg3 (ix1 d') := fun d' => by
    show V c main_arg3 (((cfg0.win 3).blk t).view.emb (ix1 d')) = _
    refine congrArg (V c main_arg3) (funext fun a => Fin.ext ?_)
    match a with
    | ⟨0, _⟩ => show win0_3.index t (0 : Fin 1) * 1024 + 1 * d'.val = d'.val; omega
  have hw : ∀ d : Fin 1024, iblk0 V c 5 t (ix2 d (lane y1 y3)) = V c main_v3 (ix2 d (lane (i 1) (i 3))) := fun d => by
    show V c main_v3 (((cfg0.win 5).blk t).view.emb (ix2 d (lane y1 y3))) = _
    refine congrArg (V c main_v3) (funext fun a => Fin.ext ?_)
    match a with
    | ⟨0, _⟩ => show win0_5.index t (0 : Fin 2) * 1024 + 1 * d.val = d.val; omega
    | ⟨1, _⟩ => show win0_5.index t (1 : Fin 2) * 1024 + 1 * (64 * y1.val + y3.val) = 64 * (i 1).val + (i 3).val; omega
  simp only [hrow, hg, hb, hw]
  rfl

/-- What point t writes back of window 7 is block t of the whole-array function, of the arrays as the region finds them. -/
theorem flushed0_7_eq (c : Dev nD) (t : Fin cfg0.N) :
    (dat0 V c).flushed 7 t = ((cfg0.win 7).blk t).view.read (Elt Ideal) (kArray (V c main_v1) (V c main_v5)) := by
  show (cfg0.win 7).cut (grid0.coords t) ((dat0 V c).after 7 t) = _
  rw [after0_7]
  funext y
  show out0_7 (iblk0 V c 0 t) (iblk0 V c 1 t) (iblk0 V c 2 t) (iblk0 V c 3 t) (iblk0 V c 4 t) (iblk0 V c 5 t) y
    = kArray (V c main_v1) (V c main_v5) (((cfg0.win 7).blk t).view.emb y)
  rw [out0_7_apply]
  obtain ⟨a00, a01, a10, a11, a2, a3, a40, a41, a50, a51, s0, s1, s2, s3, e70, e71, e72, e73, e80, e81, e82, e83, b0, b2⟩ := idx_facts0 t
  revert y; intro (y : S1x16x256x64.Idx)
  obtain ⟨y0, y1, y2, y3, rfl⟩ : ∃ (y0 : Fin 1) (y1 : Fin 16) (y2 : Fin 256) (y3 : Fin 64), y = ix4 y0 y1 y2 y3 :=
    ⟨y 0, y 1, y 2, y 3, eq_ix4 y⟩
  have hy0 : y0 = 0 := Fin.ext (by omega)
  subst hy0
  generalize hi : ((cfg0.win 7).blk t).view.emb (ix4 (0 : Fin 1) y1 y2 y3) = i
  have i0 : (i 0).val = win0_7.index t (0 : Fin 4) := by
    rw [← hi]; show win0_7.index t (0 : Fin 4) * 1 + 1 * 0 = _; omega
  have i1 : (i 1).val = y1.val := by
    rw [← hi]; show win0_7.index t (1 : Fin 4) * 16 + 1 * y1.val = _; omega
  have i2 : (i 2).val = win0_7.index t (2 : Fin 4) * 256 + y2.val := by
    rw [← hi]; show win0_7.index t (2 : Fin 4) * 256 + 1 * y2.val = _; omega
  have i3 : (i 3).val = y3.val := by
    rw [← hi]; show win0_7.index t (3 : Fin 4) * 64 + 1 * y3.val = _; omega
  show k0_pay5 (iblk0 V c 1 t) (iblk0 V c 4 t) (ix2 y2 (lane y1 y3)) = _
  rw [pay_k_apply]
  have hrow : ∀ d : Fin 1024, iblk0 V c 1 t (ix2 y2 d) = V c main_v1 (ix2 (row2 (i 0) (i 2)) d) := fun d => by
    show V c main_v1 (((cfg0.win 1).blk t).view.emb (ix2 y2 d)) = _
    refine congrArg (V c main_v1) (funext fun a => Fin.ext ?_)
    match a with
    | ⟨0, _⟩ => show win0_1.index t (0 : Fin 2) * 256 + 1 * y2.val = 2048 * (i 0).val + (i 2).val; omega
    | ⟨1, _⟩ => show win0_1.index t (1 : Fin 2) * 1024 + 1 * d.val = d.val; omega
  have hw : ∀ d : Fin 1024, iblk0 V c 4 t (ix2 d (⟨(lane y1 y3).val, by have := (lane y1 y3).isLt; omega⟩ : Fin 2048))
      = V c main_v5 (ix2 d (laneK (i 1) (i 3))) := fun d => by
    show V c main_v5 (((cfg0.win 4).blk t).view.emb (ix2 d (⟨(lane y1 y3).val, _⟩ : Fin 2048))) = _
    refine congrArg (V c main_v5) (funext fun a => Fin.ext ?_)
    match a with
    | ⟨0, _⟩ => show win0_4.index t (0 : Fin 2) * 1024 + 1 * d.val = d.val; omega
    | ⟨1, _⟩ => show win0_4.index t (1 : Fin 2) * 2048 + 1 * ((64 * y1.val + y3.val)) = (64 * (i 1).val + (i 3).val); omega
  simp only [hrow, hw]
  rfl

/-- What point t writes back of window 8 is block t of the whole-array function, of the arrays as the region finds them. -/
theorem flushed0_8_eq (c : Dev nD) (t : Fin cfg0.N) :
    (dat0 V c).flushed 8 t = ((cfg0.win 8).blk t).view.read (Elt Ideal) (vArray (V c main_v1) (V c main_v5)) := by
  show (cfg0.win 8).cut (grid0.coords t) ((dat0 V c).after 8 t) = _
  rw [after0_8]
  funext y
  show out0_8 (iblk0 V c 0 t) (iblk0 V c 1 t) (iblk0 V c 2 t) (iblk0 V c 3 t) (iblk0 V c 4 t) (iblk0 V c 5 t) y
    = vArray (V c main_v1) (V c main_v5) (((cfg0.win 8).blk t).view.emb y)
  rw [out0_8_apply]
  obtain ⟨a00, a01, a10, a11, a2, a3, a40, a41, a50, a51, s0, s1, s2, s3, e70, e71, e72, e73, e80, e81, e82, e83, b0, b2⟩ := idx_facts0 t
  revert y; intro (y : S1x16x256x64.Idx)
  obtain ⟨y0, y1, y2, y3, rfl⟩ : ∃ (y0 : Fin 1) (y1 : Fin 16) (y2 : Fin 256) (y3 : Fin 64), y = ix4 y0 y1 y2 y3 :=
    ⟨y 0, y 1, y 2, y 3, eq_ix4 y⟩
  have hy0 : y0 = 0 := Fin.ext (by omega)
  subst hy0
  generalize hi : ((cfg0.win 8).blk t).view.emb (ix4 (0 : Fin 1) y1 y2 y3) = i
  have i0 : (i 0).val = win0_8.index t (0 : Fin 4) := by
    rw [← hi]; show win0_8.index t (0 : Fin 4) * 1 + 1 * 0 = _; omega
  have i1 : (i 1).val = y1.val := by
    rw [← hi]; show win0_8.index t (1 : Fin 4) * 16 + 1 * y1.val = _; omega
  have i2 : (i 2).val = win0_8.index t (2 : Fin 4) * 256 + y2.val := by
    rw [← hi]; show win0_8.index t (2 : Fin 4) * 256 + 1 * y2.val = _; omega
  have i3 : (i 3).val = y3.val := by
    rw [← hi]; show win0_8.index t (3 : Fin 4) * 64 + 1 * y3.val = _; omega
  show k0_pay6 (iblk0 V c 1 t) (iblk0 V c 4 t) (ix2 y2 (lane y1 y3)) = _
  rw [pay_v_apply]
  have hrow : ∀ d : Fin 1024, iblk0 V c 1 t (ix2 y2 d) = V c main_v1 (ix2 (row2 (i 0) (i 2)) d) := fun d => by
    show V c main_v1 (((cfg0.win 1).blk t).view.emb (ix2 y2 d)) = _
    refine congrArg (V c main_v1) (funext fun a => Fin.ext ?_)
    match a with
    | ⟨0, _⟩ => show win0_1.index t (0 : Fin 2) * 256 + 1 * y2.val = 2048 * (i 0).val + (i 2).val; omega
    | ⟨1, _⟩ => show win0_1.index t (1 : Fin 2) * 1024 + 1 * d.val = d.val; omega
  have hw : ∀ d : Fin 1024, iblk0 V c 4 t (ix2 d (⟨1024 + (lane y1 y3).val, by have := (lane y1 y3).isLt; omega⟩ : Fin 2048))
      = V c main_v5 (ix2 d (laneV (i 1) (i 3))) := fun d => by
    show V c main_v5 (((cfg0.win 4).blk t).view.emb (ix2 d (⟨1024 + (lane y1 y3).val, _⟩ : Fin 2048))) = _
    refine congrArg (V c main_v5) (funext fun a => Fin.ext ?_)
    match a with
    | ⟨0, _⟩ => show win0_4.index t (0 : Fin 2) * 1024 + 1 * d.val = d.val; omega
    | ⟨1, _⟩ => show win0_4.index t (1 : Fin 2) * 2048 + 1 * (1024 + (64 * y1.val + y3.val)) = 1024 + (64 * (i 1).val + (i 3).val); omega
  simp only [hrow, hw]
  rfl

/-- An index of output array 6 is in point t's block iff each coordinate is in the block's range on its axis. -/
theorem mem_blk0_6 (t : Fin cfg0.N) (i : S2x16x2048x64.Idx) :
    i ∈ ((cfg0.win 6).blk t).view.set ↔ ∀ a : Fin 4, win0_6.index t a * S1x16x256x64.size a ≤ (i a).val
      ∧ (i a).val < win0_6.index t a * S1x16x256x64.size a + S1x16x256x64.size a := by
  show i ∈ ((View.whole main_v6_0).slice (win0_6.rect t)).set ↔ _
  rw [View.set_slice_whole, Rect.mem_set_unit]
  exact Iff.rfl

/-- Every entry of output array 6 lies in some point's block: batch b, all 16 heads, row tile s / 256, all 64 lanes. -/
theorem cover0_6_arr (i : S2x16x2048x64.Idx) : ∃ t : Fin cfg0.N, (cfg0.win 6).flush t = true ∧ i ∈ ((cfg0.win 6).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht6, ht7, ht8⟩ := idx_onto0 ⟨(i 0).val, by omega⟩ ⟨(i 2).val / 256, by omega⟩
  have q0 : win0_6.index t (0 : Fin 4) = (i 0).val := congrFun ht6 0
  have q1 : win0_6.index t (1 : Fin 4) = 0 := congrFun ht6 1
  have q2 : win0_6.index t (2 : Fin 4) = (i 2).val / 256 := congrFun ht6 2
  have q3 : win0_6.index t (3 : Fin 4) = 0 := congrFun ht6 3
  refine ⟨t, flush0_6 t, ?_⟩
  rw [mem_blk0_6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 256 ≤ (i 2).val ∧ (i 2).val < win0_6.index t (2 : Fin 4) * 256 + 256; omega
  | ⟨3, _⟩ => show win0_6.index t (3 : Fin 4) * 64 ≤ (i 3).val ∧ (i 3).val < win0_6.index t (3 : Fin 4) * 64 + 64; omega

/-- Output array 6 after the first region, as one function of the arrays the region finds. -/
theorem final0_6 (c : Dev nD) : (dat0 V c).arrAt 6 cfg0.N = qArray (V c main_v0) (V c main_arg2) (V c main_arg3) (V c main_v3) :=
  (dat0 V c).arrAt_eq_of_cover 6 _ (fun t _ => flushed0_6_eq V c t) cover0_6_arr

/-- An index of output array 7 is in point t's block iff each coordinate is in the block's range on its axis. -/
theorem mem_blk0_7 (t : Fin cfg0.N) (i : S2x16x2048x64.Idx) :
    i ∈ ((cfg0.win 7).blk t).view.set ↔ ∀ a : Fin 4, win0_7.index t a * S1x16x256x64.size a ≤ (i a).val
      ∧ (i a).val < win0_7.index t a * S1x16x256x64.size a + S1x16x256x64.size a := by
  show i ∈ ((View.whole main_v6_1).slice (win0_7.rect t)).set ↔ _
  rw [View.set_slice_whole, Rect.mem_set_unit]
  exact Iff.rfl

/-- Every entry of output array 7 lies in some point's block: batch b, all 16 heads, row tile s / 256, all 64 lanes. -/
theorem cover0_7_arr (i : S2x16x2048x64.Idx) : ∃ t : Fin cfg0.N, (cfg0.win 7).flush t = true ∧ i ∈ ((cfg0.win 7).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht6, ht7, ht8⟩ := idx_onto0 ⟨(i 0).val, by omega⟩ ⟨(i 2).val / 256, by omega⟩
  have q0 : win0_7.index t (0 : Fin 4) = (i 0).val := congrFun ht7 0
  have q1 : win0_7.index t (1 : Fin 4) = 0 := congrFun ht7 1
  have q2 : win0_7.index t (2 : Fin 4) = (i 2).val / 256 := congrFun ht7 2
  have q3 : win0_7.index t (3 : Fin 4) = 0 := congrFun ht7 3
  refine ⟨t, flush0_7 t, ?_⟩
  rw [mem_blk0_7]
  intro a
  match a with
  | ⟨0, _⟩ => show win0_7.index t (0 : Fin 4) * 1 ≤ (i 0).val ∧ (i 0).val < win0_7.index t (0 : Fin 4) * 1 + 1; omega
  | ⟨1, _⟩ => show win0_7.index t (1 : Fin 4) * 16 ≤ (i 1).val ∧ (i 1).val < win0_7.index t (1 : Fin 4) * 16 + 16; omega
  | ⟨2, _⟩ => show win0_7.index t (2 : Fin 4) * 256 ≤ (i 2).val ∧ (i 2).val < win0_7.index t (2 : Fin 4) * 256 + 256; omega
  | ⟨3, _⟩ => show win0_7.index t (3 : Fin 4) * 64 ≤ (i 3).val ∧ (i 3).val < win0_7.index t (3 : Fin 4) * 64 + 64; omega

/-- Output array 7 after the first region, as one function of the arrays the region finds. -/
theorem final0_7 (c : Dev nD) : (dat0 V c).arrAt 7 cfg0.N = kArray (V c main_v1) (V c main_v5) :=
  (dat0 V c).arrAt_eq_of_cover 7 _ (fun t _ => flushed0_7_eq V c t) cover0_7_arr

/-- An index of output array 8 is in point t's block iff each coordinate is in the block's range on its axis. -/
theorem mem_blk0_8 (t : Fin cfg0.N) (i : S2x16x2048x64.Idx) :
    i ∈ ((cfg0.win 8).blk t).view.set ↔ ∀ a : Fin 4, win0_8.index t a * S1x16x256x64.size a ≤ (i a).val
      ∧ (i a).val < win0_8.index t a * S1x16x256x64.size a + S1x16x256x64.size a := by
  show i ∈ ((View.whole main_v6_2).slice (win0_8.rect t)).set ↔ _
  rw [View.set_slice_whole, Rect.mem_set_unit]
  exact Iff.rfl

/-- Every entry of output array 8 lies in some point's block: batch b, all 16 heads, row tile s / 256, all 64 lanes. -/
theorem cover0_8_arr (i : S2x16x2048x64.Idx) : ∃ t : Fin cfg0.N, (cfg0.win 8).flush t = true ∧ i ∈ ((cfg0.win 8).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht6, ht7, ht8⟩ := idx_onto0 ⟨(i 0).val, by omega⟩ ⟨(i 2).val / 256, by omega⟩
  have q0 : win0_8.index t (0 : Fin 4) = (i 0).val := congrFun ht8 0
  have q1 : win0_8.index t (1 : Fin 4) = 0 := congrFun ht8 1
  have q2 : win0_8.index t (2 : Fin 4) = (i 2).val / 256 := congrFun ht8 2
  have q3 : win0_8.index t (3 : Fin 4) = 0 := congrFun ht8 3
  refine ⟨t, flush0_8 t, ?_⟩
  rw [mem_blk0_8]
  intro a
  match a with
  | ⟨0, _⟩ => show win0_8.index t (0 : Fin 4) * 1 ≤ (i 0).val ∧ (i 0).val < win0_8.index t (0 : Fin 4) * 1 + 1; omega
  | ⟨1, _⟩ => show win0_8.index t (1 : Fin 4) * 16 ≤ (i 1).val ∧ (i 1).val < win0_8.index t (1 : Fin 4) * 16 + 16; omega
  | ⟨2, _⟩ => show win0_8.index t (2 : Fin 4) * 256 ≤ (i 2).val ∧ (i 2).val < win0_8.index t (2 : Fin 4) * 256 + 256; omega
  | ⟨3, _⟩ => show win0_8.index t (3 : Fin 4) * 64 ≤ (i 3).val ∧ (i 3).val < win0_8.index t (3 : Fin 4) * 64 + 64; omega

/-- Output array 8 after the first region, as one function of the arrays the region finds. -/
theorem final0_8 (c : Dev nD) : (dat0 V c).arrAt 8 cfg0.N = vArray (V c main_v1) (V c main_v5) :=
  (dat0 V c).arrAt_eq_of_cover 8 _ (fun t _ => flushed0_8_eq V c t) cover0_8_arr

end Cert.CrossAttn
end
-- ==== Proof.Body1.lean ====
/-
  The attention body's stored values, read at an index.

  One grid step of the attention kernel handles a pair of heads. For each head it forms the 256 x 2048 block of
  scores q kᵀ (a contraction over the 64 lanes of both operands) times one eighth, takes each row's greatest entry,
  exponentiates the differences, sums each row of exponentials, multiplies the exponentials against the 2048 x 64
  values, divides each row by its sum, and adds the residual block. Read at row r and lane j this is the row-level
  attention attRow of the row's scaled scores scoreRow, plus the residual there.

  The file first reads the layout operations that occur (casts between [1,1,a,b], [a,b] and [1,a,b], the column
  forms [a] → [a,1] → [a,b]) and the two reductions and two products at an index given by coordinates; then splits
  the stored value into three blocks (scores, exponentials, quotient), reads each at an index, and assembles.
-/
import proofs.«120350_j23639499997334_2_alg».proof.Proof.Gen.KernelIdeal.Skeleton
import proofs.«120350_j23639499997334_2_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.CrossAttn.Body1

open Idealize.ShloMosaic Idealize.ShloMosaic.ValueIdx Cert.KernelIdeal Cert.KernelIdeal.Gen

/-! ## Layout operations at an index given by coordinates -/

section Layout
variable {α : Type}

/-- A [1, 1, a, b] array cast to [a, b] reads, at (i, j), the operand at (0, 0, i, j): both have row-major
    position i * b + j. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- A vector [a] cast to the column [a, 1] reads, at (i, u), the operand at i. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] broadcast to [a, b] reads, at (p, c), the column's entry at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The two row reductions at a row -/

/-- Over row r of a 256 x 2048 block, the index with coordinate n inserted on the reduced axis is (r, n). -/
theorem lift_row (r : Fin 256) (n : Fin 2048) : reduces_S256x2048_S256.lift (ix1 r) n = ix2 r n :=
  funext fun c => Fin.ext (by
    match c with
    | ⟨0, _⟩ => rfl
    | ⟨1, _⟩ => rfl)

/-- The row maximum at row r is the fold of max from minus infinity over that row. -/
theorem rowmax_apply (s : FVec Ideal S256x2048 .f32) (hφ : FKind.Formats .f32)
    (hacc : (0xFF800000#32 : BitVec 32) = FKind.maximumf.neutral .f32 hφ) (r : Fin 256) :
    multiReduction (F := Ideal) .maximumf [1] S256 s 0xFF800000#32 reduces_S256x2048_S256 hφ hacc (ix1 r)
      = rowmax (fun n => s (ix2 r n)) := by
  refine (Ideal.multiReduction_maximumf_single s _ reduces_S256x2048_S256 hφ hacc (ix1 r)).trans ?_
  have hs : (s ∘ reduces_S256x2048_S256.lift (ix1 r)) = fun n : Fin 2048 => s (ix2 r n) :=
    funext fun n => congrArg s (lift_row r n)
  rw [hs]
  rfl

/-- The row sum at row r is the sum over that row. -/
theorem rowsum_apply (p : FVec Ideal S256x2048 .f32) (hφ : FKind.Formats .f32)
    (hacc : (0x00000000#32 : BitVec 32) = FKind.add.neutral .f32 hφ) (r : Fin 256) :
    multiReduction (F := Ideal) .add [1] S256 p 0x00000000#32 reduces_S256x2048_S256 hφ hacc (ix1 r)
      = ∑ n : Fin 2048, p (ix2 r n) :=
  (Ideal.multiReduction_add_single p _ reduces_S256x2048_S256 hφ hacc (ix1 r)).trans
    (Finset.sum_congr rfl fun n _ => congrArg p (lift_row r n))

/-! ## The two products at an index -/

/-- The score product's left index keeps the result's row coordinate on the query's row axis. -/
theorem lhs_qk_0 (i : S256x2048.Idx) (q : dot_S256x64_S2048x64_S256x2048_1_1_0_0_n_n.contr.Idx) :
    (dot_S256x64_S2048x64_S256x2048_1_1_0_0_n_n.lhsIdx i q 0).val = (i 0).val := by
  unfold DotDims.lhsIdx
  rw [dif_neg (show ¬(0 : Fin S256x64.rank) ∈ dot_S256x64_S2048x64_S256x2048_1_1_0_0_n_n.lhsBatch by decide),
    dif_pos (show (0 : Fin S256x64.rank) ∈ dot_S256x64_S2048x64_S256x2048_1_1_0_0_n_n.lhsNonContracting by decide)]
  rfl
/-- Its right index keeps the result's column coordinate on the key's row axis. -/
theorem rhs_qk_0 (i : S256x2048.Idx) (q : dot_S256x64_S2048x64_S256x2048_1_1_0_0_n_n.contr.Idx) :
    (dot_S256x64_S2048x64_S256x2048_1_1_0_0_n_n.rhsIdx i q 0).val = (i 1).val := by
  unfold DotDims.rhsIdx
  rw [dif_neg (show ¬(0 : Fin S2048x64.rank) ∈ dot_S256x64_S2048x64_S256x2048_1_1_0_0_n_n.rhsBatch by decide),
    dif_pos (show (0 : Fin S2048x64.rank) ∈ dot_S256x64_S2048x64_S256x2048_1_1_0_0_n_n.rhsNonContracting by decide)]
  rfl
/-- The value product's left index keeps the result's row coordinate on the exponentials' row axis. -/
theorem lhs_pv_0 (i : S256x64.Idx) (q : dot_S256x2048_S2048x64_S256x64_1_0_0_1_n_n.contr.Idx) :
    (dot_S256x2048_S2048x64_S256x64_1_0_0_1_n_n.lhsIdx i q 0).val = (i 0).val := by
  unfold DotDims.lhsIdx
  rw [dif_neg (show ¬(0 : Fin S256x2048.rank) ∈ dot_S256x2048_S2048x64_S256x64_1_0_0_1_n_n.lhsBatch by decide),
    dif_pos (show (0 : Fin S256x2048.rank) ∈ dot_S256x2048_S2048x64_S256x64_1_0_0_1_n_n.lhsNonContracting by decide)]
  rfl
/-- Its right index keeps the result's lane coordinate on the values' lane axis. -/
theorem rhs_pv_1 (i : S256x64.Idx) (q : dot_S256x2048_S2048x64_S256x64_1_0_0_1_n_n.contr.Idx) :
    (dot_S256x2048_S2048x64_S256x64_1_0_0_1_n_n.rhsIdx i q 1).val = (i 1).val := by
  unfold DotDims.rhsIdx
  rw [dif_neg (show ¬(1 : Fin S2048x64.rank) ∈ dot_S256x2048_S2048x64_S256x64_1_0_0_1_n_n.rhsBatch by decide),
    dif_pos (show (1 : Fin S2048x64.rank) ∈ dot_S256x2048_S2048x64_S256x64_1_0_0_1_n_n.rhsNonContracting by decide)]
  rfl

/-- q kᵀ at (r, n): the sum over the 64 lanes of query row r against key row n (both operands are contracted
    on their lane axis). -/
theorem matmul_qk_apply (q : FVec Ideal S256x64 .bf16) (k : FVec Ideal S2048x64 .bf16) (r : Fin 256) (n : Fin 2048) :
    matmul dot_S256x64_S2048x64_S256x2048_1_1_0_0_n_n none q k (constant (F := Ideal) S256x2048 .f32 0x00000000#32) (ix2 r n)
      = ∑ l : Fin 64, q (ix2 r l) * k (ix2 n l) := by
  simp only [matmul]
  rw [Ideal.matmul_constant_zero_apply,
    ← Equiv.sum_comp (contrEquiv1 dot_S256x64_S2048x64_S256x2048_1_1_0_0_n_n 64 rfl rfl).symm]
  refine Finset.sum_congr rfl fun l _ => ?_
  have hl := contrEquiv1_symm_val dot_S256x64_S2048x64_S256x2048_1_1_0_0_n_n 64 rfl rfl l
  have el : dot_S256x64_S2048x64_S256x2048_1_1_0_0_n_n.lhsIdx (ix2 r n)
      ((contrEquiv1 dot_S256x64_S2048x64_S256x2048_1_1_0_0_n_n 64 rfl rfl).symm l) = ix2 r l :=
    funext fun a => Fin.ext (by
      match a with
      | ⟨0, _⟩ => exact lhs_qk_0 _ _
      | ⟨1, _⟩ => exact (dot_S256x64_S2048x64_S256x2048_1_1_0_0_n_n.lhsIdx_val_of_single rfl _ _).trans hl)
  have er : dot_S256x64_S2048x64_S256x2048_1_1_0_0_n_n.rhsIdx (ix2 r n)
      ((contrEquiv1 dot_S256x64_S2048x64_S256x2048_1_1_0_0_n_n 64 rfl rfl).symm l) = ix2 n l :=
    funext fun a => Fin.ext (by
      match a with
      | ⟨0, _⟩ => exact rhs_qk_0 _ _
      | ⟨1, _⟩ => exact (dot_S256x64_S2048x64_S256x2048_1_1_0_0_n_n.rhsIdx_val_of_single rfl _ _).trans hl)
  rw [el, er]

/-- p v at (r, j): the sum over the 2048 key rows of p at (r, n) against value row n at lane j. -/
theorem matmul_pv_apply (p : FVec Ideal S256x2048 .bf16) (v : FVec Ideal S2048x64 .bf16) (r : Fin 256) (j : Fin 64) :
    matmul dot_S256x2048_S2048x64_S256x64_1_0_0_1_n_n none p v (constant (F := Ideal) S256x64 .f32 0x00000000#32) (ix2 r j)
      = ∑ n : Fin 2048, p (ix2 r n) * v (ix2 n j) := by
  simp only [matmul]
  rw [Ideal.matmul_constant_zero_apply,
    ← Equiv.sum_comp (contrEquiv1 dot_S256x2048_S2048x64_S256x64_1_0_0_1_n_n 2048 rfl rfl).symm]
  refine Finset.sum_congr rfl fun n _ => ?_
  have hn := contrEquiv1_symm_val dot_S256x2048_S2048x64_S256x64_1_0_0_1_n_n 2048 rfl rfl n
  have el : dot_S256x2048_S2048x64_S256x64_1_0_0_1_n_n.lhsIdx (ix2 r j)
      ((contrEquiv1 dot_S256x2048_S2048x64_S256x64_1_0_0_1_n_n 2048 rfl rfl).symm n) = ix2 r n :=
    funext fun a => Fin.ext (by
      match a with
      | ⟨0, _⟩ => exact lhs_pv_0 _ _
      | ⟨1, _⟩ => exact (dot_S256x2048_S2048x64_S256x64_1_0_0_1_n_n.lhsIdx_val_of_single rfl _ _).trans hn)
  have er : dot_S256x2048_S2048x64_S256x64_1_0_0_1_n_n.rhsIdx (ix2 r j)
      ((contrEquiv1 dot_S256x2048_S2048x64_S256x64_1_0_0_1_n_n 2048 rfl rfl).symm n) = ix2 n j :=
    funext fun a => Fin.ext (by
      match a with
      | ⟨0, _⟩ => exact (dot_S256x2048_S2048x64_S256x64_1_0_0_1_n_n.rhsIdx_val_of_single rfl _ _).trans hn
      | ⟨1, _⟩ => exact rhs_pv_1 _ _)
  rw [el, er]

/-! ## The stored value in three blocks -/

/-- The block of scaled scores: q kᵀ times one eighth. -/
def scoreBlk (q : FVec Ideal S256x64 .bf16) (k : FVec Ideal S2048x64 .bf16) : FVec Ideal S256x2048 .f32 :=
  mulf (matmul dot_S256x64_S2048x64_S256x2048_1_1_0_0_n_n none q k (constant (F := Ideal) S256x2048 .f32 0x00000000#32))
    (broadcast S256x2048 (Scalar.ofBits (F := Ideal) .f32 0x3E000000#32))

/-- The block of exponentials: each score less its row's greatest, exponentiated. -/
def expBlk (s : FVec Ideal S256x2048 .f32) : FVec Ideal S256x2048 .f32 :=
  exp (subf s (broadcastTo S256x2048
    (shapeCast S256x1 (multiReduction (F := Ideal) .maximumf [1] S256 s 0xFF800000#32 reduces_S256x2048_S256 (.inl rfl) rfl)
      shapeCasts_S256_S256x1) broadcasts_S256x1_S256x2048))

/-- The quotient block: the exponentials against the values, each row divided by its sum of exponentials. -/
def attBlk (p : FVec Ideal S256x2048 .f32) (v : FVec Ideal S2048x64 .bf16) : FVec Ideal S256x64 .f32 :=
  divf (matmul dot_S256x2048_S2048x64_S256x64_1_0_0_1_n_n none (truncf .bf16 p bitsLt_bf16_f32) v
      (constant (F := Ideal) S256x64 .f32 0x00000000#32))
    (broadcastTo S256x64
      (shapeCast S256x1 (multiReduction (F := Ideal) .add [1] S256 p 0x00000000#32 reduces_S256x2048_S256 (.inl rfl) rfl)
        shapeCasts_S256_S256x1) broadcasts_S256x1_S256x64)

/-- The second head's stored value is the quotient block of the exponential block of the score block, plus the
    residual, under the casts between [1,1,a,b], [a,b] and [1,a,b]: by unfolding. -/
theorem k1_pay1_eq (v27 : FVec Ideal S256x64 .bf16) (v28 v30 : Vec Ideal S1x1x2048x64 .bf16) (v46 : Vec Ideal S1x256x64 .f32) :
    k1_pay1 (F := Ideal) v27 v28 v30 v46
      = shapeCast S1x256x64
          (addf (attBlk (expBlk (scoreBlk v27 (shapeCast S2048x64 v28 shapeCasts_S1x1x2048x64_S2048x64)))
              (shapeCast S2048x64 v30 shapeCasts_S1x1x2048x64_S2048x64))
            (shapeCast S256x64 v46 shapeCasts_S1x256x64_S256x64))
          shapeCasts_S256x64_S1x256x64 := rfl

/-- The first head's stored value is the second's term with the query block read through its cast. -/
theorem k1_pay2_eq (v0 : Vec Ideal S1x1x256x64 .bf16) (v2 v4 : Vec Ideal S1x1x2048x64 .bf16) (v20 : Vec Ideal S1x256x64 .f32) :
    k1_pay2 (F := Ideal) v0 v2 v4 v20 = k1_pay1 (F := Ideal) (k1_pay3 (F := Ideal) v0) v2 v4 v20 := rfl

/-! ## Each block at an index -/

/-- The score block at (r, n) is the scaled score of query row r against key row n. -/
theorem scoreBlk_apply (q : FVec Ideal S256x64 .bf16) (k : FVec Ideal S2048x64 .bf16) (r : Fin 256) (n : Fin 2048) :
    scoreBlk q k (ix2 r n) = scoreRow (fun l => q (ix2 r l)) (fun n' l => k (ix2 n' l)) n :=
  congrArg (· * Ideal.ofBits .f32 0x3E000000#32) (matmul_qk_apply q k r n)

/-- The exponential block at (r, n): the exponential of the score there less row r's greatest. -/
theorem expBlk_apply (s : FVec Ideal S256x2048 .f32) (r : Fin 256) (n : Fin 2048) :
    expBlk s (ix2 r n) = Ideal.exp (s (ix2 r n) - rowmax (fun n' => s (ix2 r n'))) :=
  congrArg (fun m => Ideal.exp (s (ix2 r n) - m))
    ((broadcastTo_a1_ab_apply _ _ r n).trans
      ((shapeCast_a_a1_apply _ _ r 0).trans (rowmax_apply s _ _ r)))

/-- The quotient block at (r, j): the sum over key rows of p against the values at lane j, divided by row r's sum. -/
theorem attBlk_apply (p : FVec Ideal S256x2048 .f32) (v : FVec Ideal S2048x64 .bf16) (r : Fin 256) (j : Fin 64) :
    attBlk p v (ix2 r j) = Ideal.div (∑ n : Fin 2048, p (ix2 r n) * v (ix2 n j)) (∑ n : Fin 2048, p (ix2 r n)) :=
  congrArg₂ Ideal.div (matmul_pv_apply (truncf .bf16 p bitsLt_bf16_f32) v r j)
    ((broadcastTo_a1_ab_apply _ _ r j).trans
      ((shapeCast_a_a1_apply _ _ r 0).trans (rowsum_apply p _ _ r)))

end Cert.CrossAttn.Body1

/-! ## The stored values at an index -/

namespace Cert.CrossAttn

open Idealize.ShloMosaic Idealize.ShloMosaic.ValueIdx Cert.KernelIdeal Cert.KernelIdeal.Gen Cert.CrossAttn.Body1

/-- The reshaped query block at (r, j) is the loaded block at (0, 0, r, j). -/
theorem pay3_apply (v26 : Vec Ideal S1x1x256x64 .bf16) (r : Fin 256) (j : Fin 64) :
    k1_pay3 (F := Ideal) v26 (ix2 r j) = v26 (ix4 0 0 r j) :=
  shapeCast_11ab_ab_apply v26 shapeCasts_S1x1x256x64_S256x64 r j

/-- The second head's stored value at (a, r, j): the row attention of query row r's scaled scores against the
    loaded keys, applied to the loaded values at lane j, plus the residual at (0, r, j). -/
theorem pay_hi_apply (v27 : FVec Ideal S256x64 .bf16) (v28 v30 : Vec Ideal S1x1x2048x64 .bf16) (v46 : Vec Ideal S1x256x64 .f32)
    (a : Fin 1) (r : Fin 256) (j : Fin 64) :
    k1_pay1 (F := Ideal) v27 v28 v30 v46 (ix3 a r j)
      = attRow (scoreRow (fun j' => v27 (ix2 r j')) (fun n j' => v28 (ix4 0 0 n j'))) (fun n j' => v30 (ix4 0 0 n j')) j
        + v46 (ix3 0 r j) := by
  rw [k1_pay1_eq]
  refine (shapeCast_ab_1ab_apply _ _ a r j).trans ?_
  refine (addf_apply _ _ _).trans ?_
  refine congrArg₂ (· + ·) ?_ (shapeCast_1ab_ab_apply v46 _ r j)
  refine (attBlk_apply _ _ r j).trans ?_
  -- the score block's row r is the row of scaled scores against the loaded keys
  have hK : (fun (n' : Fin 2048) (l : Fin 64) => shapeCast S2048x64 v28 shapeCasts_S1x1x2048x64_S2048x64 (ix2 n' l))
      = fun n' l => v28 (ix4 0 0 n' l) :=
    funext fun n' => funext fun l => shapeCast_11ab_ab_apply v28 _ n' l
  have hrow : ∀ n : Fin 2048,
      scoreBlk v27 (shapeCast S2048x64 v28 shapeCasts_S1x1x2048x64_S2048x64) (ix2 r n)
        = scoreRow (fun j' => v27 (ix2 r j')) (fun n j' => v28 (ix4 0 0 n j')) n := fun n =>
    (scoreBlk_apply v27 _ r n).trans (congrArg (fun kk => scoreRow (fun j' => v27 (ix2 r j')) kk n) hK)
  have hexp : ∀ n : Fin 2048,
      expBlk (scoreBlk v27 (shapeCast S2048x64 v28 shapeCasts_S1x1x2048x64_S2048x64)) (ix2 r n)
        = Ideal.exp (scoreRow (fun j' => v27 (ix2 r j')) (fun n j' => v28 (ix4 0 0 n j')) n
            - rowmax (scoreRow (fun j' => v27 (ix2 r j')) (fun n j' => v28 (ix4 0 0 n j')))) := fun n =>
    (expBlk_apply _ r n).trans (congrArg₂ (fun x f => Ideal.exp (x - rowmax f)) (hrow n) (funext hrow))
  exact congrArg₂ Ideal.div
    (Finset.sum_congr rfl fun n _ => congrArg₂ (· * ·) (hexp n) (shapeCast_11ab_ab_apply v30 _ n j))
    (Finset.sum_congr rfl fun n _ => hexp n)

/-- The first head's stored value at (a, r, j): the same, with the query row read from the loaded block. -/
theorem pay_lo_apply (v0 : Vec Ideal S1x1x256x64 .bf16) (v2 v4 : Vec Ideal S1x1x2048x64 .bf16) (v20 : Vec Ideal S1x256x64 .f32)
    (a : Fin 1) (r : Fin 256) (j : Fin 64) :
    k1_pay2 (F := Ideal) v0 v2 v4 v20 (ix3 a r j)
      = attRow (scoreRow (fun j' => v0 (ix4 0 0 r j')) (fun n j' => v2 (ix4 0 0 n j'))) (fun n j' => v4 (ix4 0 0 n j')) j
        + v20 (ix3 0 r j) := by
  rw [k1_pay2_eq]
  refine (pay_hi_apply (k1_pay3 (F := Ideal) v0) v2 v4 v20 a r j).trans ?_
  have hq : (fun j' : Fin 64 => k1_pay3 (F := Ideal) v0 (ix2 r j')) = fun j' => v0 (ix4 0 0 r j') :=
    funext fun j' => pay3_apply v0 r j'
  rw [hq]

end Cert.CrossAttn

end
-- ==== Proof.Blocks1.lean ====
/-
  The attention region, from blocks to the array. Each grid point takes one (batch, head pair, row tile): its
  output block of 256 rows and 128 columns holds, in columns 0 to 63, the first head's attention of the tile's query rows
  over all 2048 key rows, and in columns 64 to 127 the second head's, each plus the residual block. Read at an index
  of the whole result array, entry (b, s, e) is therefore the attention of query row s of head e / 64 of batch b at
  lane e % 64 plus the residual there: one function of the query, key, value and residual arrays. The blocks tile
  the array, so the array after the region is that function.
-/
import proofs.«120350_j23639499997334_2_alg».proof.Proof.Gen.KernelIdeal.Frame
import proofs.«120350_j23639499997334_2_alg».proof.Proof.RowSpec
import proofs.«120350_j23639499997334_2_alg».proof.Proof.Body1
import Idealize.ShloMosaic.Lib.ValueIdx
import Idealize.ShloMosaic.Lib.Pipeline.Value

set_option maxRecDepth 16384

noncomputable section

namespace Cert.CrossAttn

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- Which of a block's two heads a column of its 128 belongs to, and the lane there. -/
def pairHead (cc : Fin 128) : Fin 2 := ⟨cc.val / 64, by omega⟩
def pairLane (cc : Fin 128) : Fin 64 := ⟨cc.val % 64, Nat.mod_lt _ (by norm_num)⟩

/-- What the attention body leaves in its output block, as one function of the block index: row r, column cc of the
    block is the attention of query row r of head cc / 64 of the pair at lane cc % 64, plus the residual there. -/
def blockOut1 (x0 : Vec Ideal S1x2x256x64 .bf16) (x1 x2 : Vec Ideal S1x2x2048x64 .bf16) (x3 : Vec Ideal S1x256x128 .f32) :
    S1x256x128.Idx → EReal := fun y =>
  attRow (scoreRow (fun j => x0 (ix4 0 (pairHead (y 2)) (y 1) j)) (fun n j => x1 (ix4 0 (pairHead (y 2)) n j)))
    (fun n j => x2 (ix4 0 (pairHead (y 2)) n j)) (pairLane (y 2)) + x3 y

theorem out1_4_apply (x0 : Vec Ideal S1x2x256x64 .bf16) (x1 x2 : Vec Ideal S1x2x2048x64 .bf16) (x3 : Vec Ideal S1x256x128 .f32)
    (y : S1x256x128.Idx) : out1_4 (F := Ideal) x0 x1 x2 x3 y = blockOut1 x0 x1 x2 x3 y := by
  unfold out1_4
  refine View.canon_apply_of_pieces (Val := Elt Ideal) (blockOut1 x0 x1 x2 x3) _ ?_ y (cover1_4 _ _ y)
  intro p hp x
  simp only [List.mem_cons, List.not_mem_nil, or_false] at hp
  rcases hp with rfl | rfl
  · -- the second head of the pair: columns 64 … 127 of the block
    revert x; intro (x : S1x256x64.Idx)
    obtain ⟨a, r, j, rfl⟩ : ∃ (a : Fin 1) (r : Fin 256) (j : Fin 64), x = ix3 a r j := ⟨x 0, x 1, x 2, eq_ix3 x⟩
    show k1_pay1 (k1_pay3 (View.ld x0 r1_3)) (View.ld x1 r1_4) (View.ld x2 r1_4) (View.ld x3 r1_5) (ix3 a r j)
      = blockOut1 x0 x1 x2 x3 (r1_5.emb (ix3 a r j))
    rw [pay_hi_apply]
    have ha : a = 0 := Fin.ext (by omega)
    subst ha
    have e5 : r1_5.emb (ix3 (0 : Fin 1) r j) = ix3 (0 : Fin 1) r (⟨64 + j.val, by omega⟩ : Fin 128) := by
      funext d; apply Fin.ext
      match d with
      | ⟨0, _⟩ => rfl
      | ⟨1, _⟩ => show 0 + 1 * r.val = r.val; omega
      | ⟨2, _⟩ => show 64 + 1 * j.val = 64 + j.val; omega
    have e3 : ∀ j' : Fin 64, r1_3.idx (ix4 (0 : Fin 1) (0 : Fin 1) r j') = ix4 (0 : Fin 1) (1 : Fin 2) r j' := fun j' => by
      funext d; apply Fin.ext
      match d with
      | ⟨0, _⟩ => rfl
      | ⟨1, _⟩ => rfl
      | ⟨2, _⟩ => show 0 + 1 * r.val = r.val; omega
      | ⟨3, _⟩ => show 0 + 1 * j'.val = j'.val; omega
    have e4 : ∀ (n : Fin 2048) (j' : Fin 64), r1_4.idx (ix4 (0 : Fin 1) (0 : Fin 1) n j') = ix4 (0 : Fin 1) (1 : Fin 2) n j' := fun n j' => by
      funext d; apply Fin.ext
      match d with
      | ⟨0, _⟩ => rfl
      | ⟨1, _⟩ => rfl
      | ⟨2, _⟩ => show 0 + 1 * n.val = n.val; omega
      | ⟨3, _⟩ => show 0 + 1 * j'.val = j'.val; omega
    rw [e5]
    have hH : pairHead (⟨64 + j.val, by omega⟩ : Fin 128) = 1 := Fin.ext (by show (64 + j.val) / 64 = 1; omega)
    have hL : pairLane (⟨64 + j.val, by omega⟩ : Fin 128) = j := Fin.ext (by show (64 + j.val) % 64 = j.val; omega)
    unfold blockOut1
    show _ = attRow (scoreRow (fun j' => x0 (ix4 0 (pairHead ⟨64 + j.val, _⟩) r j')) (fun n j' => x1 (ix4 0 (pairHead ⟨64 + j.val, _⟩) n j')))
      (fun n j' => x2 (ix4 0 (pairHead ⟨64 + j.val, _⟩) n j')) (pairLane ⟨64 + j.val, _⟩) + x3 (ix3 0 r ⟨64 + j.val, _⟩)
    rw [hH, hL]
    simp only [pay3_apply]
    show attRow (scoreRow (fun j' => x0 (r1_3.idx (ix4 0 0 r j'))) (fun n j' => x1 (r1_4.idx (ix4 0 0 n j'))))
      (fun n j' => x2 (r1_4.idx (ix4 0 0 n j'))) j + x3 (r1_5.emb (ix3 0 r j)) = _
    simp only [e3, e4, e5]
  · -- the first head of the pair: columns 0 … 63 of the block
    revert x; intro (x : S1x256x64.Idx)
    obtain ⟨a, r, j, rfl⟩ : ∃ (a : Fin 1) (r : Fin 256) (j : Fin 64), x = ix3 a r j := ⟨x 0, x 1, x 2, eq_ix3 x⟩
    show k1_pay2 (View.ld x0 r1_0) (View.ld x1 r1_1) (View.ld x2 r1_1) (View.ld x3 r1_2) (ix3 a r j)
      = blockOut1 x0 x1 x2 x3 (r1_2.emb (ix3 a r j))
    rw [pay_lo_apply]
    have ha : a = 0 := Fin.ext (by omega)
    subst ha
    have e2 : r1_2.emb (ix3 (0 : Fin 1) r j) = ix3 (0 : Fin 1) r (⟨j.val, by omega⟩ : Fin 128) := by
      funext d; apply Fin.ext
      match d with
      | ⟨0, _⟩ => rfl
      | ⟨1, _⟩ => show 0 + 1 * r.val = r.val; omega
      | ⟨2, _⟩ => show 0 + 1 * j.val = j.val; omega
    have e0 : ∀ j' : Fin 64, r1_0.idx (ix4 (0 : Fin 1) (0 : Fin 1) r j') = ix4 (0 : Fin 1) (0 : Fin 2) r j' := fun j' => by
      funext d; apply Fin.ext
      match d with
      | ⟨0, _⟩ => rfl
      | ⟨1, _⟩ => rfl
      | ⟨2, _⟩ => show 0 + 1 * r.val = r.val; omega
      | ⟨3, _⟩ => show 0 + 1 * j'.val = j'.val; omega
    have e1 : ∀ (n : Fin 2048) (j' : Fin 64), r1_1.idx (ix4 (0 : Fin 1) (0 : Fin 1) n j') = ix4 (0 : Fin 1) (0 : Fin 2) n j' := fun n j' => by
      funext d; apply Fin.ext
      match d with
      | ⟨0, _⟩ => rfl
      | ⟨1, _⟩ => rfl
      | ⟨2, _⟩ => show 0 + 1 * n.val = n.val; omega
      | ⟨3, _⟩ => show 0 + 1 * j'.val = j'.val; omega
    rw [e2]
    have hH : pairHead (⟨j.val, by omega⟩ : Fin 128) = 0 := Fin.ext (by show j.val / 64 = 0; omega)
    have hL : pairLane (⟨j.val, by omega⟩ : Fin 128) = j := Fin.ext (by show j.val % 64 = j.val; omega)
    unfold blockOut1
    show _ = attRow (scoreRow (fun j' => x0 (ix4 0 (pairHead ⟨j.val, _⟩) r j')) (fun n j' => x1 (ix4 0 (pairHead ⟨j.val, _⟩) n j')))
      (fun n j' => x2 (ix4 0 (pairHead ⟨j.val, _⟩) n j')) (pairLane ⟨j.val, _⟩) + x3 (ix3 0 r ⟨j.val, _⟩)
    rw [hH, hL]
    show attRow (scoreRow (fun j' => x0 (r1_0.idx (ix4 0 0 r j'))) (fun n j' => x1 (r1_1.idx (ix4 0 0 n j'))))
      (fun n j' => x2 (r1_1.idx (ix4 0 0 n j'))) j + x3 (r1_2.emb (ix3 0 r j)) = _
    simp only [e0, e1, e2]

/-! ## From blocks to the array -/

variable (V : (c : Dev nD) → (b : Ref sig .tc) → Buf (Elt Ideal) ((c : Thread nD τ).loc b))

/-- The result array as one function of the query, key, value and residual arrays: entry (b, s, e) is the attention
    of query row s of head e / 64 of batch b at lane e % 64, plus the residual there. -/
def attnArray (Q K W : S2x16x2048x64.Idx → EReal) (R : S2x2048x1024.Idx → EReal) : S2x2048x1024.Idx → EReal := fun i =>
  attRow (scoreRow (fun j => Q (ix4 (i 0) (headOf (i 2)) (i 1) j)) (fun n j => K (ix4 (i 0) (headOf (i 2)) n j)))
    (fun n j => W (ix4 (i 0) (headOf (i 2)) n j)) (laneOf (i 2)) + R i

/-- The printed index maps over the 128 grid points: the query block follows the output block's batch, head pair
    and row tile; the key and value blocks its batch and head pair, from row 0; the residual block is the output's. -/
theorem idx_facts1 : ∀ t : Fin cfg1.N,
    win1_0.index t (0 : Fin 4) = win1_4.index t (0 : Fin 3) ∧ win1_0.index t (1 : Fin 4) = win1_4.index t (2 : Fin 3)
    ∧ win1_0.index t (2 : Fin 4) = win1_4.index t (1 : Fin 3) ∧ win1_0.index t (3 : Fin 4) = 0
    ∧ win1_1.index t (0 : Fin 4) = win1_4.index t (0 : Fin 3) ∧ win1_1.index t (1 : Fin 4) = win1_4.index t (2 : Fin 3)
    ∧ win1_1.index t (2 : Fin 4) = 0 ∧ win1_1.index t (3 : Fin 4) = 0
    ∧ win1_2.index t (0 : Fin 4) = win1_4.index t (0 : Fin 3) ∧ win1_2.index t (1 : Fin 4) = win1_4.index t (2 : Fin 3)
    ∧ win1_2.index t (2 : Fin 4) = 0 ∧ win1_2.index t (3 : Fin 4) = 0
    ∧ win1_3.index t (0 : Fin 3) = win1_4.index t (0 : Fin 3) ∧ win1_3.index t (1 : Fin 3) = win1_4.index t (1 : Fin 3)
    ∧ win1_3.index t (2 : Fin 3) = win1_4.index t (2 : Fin 3)
    ∧ win1_4.index t (0 : Fin 3) ≤ 1 ∧ win1_4.index t (1 : Fin 3) ≤ 7 ∧ win1_4.index t (2 : Fin 3) ≤ 7 :=
  (by decide +kernel : ∀ t : Fin grid1.N, _)

/-- Every (batch, row tile, head pair) is some point's output block. -/
theorem idx_onto1 : ∀ (q0 : Fin 2) (q1 : Fin 8) (q2 : Fin 8), ∃ t : Fin cfg1.N, win1_4.index t = ![q0.val, q1.val, q2.val] :=
  (by decide +kernel : ∀ (q0 : Fin 2) (q1 : Fin 8) (q2 : Fin 8), ∃ t : Fin grid1.N, win1_4.index t = ![q0.val, q1.val, q2.val])

/-- What point t writes back of the result is block t of the whole-array function, of the arrays as the region finds them. -/
theorem flushed1_eq (c : Dev nD) (t : Fin cfg1.N) :
    (dat1 V c).flushed 4 t = ((cfg1.win 4).blk t).view.read (Elt Ideal)
      (attnArray (V c main_v6_0) (V c main_v6_1) (V c main_v6_2) (V c main_arg0)) := by
  show (cfg1.win 4).cut (grid1.coords t) ((dat1 V c).after 4 t) = _
  rw [after1_4]
  funext y
  show out1_4 (iblk1 V c 0 t) (iblk1 V c 1 t) (iblk1 V c 2 t) (iblk1 V c 3 t) y
    = attnArray (V c main_v6_0) (V c main_v6_1) (V c main_v6_2) (V c main_arg0) (((cfg1.win 4).blk t).view.emb y)
  rw [out1_4_apply]
  obtain ⟨f00, f01, f02, f03, f10, f11, f12, f13, f20, f21, f22, f23, f30, f31, f32, b0, b1, b2⟩ := idx_facts1 t
  revert y; intro (y : S1x256x128.Idx)
  obtain ⟨y0, y1, y2, rfl⟩ : ∃ (y0 : Fin 1) (y1 : Fin 256) (y2 : Fin 128), y = ix3 y0 y1 y2 := ⟨y 0, y 1, y 2, eq_ix3 y⟩
  have hy0 : y0 = 0 := Fin.ext (by omega)
  subst hy0
  generalize hi : ((cfg1.win 4).blk t).view.emb (ix3 (0 : Fin 1) y1 y2) = i
  have i0 : (i 0).val = win1_4.index t (0 : Fin 3) := by
    rw [← hi]; show win1_4.index t (0 : Fin 3) * 1 + 1 * 0 = _; omega
  have i1 : (i 1).val = win1_4.index t (1 : Fin 3) * 256 + y1.val := by
    rw [← hi]; show win1_4.index t (1 : Fin 3) * 256 + 1 * y1.val = _; omega
  have i2 : (i 2).val = win1_4.index t (2 : Fin 3) * 128 + y2.val := by
    rw [← hi]; show win1_4.index t (2 : Fin 3) * 128 + 1 * y2.val = _; omega
  have hq : (fun j : Fin 64 => iblk1 V c 0 t (ix4 (0 : Fin 1) (pairHead y2) y1 j))
      = fun j => V c main_v6_0 (ix4 (i 0) (headOf (i 2)) (i 1) j) := funext fun j => by
    show V c main_v6_0 (((cfg1.win 0).blk t).view.emb (ix4 (0 : Fin 1) (pairHead y2) y1 j)) = _
    refine congrArg (V c main_v6_0) (funext fun d => Fin.ext ?_)
    match d with
    | ⟨0, _⟩ => show win1_0.index t (0 : Fin 4) * 1 + 1 * 0 = (i 0).val; omega
    | ⟨1, _⟩ => show win1_0.index t (1 : Fin 4) * 2 + 1 * (y2.val / 64) = (i 2).val / 64; omega
    | ⟨2, _⟩ => show win1_0.index t (2 : Fin 4) * 256 + 1 * y1.val = (i 1).val; omega
    | ⟨3, _⟩ => show win1_0.index t (3 : Fin 4) * 64 + 1 * j.val = j.val; omega
  have hk : (fun (n : Fin 2048) (j : Fin 64) => iblk1 V c 1 t (ix4 (0 : Fin 1) (pairHead y2) n j))
      = fun n j => V c main_v6_1 (ix4 (i 0) (headOf (i 2)) n j) := funext fun n => funext fun j => by
    show V c main_v6_1 (((cfg1.win 1).blk t).view.emb (ix4 (0 : Fin 1) (pairHead y2) n j)) = _
    refine congrArg (V c main_v6_1) (funext fun d => Fin.ext ?_)
    match d with
    | ⟨0, _⟩ => show win1_1.index t (0 : Fin 4) * 1 + 1 * 0 = (i 0).val; omega
    | ⟨1, _⟩ => show win1_1.index t (1 : Fin 4) * 2 + 1 * (y2.val / 64) = (i 2).val / 64; omega
    | ⟨2, _⟩ => show win1_1.index t (2 : Fin 4) * 2048 + 1 * n.val = n.val; omega
    | ⟨3, _⟩ => show win1_1.index t (3 : Fin 4) * 64 + 1 * j.val = j.val; omega
  have hv : (fun (n : Fin 2048) (j : Fin 64) => iblk1 V c 2 t (ix4 (0 : Fin 1) (pairHead y2) n j))
      = fun n j => V c main_v6_2 (ix4 (i 0) (headOf (i 2)) n j) := funext fun n => funext fun j => by
    show V c main_v6_2 (((cfg1.win 2).blk t).view.emb (ix4 (0 : Fin 1) (pairHead y2) n j)) = _
    refine congrArg (V c main_v6_2) (funext fun d => Fin.ext ?_)
    match d with
    | ⟨0, _⟩ => show win1_2.index t (0 : Fin 4) * 1 + 1 * 0 = (i 0).val; omega
    | ⟨1, _⟩ => show win1_2.index t (1 : Fin 4) * 2 + 1 * (y2.val / 64) = (i 2).val / 64; omega
    | ⟨2, _⟩ => show win1_2.index t (2 : Fin 4) * 2048 + 1 * n.val = n.val; omega
    | ⟨3, _⟩ => show win1_2.index t (3 : Fin 4) * 64 + 1 * j.val = j.val; omega
  have hl : pairLane y2 = laneOf (i 2) := Fin.ext (by show y2.val % 64 = (i 2).val % 64; omega)
  have hr : iblk1 V c 3 t (ix3 (0 : Fin 1) y1 y2) = V c main_arg0 i := by
    show V c main_arg0 (((cfg1.win 3).blk t).view.emb (ix3 (0 : Fin 1) y1 y2)) = _
    refine congrArg (V c main_arg0) (funext fun d => Fin.ext ?_)
    match d with
    | ⟨0, _⟩ => show win1_3.index t (0 : Fin 3) * 1 + 1 * 0 = (i 0).val; omega
    | ⟨1, _⟩ => show win1_3.index t (1 : Fin 3) * 256 + 1 * y1.val = (i 1).val; omega
    | ⟨2, _⟩ => show win1_3.index t (2 : Fin 3) * 128 + 1 * y2.val = (i 2).val; omega
  show attRow (scoreRow (fun j => iblk1 V c 0 t (ix4 (0 : Fin 1) (pairHead y2) y1 j)) (fun n j => iblk1 V c 1 t (ix4 (0 : Fin 1) (pairHead y2) n j)))
      (fun n j => iblk1 V c 2 t (ix4 (0 : Fin 1) (pairHead y2) n j)) (pairLane y2) + iblk1 V c 3 t (ix3 (0 : Fin 1) y1 y2)
    = attRow (scoreRow (fun j => V c main_v6_0 (ix4 (i 0) (headOf (i 2)) (i 1) j)) (fun n j => V c main_v6_1 (ix4 (i 0) (headOf (i 2)) n j)))
      (fun n j => V c main_v6_2 (ix4 (i 0) (headOf (i 2)) n j)) (laneOf (i 2)) + V c main_arg0 i
  rw [hq, hk, hv, hl, hr]

/-- An index of the result array is in point t's block iff each coordinate is in the block's range on its axis. -/
theorem mem_blk1 (t : Fin cfg1.N) (i : S2x2048x1024.Idx) :
    i ∈ ((cfg1.win 4).blk t).view.set ↔ ∀ a : Fin 3, win1_4.index t a * S1x256x128.size a ≤ (i a).val
      ∧ (i a).val < win1_4.index t a * S1x256x128.size a + S1x256x128.size a := by
  show i ∈ ((View.whole main_v7).slice (win1_4.rect t)).set ↔ _
  rw [View.set_slice_whole, Rect.mem_set_unit]
  exact Iff.rfl

/-- Every entry of the result array lies in some point's block: batch b, row tile s / 256, head pair e / 128. -/
theorem cover1 (i : S2x2048x1024.Idx) : ∃ t : Fin cfg1.N, (cfg1.win 4).flush t = true ∧ i ∈ ((cfg1.win 4).blk t).view.set := by
  have hi0 : (i 0).val < 2 := (i 0).isLt
  have hi1 : (i 1).val < 2048 := (i 1).isLt
  have hi2 : (i 2).val < 1024 := (i 2).isLt
  obtain ⟨t, ht⟩ := idx_onto1 ⟨(i 0).val, by omega⟩ ⟨(i 1).val / 256, by omega⟩ ⟨(i 2).val / 128, by omega⟩
  have q0 : win1_4.index t (0 : Fin 3) = (i 0).val := congrFun ht 0
  have q1 : win1_4.index t (1 : Fin 3) = (i 1).val / 256 := congrFun ht 1
  have q2 : win1_4.index t (2 : Fin 3) = (i 2).val / 128 := congrFun ht 2
  refine ⟨t, flush1_4 t, ?_⟩
  rw [mem_blk1]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 256 ≤ (i 1).val ∧ (i 1).val < win1_4.index t (1 : Fin 3) * 256 + 256; omega
  | ⟨2, _⟩ => show win1_4.index t (2 : Fin 3) * 128 ≤ (i 2).val ∧ (i 2).val < win1_4.index t (2 : Fin 3) * 128 + 128; omega

/-- The result array after the second region: the attention of the query, key and value arrays plus the residual array,
    each as the region finds it. -/
theorem final1 (c : Dev nD) : (dat1 V c).arrAt 4 cfg1.N
    = attnArray (V c main_v6_0) (V c main_v6_1) (V c main_v6_2) (V c main_arg0) :=
  (dat1 V c).arrAt_eq_of_cover 4 _ (fun t _ => flushed1_eq V c t) cover1

end Cert.CrossAttn
end
-- ==== Proof.Chain.lean ====
/-
  The two regions chained, and the result as the layer. The host stage before the first region flattens the two
  inputs to 4096 rows and transposes the two weights; the first region leaves the query, key and value arrays as
  functions of those; the second region finds them as the first left them, and the input array untouched, and
  leaves the result as their attention plus the residual. Read through the flattening (row 2048 b + s is row s of
  batch b) and the transposes (entry (d, e) of a transposed weight is entry (e, d) of the weight), the result at
  (b, s, e) is the layer of the six argument arrays, normalising after the sum.
-/
import proofs.«120350_j23639499997334_2_alg».proof.Proof.Blocks0
import proofs.«120350_j23639499997334_2_alg».proof.Proof.Blocks1
import Idealize.ShloMosaic.Lib.StableHlo.Run
import Idealize.ShloMosaic.Lib.ValueLayout

set_option maxRecDepth 16384

noncomputable section

namespace Cert.CrossAttn

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-! ## The host stage, read at an index -/

theorem V1_v0_eq (c : Dev nD) :
    (V1 m ρ c main_v0 : S4096x1024.Idx → EReal)
      = shapeCast S4096x1024 (m ((c : Thread nD τ).loc main_arg0)) Facts₀.shapeCasts_S2x2048x1024_S4096x1024 := by
  dsimp only [V1, W1, W0, hostOps0]; after_results; rfl

theorem V1_v1_eq (c : Dev nD) :
    (V1 m ρ c main_v1 : S4096x1024.Idx → EReal)
      = shapeCast S4096x1024 (m ((c : Thread nD τ).loc main_arg1)) Facts₀.shapeCasts_S2x2048x1024_S4096x1024 := by
  dsimp only [V1, W1, W0, hostOps0]; after_results; rfl

theorem V1_v3_eq (c : Dev nD) :
    (V1 m ρ c main_v3 : S1024x1024.Idx → EReal)
      = truncf (F := Ideal) .bf16 (transpose S1024x1024 [1, 0] (m ((c : Thread nD τ).loc main_arg5)) Facts₀.transposes_S1024x1024_S1024x1024_1_0)
          Facts₀.bitsLt_bf16_f32 := by
  dsimp only [V1, W1, W0, hostOps0]; after_results

theorem V1_v5_eq (c : Dev nD) :
    (V1 m ρ c main_v5 : S1024x2048.Idx → EReal)
      = truncf (F := Ideal) .bf16 (transpose S1024x2048 [1, 0] (m ((c : Thread nD τ).loc main_arg4)) Facts₀.transposes_S2048x1024_S1024x2048_1_0)
          Facts₀.bitsLt_bf16_f32 := by
  dsimp only [V1, W1, W0, hostOps0]; after_results

theorem V1_arg2_eq (c : Dev nD) : (V1 m ρ c main_arg2 : S1024.Idx → EReal) = m ((c : Thread nD τ).loc main_arg2) := by
  dsimp only [V1, W1, W0, hostOps0]; after_results

theorem V1_arg3_eq (c : Dev nD) : (V1 m ρ c main_arg3 : S1024.Idx → EReal) = m ((c : Thread nD τ).loc main_arg3) := by
  dsimp only [V1, W1, W0, hostOps0]; after_results

/-- Row 2048 b + s of a flattened input is row s of batch b. -/
theorem flat_apply (X : S2x2048x1024.Idx → EReal) (h : S2x2048x1024.ShapeCasts S4096x1024) (b : Fin 2) (s : Fin 2048) (d : Fin 1024) :
    shapeCast S4096x1024 X h (ix2 (row2 b s) d) = X (ix3 b s d) := by
  refine shapeCast_apply X h _ (ix3 b s d) ?_
  rw [Shape.rowMajor_val_three, Shape.rowMajor_val_two]
  show (b.val * 2048 + s.val) * 1024 + d.val = (2048 * b.val + s.val) * 1024 + d.val
  omega

/-! ## The arrays between the regions, and the result -/

theorem V2_q (c : Dev nD) : (V2 m ρ c main_v6_0 : S2x16x2048x64.Idx → EReal)
    = qArray (V1 m ρ c main_v0) (V1 m ρ c main_arg2) (V1 m ρ c main_arg3) (V1 m ρ c main_v3) :=
  (W2_arr m ρ c 6).trans (final0_6 (V1 m ρ) c)

theorem V2_k (c : Dev nD) : (V2 m ρ c main_v6_1 : S2x16x2048x64.Idx → EReal)
    = kArray (V1 m ρ c main_v1) (V1 m ρ c main_v5) :=
  (W2_arr m ρ c 7).trans (final0_7 (V1 m ρ) c)

theorem V2_v (c : Dev nD) : (V2 m ρ c main_v6_2 : S2x16x2048x64.Idx → EReal)
    = vArray (V1 m ρ c main_v1) (V1 m ρ c main_v5) :=
  (W2_arr m ρ c 8).trans (final0_8 (V1 m ρ) c)

/-- The second region finds the input array as launched: no host operation and no region writes it. -/
theorem V2_arg0 (c : Dev nD) : (V2 m ρ c main_arg0 : S2x2048x1024.Idx → EReal) = m ((c : Thread nD τ).loc main_arg0) :=
  ((W3_arr m ρ c 3).trans (((dat1 (V2 m ρ) c).arrAt_in 3 rfl _).trans (A_eq1 (V2 m ρ) c 3))).symm.trans (W3_main_arg0 m ρ c)

/-- The result buffer at the last boundary: the attention of the three arrays the first region left, plus the input. -/
theorem W3_result (c : Dev nD) : (W3 m ρ c (Proc.devRef .tc main_v7) : S2x2048x1024.Idx → EReal)
    = attnArray (V2 m ρ c main_v6_0) (V2 m ρ c main_v6_1) (V2 m ρ c main_v6_2) (V2 m ρ c main_arg0) :=
  (W3_arr m ρ c 4).trans (final1 (V2 m ρ) c)

/-! ## The result is the layer -/

/-- The six argument arrays read by coordinates. -/
abbrev argX (c : Dev nD) : Fin 2 → Fin 2048 → Fin 1024 → EReal := fun b s d => m ((c : Thread nD τ).loc main_arg0) (ix3 b s d)
abbrev argC (c : Dev nD) : Fin 2 → Fin 2048 → Fin 1024 → EReal := fun b s d => m ((c : Thread nD τ).loc main_arg1) (ix3 b s d)
abbrev argG (c : Dev nD) : Fin 1024 → EReal := fun d => m ((c : Thread nD τ).loc main_arg2) (ix1 d)
abbrev argB (c : Dev nD) : Fin 1024 → EReal := fun d => m ((c : Thread nD τ).loc main_arg3) (ix1 d)
abbrev argKV (c : Dev nD) : Fin 2048 → Fin 1024 → EReal := fun e d => m ((c : Thread nD τ).loc main_arg4) (ix2 e d)
abbrev argQ (c : Dev nD) : Fin 1024 → Fin 1024 → EReal := fun e d => m ((c : Thread nD τ).loc main_arg5) (ix2 e d)

theorem V2_q_apply (c : Dev nD) (b : Fin 2) (h : Fin 16) (s : Fin 2048) (j : Fin 64) :
    V2 m ρ c main_v6_0 (ix4 b h s j) = qHead (argX m c) (argG m c) (argB m c) (argQ m c) b h s j := by
  rw [V2_q]
  show (∑ d : Fin 1024, lnRow (fun d' => V1 m ρ c main_v0 (ix2 (row2 b s) d')) (fun d' => V1 m ρ c main_arg2 (ix1 d'))
      (fun d' => V1 m ρ c main_arg3 (ix1 d')) d * V1 m ρ c main_v3 (ix2 d (lane h j)))
    = ∑ d : Fin 1024, lnRow (argX m c b s) (argG m c) (argB m c) d * argQ m c (lane h j) d
  rw [V1_v0_eq, V1_arg2_eq, V1_arg3_eq, V1_v3_eq]
  refine Finset.sum_congr rfl fun d _ => ?_
  have hx : (fun d' : Fin 1024 => shapeCast S4096x1024 (m ((c : Thread nD τ).loc main_arg0)) Facts₀.shapeCasts_S2x2048x1024_S4096x1024 (ix2 (row2 b s) d'))
      = argX m c b s := funext fun d' => flat_apply _ _ b s d'
  have hw : truncf (F := Ideal) .bf16 (transpose S1024x1024 [1, 0] (m ((c : Thread nD τ).loc main_arg5)) Facts₀.transposes_S1024x1024_S1024x1024_1_0)
      Facts₀.bitsLt_bf16_f32 (ix2 d (lane h j)) = argQ m c (lane h j) d :=
    transpose_ix2_apply _ _ d (lane h j)
  rw [hx, hw]

theorem V2_k_apply (c : Dev nD) (b : Fin 2) (h : Fin 16) (n : Fin 2048) (j : Fin 64) :
    V2 m ρ c main_v6_1 (ix4 b h n j) = kHead (argC m c) (argKV m c) b h n j := by
  rw [V2_k]
  show kArray (V1 m ρ c main_v1) (V1 m ρ c main_v5) (ix4 b h n j) = kHead (argC m c) (argKV m c) b h n j
  unfold kArray kHead kvproj
  refine Finset.sum_congr rfl fun d _ => ?_
  have hx : V1 m ρ c main_v1 (ix2 (row2 b n) d) = argC m c b n d := by
    rw [V1_v1_eq]; exact flat_apply _ _ b n d
  have hw : V1 m ρ c main_v5 (ix2 d (laneK h j)) = argKV m c (laneK h j) d := by
    rw [V1_v5_eq]; exact transpose_ix2_apply _ _ d (laneK h j)
  exact congrArg₂ (fun x y : EReal => x * y) hx hw

theorem V2_v_apply (c : Dev nD) (b : Fin 2) (h : Fin 16) (n : Fin 2048) (j : Fin 64) :
    V2 m ρ c main_v6_2 (ix4 b h n j) = vHead (argC m c) (argKV m c) b h n j := by
  rw [V2_v]
  show vArray (V1 m ρ c main_v1) (V1 m ρ c main_v5) (ix4 b h n j) = vHead (argC m c) (argKV m c) b h n j
  unfold vArray vHead kvproj
  refine Finset.sum_congr rfl fun d _ => ?_
  have hx : V1 m ρ c main_v1 (ix2 (row2 b n) d) = argC m c b n d := by
    rw [V1_v1_eq]; exact flat_apply _ _ b n d
  have hw : V1 m ρ c main_v5 (ix2 d (laneV h j)) = argKV m c (laneV h j) d := by
    rw [V1_v5_eq]; exact transpose_ix2_apply _ _ d (laneV h j)
  exact congrArg₂ (fun x y : EReal => x * y) hx hw

/-- The result buffer at the last boundary is the layer of the six argument arrays, normalising after the sum. -/
theorem W3_result_apply (c : Dev nD) (i : S2x2048x1024.Idx) :
    W3 m ρ c (Proc.devRef .tc main_v7) i
      = layerAfter (argX m c) (argC m c) (argG m c) (argB m c) (argKV m c) (argQ m c) (i 0) (i 1) (i 2) := by
  rw [W3_result]
  obtain ⟨b, s, e, rfl⟩ : ∃ (b : Fin 2) (s : Fin 2048) (e : Fin 1024), i = ix3 b s e := ⟨i 0, i 1, i 2, eq_ix3 i⟩
  show attRow (scoreRow (fun j => V2 m ρ c main_v6_0 (ix4 b (headOf e) s j)) (fun n j => V2 m ρ c main_v6_1 (ix4 b (headOf e) n j)))
      (fun n j => V2 m ρ c main_v6_2 (ix4 b (headOf e) n j)) (laneOf e) + V2 m ρ c main_arg0 (ix3 b s e)
    = attRow (scoreRow (qHead (argX m c) (argG m c) (argB m c) (argQ m c) b (headOf e) s) (kHead (argC m c) (argKV m c) b (headOf e)))
      (vHead (argC m c) (argKV m c) b (headOf e)) (laneOf e) + argX m c b s e
  have hq : (fun j : Fin 64 => V2 m ρ c main_v6_0 (ix4 b (headOf e) s j))
      = qHead (argX m c) (argG m c) (argB m c) (argQ m c) b (headOf e) s := funext fun j => V2_q_apply m ρ c b (headOf e) s j
  have hk : (fun (n : Fin 2048) (j : Fin 64) => V2 m ρ c main_v6_1 (ix4 b (headOf e) n j))
      = kHead (argC m c) (argKV m c) b (headOf e) := funext fun n => funext fun j => V2_k_apply m ρ c b (headOf e) n j
  have hv : (fun (n : Fin 2048) (j : Fin 64) => V2 m ρ c main_v6_2 (ix4 b (headOf e) n j))
      = vHead (argC m c) (argKV m c) b (headOf e) := funext fun n => funext fun j => V2_v_apply m ρ c b (headOf e) n j
  rw [hq, hk, hv, V2_arg0]

end Cert.CrossAttn
end
-- ==== Proof.RefValue.lean ====
/-
  The reference program read as the specification: each of its operations read at an index of explicit
  coordinates, stage by stage, until its result is the layer `Cert.CrossAttn.layerBefore` of the six argument
  arrays read by coordinates.
-/
import proofs.«120350_j23639499997334_2_alg».proof.Proof.Gen.ReferenceIdeal.Read
import proofs.«120350_j23639499997334_2_alg».proof.Proof.Spec
import Idealize.ShloMosaic.Lib.ValueIdx
import Idealize.ShloMosaic.Lib.Pipeline.Value
import Idealize.ShloMosaic.PureOps.Ideal.Laws

noncomputable section

namespace Cert.CrossAttn.Ref

open Idealize.ShloMosaic Idealize.ShloMosaic.ValueIdx Cert.ReferenceIdeal Cert.ReferenceIdeal.Gen Cert.ReferenceIdeal.Read

/-! ## The argument arrays by coordinates -/

section Stages

variable (x0 x1 : (⟨S2x2048x1024, .f32⟩ : BufTy).Contents (Elt Ideal))
  (x2 x3 : (⟨S1024, .f32⟩ : BufTy).Contents (Elt Ideal))
  (x4 : (⟨S2048x1024, .f32⟩ : BufTy).Contents (Elt Ideal))
  (x5 : (⟨S1024x1024, .f32⟩ : BufTy).Contents (Elt Ideal))

/-- A rank-3 array as a function of its three coordinates. -/
abbrev A3 (x : (⟨S2x2048x1024, .f32⟩ : BufTy).Contents (Elt Ideal)) : Fin 2 → Fin 2048 → Fin 1024 → EReal :=
  fun b s d => x (ix3 b s d)
/-- A vector of 1024 entries as a function of its coordinate. -/
abbrev A1 (x : (⟨S1024, .f32⟩ : BufTy).Contents (Elt Ideal)) : Fin 1024 → EReal := fun d => x (ix1 d)
/-- The key/value weight as a function of its two coordinates. -/
abbrev AKV (x : (⟨S2048x1024, .f32⟩ : BufTy).Contents (Elt Ideal)) : Fin 2048 → Fin 1024 → EReal :=
  fun e d => x (ix2 e d)
/-- The query weight as a function of its two coordinates. -/
abbrev AQ (x : (⟨S1024x1024, .f32⟩ : BufTy).Contents (Elt Ideal)) : Fin 1024 → Fin 1024 → EReal :=
  fun e d => x (ix2 e d)

/-! ## The layer norm (operations 0 to 23) -/

/-- The row sum divided by the 1024 word: the mean. -/
theorem v3_at (b : Fin 2) (s : Fin 2048) (z : Fin 1) : val_main_v3 (F := Ideal) x0 (ix3 b s z) = mean (A3 x0) b s := by
  rw [val_main_v3_apply, val_main_v1_apply, val_main_v2_apply, val_main_v0_apply, val_main_cst_0_apply, val_main_cst_apply]
  simp only [Ideal.hostDivf_def, Ideal.ofBits_def, Ideal.ofBits_zero_f32, zero_add]
  unfold mean
  refine congrArg (fun t => Ideal.div t _) (Finset.sum_congr rfl fun k _ => congrArg x0 ?_)
  funext a; match a with | ⟨0, _⟩ => rfl | ⟨1, _⟩ => rfl | ⟨2, _⟩ => rfl

/-- The mean broadcast along the row. -/
theorem v4_at (b : Fin 2) (s : Fin 2048) (d : Fin 1024) : val_main_v4 (F := Ideal) x0 (ix3 b s d) = mean (A3 x0) b s := by
  have hi : idx_main_v4 (ix3 b s d) = ix3 b s (⟨0, Nat.one_pos⟩ : Fin 1) := by
    funext a; match a with | ⟨0, _⟩ => rfl | ⟨1, _⟩ => rfl | ⟨2, _⟩ => rfl
  rw [val_main_v4_apply, hi, v3_at]

/-- The entry less its row's mean. -/
theorem v5_at (b : Fin 2) (s : Fin 2048) (d : Fin 1024) : val_main_v5 (F := Ideal) x0 (ix3 b s d) = cen (A3 x0) b s d := by
  rw [val_main_v5_apply, v4_at]; rfl

/-- The centred entry squared. -/
theorem v6_at (b : Fin 2) (s : Fin 2048) (d : Fin 1024) :
    val_main_v6 (F := Ideal) x0 (ix3 b s d) = cen (A3 x0) b s d * cen (A3 x0) b s d := by
  rw [val_main_v6_apply, v5_at]; rfl

/-- The sum of the centred squares divided by the 1024 word: the variance. -/
theorem v10_at (b : Fin 2) (s : Fin 2048) (z : Fin 1) : val_main_v10 (F := Ideal) x0 (ix3 b s z) = var (A3 x0) b s := by
  rw [val_main_v10_apply, val_main_v8_apply, val_main_v9_apply, val_main_v7_apply, val_main_cst_2_apply, val_main_cst_1_apply]
  simp only [Ideal.hostDivf_def, Ideal.ofBits_def, Ideal.ofBits_zero_f32, zero_add]
  unfold var
  refine congrArg (fun t => Ideal.div t _) (Finset.sum_congr rfl fun k _ => ?_)
  have hi : idx_main_v7 (idx_main_v8 (ix3 b s z)) k = ix3 b s k := by
    funext a; match a with | ⟨0, _⟩ => rfl | ⟨1, _⟩ => rfl | ⟨2, _⟩ => rfl
  rw [hi, v6_at]

/-- The mean broadcast along the row, a second time. -/
theorem v11_at (b : Fin 2) (s : Fin 2048) (d : Fin 1024) : val_main_v11 (F := Ideal) x0 (ix3 b s d) = mean (A3 x0) b s := by
  have hi : idx_main_v11 (ix3 b s d) = ix3 b s (⟨0, Nat.one_pos⟩ : Fin 1) := by
    funext a; match a with | ⟨0, _⟩ => rfl | ⟨1, _⟩ => rfl | ⟨2, _⟩ => rfl
  rw [val_main_v11_apply, hi, v3_at]

/-- The centred entry, a second time. -/
theorem v12_at (b : Fin 2) (s : Fin 2048) (d : Fin 1024) : val_main_v12 (F := Ideal) x0 (ix3 b s d) = cen (A3 x0) b s d := by
  rw [val_main_v12_apply, v11_at]; rfl

/-- The inverse root of the variance plus the epsilon word. -/
theorem v15_at (b : Fin 2) (s : Fin 2048) (z : Fin 1) :
    val_main_v15 (F := Ideal) x0 (ix3 b s z) = Ideal.rsqrt (var (A3 x0) b s + Ideal.ofBits .f32 0x3727C5AC#32) := by
  rw [val_main_v15_apply, val_main_v14_apply, v10_at, val_main_v13_apply, val_main_cst_3_apply]; rfl

/-- The centred entry scaled by the inverse root. -/
theorem v17_at (b : Fin 2) (s : Fin 2048) (d : Fin 1024) :
    val_main_v17 (F := Ideal) x0 (ix3 b s d)
      = cen (A3 x0) b s d * Ideal.rsqrt (var (A3 x0) b s + Ideal.ofBits .f32 0x3727C5AC#32) := by
  have hi : idx_main_v16 (ix3 b s d) = ix3 b s (⟨0, Nat.one_pos⟩ : Fin 1) := by
    funext a; match a with | ⟨0, _⟩ => rfl | ⟨1, _⟩ => rfl | ⟨2, _⟩ => rfl
  rw [val_main_v17_apply, v12_at, val_main_v16_apply, hi, v15_at]; rfl

/-- The scale vector broadcast over the rows. -/
theorem v19_at (b : Fin 2) (s : Fin 2048) (d : Fin 1024) : val_main_v19 (F := Ideal) x2 (ix3 b s d) = x2 (ix1 d) := by
  rw [val_main_v19_apply, val_main_v18_apply]
  exact congrArg x2 (funext fun a => match a with | ⟨0, _⟩ => rfl)

/-- The shift vector broadcast over the rows. -/
theorem v22_at (b : Fin 2) (s : Fin 2048) (d : Fin 1024) : val_main_v22 (F := Ideal) x3 (ix3 b s d) = x3 (ix1 d) := by
  rw [val_main_v22_apply, val_main_v21_apply]
  exact congrArg x3 (funext fun a => match a with | ⟨0, _⟩ => rfl)

/-- Operations 0 to 23 are the layer norm. -/
theorem v23_at (b : Fin 2) (s : Fin 2048) (d : Fin 1024) :
    val_main_v23 (F := Ideal) x0 x2 x3 (ix3 b s d) = lnorm (A3 x0) (A1 x2) (A1 x3) b s d := by
  rw [val_main_v23_apply, val_main_v20_apply, v17_at, v19_at, v22_at]; rfl

/-! ## The two projections (operations 24 to 27) -/

/-- The key/value projection: a sum over the 1024 features. -/
theorem v24_at (b : Fin 2) (s : Fin 2048) (e : Fin 2048) :
    val_main_v24 (F := Ideal) x1 x4 (ix3 b s e) = kvproj (A3 x1) (AKV x4) b s e := by
  rw [val_main_v24_apply]
  unfold kvproj
  refine Finset.sum_congr rfl fun k _ => congrArg₂ (· * ·) (congrArg x1 ?_) (congrArg x4 ?_)
  · funext a; match a with | ⟨0, _⟩ => rfl | ⟨1, _⟩ => rfl | ⟨2, _⟩ => rfl
  · funext a; match a with | ⟨0, _⟩ => rfl | ⟨1, _⟩ => rfl

/-- The first 1024 projected columns: the keys. -/
theorem v25_at (b : Fin 2) (s : Fin 2048) (e : Fin 1024) :
    val_main_v25 (F := Ideal) x1 x4 (ix3 b s e) = kvproj (A3 x1) (AKV x4) b s ⟨e.val, by omega⟩ := by
  have hi : idx_main_v25 (ix3 b s e) = ix3 b s (⟨e.val, by omega⟩ : Fin 2048) := by
    funext a; match a with | ⟨0, _⟩ => rfl | ⟨1, _⟩ => rfl | ⟨2, _⟩ => rfl
  rw [val_main_v25_apply, hi, v24_at]

/-- The last 1024 projected columns: the values. -/
theorem v26_at (b : Fin 2) (s : Fin 2048) (e : Fin 1024) :
    val_main_v26 (F := Ideal) x1 x4 (ix3 b s e) = kvproj (A3 x1) (AKV x4) b s ⟨1024 + e.val, by omega⟩ := by
  have hi : idx_main_v26 (ix3 b s e) = ix3 b s (⟨1024 + e.val, by omega⟩ : Fin 2048) := by
    funext a; match a with | ⟨0, _⟩ => rfl | ⟨1, _⟩ => rfl | ⟨2, _⟩ => rfl
  rw [val_main_v26_apply, hi, v24_at]

/-- The query projection of the normalised rows. -/
theorem v27_at (b : Fin 2) (s : Fin 2048) (e : Fin 1024) :
    val_main_v27 (F := Ideal) x0 x2 x3 x5 (ix3 b s e) = qproj (A3 x0) (A1 x2) (A1 x3) (AQ x5) b s e := by
  rw [val_main_v27_apply]
  unfold qproj
  refine Finset.sum_congr rfl fun k _ => ?_
  have hl : lidx_main_v27 (ix3 b s e) k = ix3 b s k := by
    funext a; match a with | ⟨0, _⟩ => rfl | ⟨1, _⟩ => rfl | ⟨2, _⟩ => rfl
  have hr : ridx_main_v27 (ix3 b s e) k = ix2 e k := by
    funext a; match a with | ⟨0, _⟩ => rfl | ⟨1, _⟩ => rfl
  rw [hl, hr, v23_at]

/-! ## The split into 16 heads of 64 lanes (operations 28 to 33) -/

/-- Entry (b, s, h, j) of the array of heads is entry (b, s, 64 h + j) of the array of columns. -/
theorem split_idx (b : Fin 2) (s : Fin 2048) (h : Fin 16) (j : Fin 64) :
    idx_main_v28 (ix4 b s h j) = ix3 b s (lane h j) := by
  have hb := b.isLt; have hs := s.isLt; have hh := h.isLt; have hj := j.isLt
  funext a
  match a with
  | ⟨0, _⟩ => exact Fin.ext (by show (((b.val * 2048 + s.val) * 16 + h.val) * 64 + j.val) / 2097152 = b.val; omega)
  | ⟨1, _⟩ => exact Fin.ext (by show (((b.val * 2048 + s.val) * 16 + h.val) * 64 + j.val) / 1024 % 2048 = s.val; omega)
  | ⟨2, _⟩ => exact Fin.ext (by show (((b.val * 2048 + s.val) * 16 + h.val) * 64 + j.val) % 1024 = 64 * h.val + j.val; omega)

/-- The swap of the row axis and the head axis. -/
theorem swap_idx (b : Fin 2) (h : Fin 16) (s : Fin 2048) (j : Fin 64) :
    idx_main_v29 (ix4 b h s j) = ix4 b s h j := by
  funext a; match a with | ⟨0, _⟩ => rfl | ⟨1, _⟩ => rfl | ⟨2, _⟩ => rfl | ⟨3, _⟩ => rfl

/-- The queries of head h of batch b. -/
theorem v29_at (b : Fin 2) (h : Fin 16) (s : Fin 2048) (j : Fin 64) :
    val_main_v29 (F := Ideal) x0 x2 x3 x5 (ix4 b h s j) = qHead (A3 x0) (A1 x2) (A1 x3) (AQ x5) b h s j := by
  rw [val_main_v29_apply, swap_idx, val_main_v28_apply, split_idx, v27_at]; rfl

/-- The keys of head h of batch b. -/
theorem v31_at (b : Fin 2) (h : Fin 16) (s : Fin 2048) (j : Fin 64) :
    val_main_v31 (F := Ideal) x1 x4 (ix4 b h s j) = kHead (A3 x1) (AKV x4) b h s j := by
  have h1 : idx_main_v31 (ix4 b h s j) = ix4 b s h j := swap_idx b h s j
  have h2 : idx_main_v30 (ix4 b s h j) = ix3 b s (lane h j) := split_idx b s h j
  rw [val_main_v31_apply, h1, val_main_v30_apply, h2, v25_at]; rfl

/-- The values of head h of batch b. -/
theorem v33_at (b : Fin 2) (h : Fin 16) (s : Fin 2048) (j : Fin 64) :
    val_main_v33 (F := Ideal) x1 x4 (ix4 b h s j) = vHead (A3 x1) (AKV x4) b h s j := by
  have h1 : idx_main_v33 (ix4 b h s j) = ix4 b s h j := swap_idx b h s j
  have h2 : idx_main_v32 (ix4 b s h j) = ix3 b s (lane h j) := split_idx b s h j
  rw [val_main_v33_apply, h1, val_main_v32_apply, h2, v26_at]; rfl

/-! ## The scaled scores (operations 34 to 36) -/

section Attn

-- Shorthand for the queries, keys and values of the heads, as functions of (batch, head, row, lane).
local notation "qH" => qHead (A3 x0) (A1 x2) (A1 x3) (AQ x5)
local notation "kH" => kHead (A3 x1) (AKV x4)
local notation "vH" => vHead (A3 x1) (AKV x4)

/-- The raw score of query row i against key row n of head (b, h): a sum over the 64 lanes. -/
theorem v34_at (b : Fin 2) (h : Fin 16) (i n : Fin 2048) :
    val_main_v34 (F := Ideal) x0 x1 x2 x3 x4 x5 (ix4 b h i n) = score (qH b h) (kH b h) i n := by
  rw [val_main_v34_apply]
  unfold score
  refine Finset.sum_congr rfl fun k _ => ?_
  have hl : lidx_main_v34 (ix4 b h i n) k = ix4 b h i k := by
    funext a; match a with | ⟨0, _⟩ => rfl | ⟨1, _⟩ => rfl | ⟨2, _⟩ => rfl | ⟨3, _⟩ => rfl
  have hr : ridx_main_v34 (ix4 b h i n) k = ix4 b h n k := by
    funext a; match a with | ⟨0, _⟩ => rfl | ⟨1, _⟩ => rfl | ⟨2, _⟩ => rfl | ⟨3, _⟩ => rfl
  rw [hl, hr, v29_at, v31_at]

/-- The score divided by the 8 word. -/
theorem v36_at (b : Fin 2) (h : Fin 16) (i n : Fin 2048) :
    val_main_v36 (F := Ideal) x0 x1 x2 x3 x4 x5 (ix4 b h i n) = scoreDiv (qH b h) (kH b h) i n := by
  rw [val_main_v36_apply, v34_at, val_main_v35_apply, val_main_cst_4_apply]; rfl

/-! ## The row's greatest score and the exponentials (operations 37 to 43) -/

/-- Dropping the last of the four axes leaves the first three. -/
theorem red3 : S2x16x2048x2048.Reduces [3] S2x16x2048 := by decide

/-- The index (b, h, i) with the coordinate k put back on the last axis. -/
theorem lift_idx (b : Fin 2) (h : Fin 16) (i : Fin 2048) (k : Fin (S2x16x2048x2048.size 3)) :
    red3.lift (ix3 b h i) k = ix4 b h i (⟨k.val, k.isLt⟩ : Fin 2048) := by
  funext c; apply Fin.ext
  fin_cases c <;> rfl

/-- The reduce with a maximum body over the last axis, from the minus-infinity word: the row's greatest score. -/
theorem v37_at (b : Fin 2) (h : Fin 16) (i : Fin 2048) :
    val_main_v37 (F := Ideal) x0 x1 x2 x3 x4 x5 (ix3 b h i) = rowmax (scoreDiv (qH b h) (kH b h) i) := by
  unfold val_main_v37
  rw [Host.reduce_eq_fold_single FloatOps.maximumf _ _ reducesTo_S2x16x2048x2048_S2x16x2048_d3 red3 h_S_]
  have hf : (val_main_v36 (F := Ideal) x0 x1 x2 x3 x4 x5 ∘ red3.lift (ix3 b h i))
      = fun n : Fin 2048 => scoreDiv (qH b h) (kH b h) i n := by
    funext k; rw [Function.comp_apply, lift_idx, v36_at]; rfl
  rw [hf, val_main_cst_5_apply]
  rfl

/-- The maximum of minus infinity and the row's greatest score is the latter: a fold of max is at least its
    initial value. -/
theorem v39_at (b : Fin 2) (h : Fin 16) (i : Fin 2048) :
    val_main_v39 (F := Ideal) x0 x1 x2 x3 x4 x5 (ix3 b h i) = rowmax (scoreDiv (qH b h) (kH b h) i) := by
  rw [val_main_v39_apply, v37_at, val_main_v38_apply, val_main_cst_6_apply, Ideal.maximumf_def, Ideal.ofBits_def]
  exact max_eq_right (by unfold rowmax; exact (Finset.le_fold_max _).2 (Or.inl le_rfl))

/-- The exponential of a score less its row's greatest. -/
theorem v43_at (b : Fin 2) (h : Fin 16) (i n : Fin 2048) :
    val_main_v43 (F := Ideal) x0 x1 x2 x3 x4 x5 (ix4 b h i n) = pexp (scoreDiv (qH b h) (kH b h)) i n := by
  have h1 : idx_main_v41 (ix4 b h i n) = ix4 b h i (⟨0, Nat.one_pos⟩ : Fin 1) := by
    funext a; match a with | ⟨0, _⟩ => rfl | ⟨1, _⟩ => rfl | ⟨2, _⟩ => rfl | ⟨3, _⟩ => rfl
  have h2 : idx_main_v40 (ix4 b h i (⟨0, Nat.one_pos⟩ : Fin 1)) = ix3 b h i := by
    funext a; match a with | ⟨0, _⟩ => rfl | ⟨1, _⟩ => rfl | ⟨2, _⟩ => rfl
  rw [val_main_v43_apply, val_main_v42_apply, v36_at, val_main_v41_apply, h1, val_main_v40_apply, h2, v39_at]; rfl

/-! ## The normalised weights and their product with the values (operations 44 to 48) -/

/-- The row's sum of exponentials (the zero word plus the sum). -/
theorem v44_at (b : Fin 2) (h : Fin 16) (i : Fin 2048) :
    val_main_v44 (F := Ideal) x0 x1 x2 x3 x4 x5 (ix3 b h i) = ∑ n : Fin 2048, pexp (scoreDiv (qH b h) (kH b h)) i n := by
  rw [val_main_v44_apply, val_main_cst_7_apply]
  simp only [Ideal.ofBits_def, Ideal.ofBits_zero_f32, zero_add]
  refine Finset.sum_congr rfl fun k _ => ?_
  have hi : idx_main_v44 (ix3 b h i) k = ix4 b h i k := by
    funext a; match a with | ⟨0, _⟩ => rfl | ⟨1, _⟩ => rfl | ⟨2, _⟩ => rfl | ⟨3, _⟩ => rfl
  rw [hi, v43_at]

/-- The exponential divided by its row's sum: the weight of key row n for query row i. -/
theorem v47_at (b : Fin 2) (h : Fin 16) (i n : Fin 2048) :
    val_main_v47 (F := Ideal) x0 x1 x2 x3 x4 x5 (ix4 b h i n)
      = Ideal.div (pexp (scoreDiv (qH b h) (kH b h)) i n) (∑ n' : Fin 2048, pexp (scoreDiv (qH b h) (kH b h)) i n') := by
  have h1 : idx_main_v46 (ix4 b h i n) = ix4 b h i (⟨0, Nat.one_pos⟩ : Fin 1) := by
    funext a; match a with | ⟨0, _⟩ => rfl | ⟨1, _⟩ => rfl | ⟨2, _⟩ => rfl | ⟨3, _⟩ => rfl
  have h2 : idx_main_v45 (ix4 b h i (⟨0, Nat.one_pos⟩ : Fin 1)) = ix3 b h i := by
    funext a; match a with | ⟨0, _⟩ => rfl | ⟨1, _⟩ => rfl | ⟨2, _⟩ => rfl
  rw [val_main_v47_apply, v43_at, val_main_v46_apply, h1, val_main_v45_apply, h2, v44_at]; rfl

/-- The weights summed against the values: one head's attention, normalised before the sum. -/
theorem v48_at (b : Fin 2) (h : Fin 16) (i : Fin 2048) (j : Fin 64) :
    val_main_v48 (F := Ideal) x0 x1 x2 x3 x4 x5 (ix4 b h i j)
      = attBefore (vH b h) (scoreDiv (qH b h) (kH b h)) i j := by
  rw [val_main_v48_apply]
  unfold attBefore
  refine Finset.sum_congr rfl fun k _ => ?_
  have hl : lidx_main_v48 (ix4 b h i j) k = ix4 b h i k := by
    funext a; match a with | ⟨0, _⟩ => rfl | ⟨1, _⟩ => rfl | ⟨2, _⟩ => rfl | ⟨3, _⟩ => rfl
  have hr : ridx_main_v48 (ix4 b h i j) k = ix4 b h k j := by
    funext a; match a with | ⟨0, _⟩ => rfl | ⟨1, _⟩ => rfl | ⟨2, _⟩ => rfl | ⟨3, _⟩ => rfl
  rw [hl, hr, v47_at, v33_at]

/-! ## The heads merged back into 1024 columns, and the residual (operations 49 to 51) -/

/-- Entry (b, s, e) of the array of columns is entry (b, s, e / 64, e % 64) of the array of heads. -/
theorem merge_idx (b : Fin 2) (s : Fin 2048) (e : Fin 1024) :
    idx_main_v50 (ix3 b s e) = ix4 b s (headOf e) (laneOf e) := by
  have hb := b.isLt; have hs := s.isLt; have he := e.isLt
  funext a
  match a with
  | ⟨0, _⟩ => exact Fin.ext (by show ((b.val * 2048 + s.val) * 1024 + e.val) / 2097152 = b.val; omega)
  | ⟨1, _⟩ => exact Fin.ext (by show ((b.val * 2048 + s.val) * 1024 + e.val) / 1024 % 2048 = s.val; omega)
  | ⟨2, _⟩ => exact Fin.ext (by show ((b.val * 2048 + s.val) * 1024 + e.val) / 64 % 16 = e.val / 64; omega)
  | ⟨3, _⟩ => exact Fin.ext (by show ((b.val * 2048 + s.val) * 1024 + e.val) % 64 = e.val % 64; omega)

/-- Column e of row (b, s): the attention of head e / 64 at lane e % 64. -/
theorem v50_at (b : Fin 2) (s : Fin 2048) (e : Fin 1024) :
    val_main_v50 (F := Ideal) x0 x1 x2 x3 x4 x5 (ix3 b s e)
      = attBefore (vH b (headOf e)) (scoreDiv (qH b (headOf e)) (kH b (headOf e))) s (laneOf e) := by
  have h2 : idx_main_v49 (ix4 b s (headOf e) (laneOf e)) = ix4 b (headOf e) s (laneOf e) := by
    funext a; match a with | ⟨0, _⟩ => rfl | ⟨1, _⟩ => rfl | ⟨2, _⟩ => rfl | ⟨3, _⟩ => rfl
  rw [val_main_v50_apply, merge_idx, val_main_v49_apply, h2, v48_at]

/-- The reference's result at (b, s, e) is the layer's. -/
theorem v51_at (b : Fin 2) (s : Fin 2048) (e : Fin 1024) :
    val_main_v51 (F := Ideal) x0 x1 x2 x3 x4 x5 (ix3 b s e)
      = layerBefore (A3 x0) (A3 x1) (A1 x2) (A1 x3) (AKV x4) (AQ x5) b s e := by
  rw [val_main_v51_apply, v50_at]; rfl

end Attn

end Stages

/-- The reference program's result, read at an index, is the cross-attention layer of the six argument arrays read
    by coordinates, in the arrangement that divides the scores by 8 and normalises the weights before the sum
    against the values. -/
theorem ref_value (x0 x1 : (⟨Cert.ReferenceIdeal.S2x2048x1024, .f32⟩ : BufTy).Contents (Elt Ideal))
    (x2 x3 : (⟨Cert.ReferenceIdeal.S1024, .f32⟩ : BufTy).Contents (Elt Ideal))
    (x4 : (⟨Cert.ReferenceIdeal.S2048x1024, .f32⟩ : BufTy).Contents (Elt Ideal))
    (x5 : (⟨Cert.ReferenceIdeal.S1024x1024, .f32⟩ : BufTy).Contents (Elt Ideal))
    (i : Cert.ReferenceIdeal.S2x2048x1024.Idx) :
    Cert.ReferenceIdeal.Read.val_main_v51 (F := Ideal) x0 x1 x2 x3 x4 x5 i
      = Cert.CrossAttn.layerBefore (fun b s d => x0 (ValueIdx.ix3 b s d)) (fun b s d => x1 (ValueIdx.ix3 b s d))
          (fun d => x2 (ValueIdx.ix1 d)) (fun d => x3 (ValueIdx.ix1 d))
          (fun e d => x4 (ValueIdx.ix2 e d)) (fun e d => x5 (ValueIdx.ix2 e d)) (i 0) (i 1) (i 2) := by
  obtain ⟨b, s, e, rfl⟩ : ∃ (b : Fin 2) (s : Fin 2048) (e : Fin 1024), i = ix3 b s e := ⟨i 0, i 1, i 2, eq_ix3 i⟩
  exact v51_at x0 x1 x2 x3 x4 x5 b s e

end Cert.CrossAttn.Ref

end
-- ==== Proof.Algebra.lean ====
/-
  The two arrangements of the cross-attention layer agree on real inputs.

  Every stage of the layer maps real entries to real entries: a finite sum of reals is a real, a quotient by the
  real 1024 or 8 is the product with its reciprocal, the variance of a real row is a real that is not negative, so
  the variance plus the (positive) epsilon is a positive real and its inverse root is a real; hence the normalised
  rows, both projections, the heads and the scores are reals. The greatest of a nonempty row of reals is a real, so
  each exponential of a score less its row's greatest is a positive real, and their sum over the row is a positive
  real, in particular not zero. With real weights p_n whose sum l is not zero and real values v_n,
  (sum_n p_n v_n) / l = sum_n (p_n / l) v_n; and a score times one eighth is that score divided by eight.
-/
import proofs.«120350_j23639499997334_2_alg».proof.Proof.Spec

noncomputable section

namespace Cert.CrossAttn

open Idealize.ShloMosaic

/-! ## The five literal words -/

/-- The word 0x44800000 denotes the real 1024 = 2^23 * 2^(137 - 127 - 23). -/
theorem ofBits_1024 : Ideal.ofBits .f32 0x44800000#32 = ((1024 : ℝ) : EReal) := by
  simp [Ideal.ofBits, Ideal.ieee, -EReal.coe_mul]; norm_num

/-- The word 0x41000000 denotes the real 8. -/
theorem ofBits_8 : Ideal.ofBits .f32 0x41000000#32 = ((8 : ℝ) : EReal) := by
  simp [Ideal.ofBits, Ideal.ieee, -EReal.coe_mul]; norm_num

/-- The word 0x3E000000 denotes the real 1/8. -/
theorem ofBits_eighth : Ideal.ofBits .f32 0x3E000000#32 = ((1 / 8 : ℝ) : EReal) := by
  simp [Ideal.ofBits, Ideal.ieee, -EReal.coe_mul]; norm_num

/-- The word 0xFF800000 (sign set, exponent all ones, no fraction) denotes minus infinity. -/
theorem ofBits_neg_inf : Ideal.ofBits .f32 0xFF800000#32 = (⊥ : EReal) := by
  simp [Ideal.ofBits, Ideal.ieee]

/-- The word 0x3727C5AC, the layer norm's epsilon, denotes a positive real (5497558 * 2^(-39)). -/
theorem ofBits_eps : ∃ r : ℝ, 0 < r ∧ Ideal.ofBits .f32 0x3727C5AC#32 = (r : EReal) := by
  refine ⟨5497558 * (2 : ℝ) ^ (-39 : ℤ), by positivity, ?_⟩
  simp [Ideal.ofBits, Ideal.ieee, -EReal.coe_mul]; norm_num

/-! ## Extended reals that are real numbers -/

/-- An extended real that is the coercion of a real number. -/
def IsReal (x : EReal) : Prop := ∃ r : ℝ, x = (r : EReal)

/-- The coercion of the reals passes through a finite sum. -/
theorem coe_sum {ι : Type*} (t : Finset ι) (g : ι → ℝ) :
    ∑ i ∈ t, (g i : EReal) = ((∑ i ∈ t, g i : ℝ) : EReal) := by
  classical
  induction t using Finset.induction_on with
  | empty => simp
  | insert a t ha ih => rw [Finset.sum_insert ha, Finset.sum_insert ha, ih, EReal.coe_add]

namespace IsReal

theorem add {x y : EReal} (hx : IsReal x) (hy : IsReal y) : IsReal (x + y) := by
  obtain ⟨a, rfl⟩ := hx; obtain ⟨b, rfl⟩ := hy; exact ⟨a + b, (EReal.coe_add a b).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

/-- The greater of two reals is a real: it is one of the two. -/
theorem max {x y : EReal} (hx : IsReal x) (hy : IsReal y) : IsReal (Max.max x y) := by
  rcases max_choice x y with h | h <;> rw [h] <;> assumption

/-- A finite sum of reals is a real. -/
theorem sum {ι : Type*} [Fintype ι] {f : ι → EReal} (h : ∀ i, IsReal (f i)) : IsReal (∑ i, f i) := by
  choose g hg using h
  exact ⟨∑ i, g i, by rw [← coe_sum]; exact Finset.sum_congr rfl fun i _ => hg i⟩

/-- A real divided by a real that is not zero is a real: the product with the reciprocal. -/
theorem div {x : EReal} (hx : IsReal x) {y : ℝ} (hy : y ≠ 0) : IsReal (Ideal.div x (y : EReal)) := by
  obtain ⟨a, rfl⟩ := hx
  exact ⟨a * (1 / y), by rw [Ideal.div_coe hy, EReal.coe_mul]⟩

/-- The inverse root of a positive real is a real. -/
theorem rsqrt {r : ℝ} (hr : 0 < r) : IsReal (Ideal.rsqrt (r : EReal)) :=
  ⟨(Real.sqrt r)⁻¹, by rw [Ideal.rsqrt_coe, if_neg (not_lt.mpr hr.le), if_neg hr.ne']⟩

end IsReal

/-- The fold of max from minus infinity over a nonempty finite family of reals is a real. -/
theorem fold_max_isReal {ι : Type*} [DecidableEq ι] (f : ι → EReal) (hf : ∀ i, IsReal (f i)) (t : Finset ι)
    (ht : t.Nonempty) : IsReal (t.fold max ⊥ f) := by
  induction t using Finset.induction_on with
  | empty => exact absurd ht Finset.not_nonempty_empty
  | insert a t ha ih =>
    rw [Finset.fold_insert ha]
    rcases t.eq_empty_or_nonempty with rfl | hne
    · rw [Finset.fold_empty, max_bot_right]; exact hf a
    · exact (hf a).max (ih hne)

/-- With real weights whose sum is not zero and real values, normalising the weighted sum is the sum
    against the normalised weights. -/
theorem div_sum_mul {ι : Type*} [Fintype ι] (p v : ι → ℝ) (hl : (∑ n, p n) ≠ 0) :
    Ideal.div (∑ n, (p n : EReal) * (v n : EReal)) (∑ n, (p n : EReal))
      = ∑ n, Ideal.div (p n : EReal) (∑ n', (p n' : EReal)) * (v n : EReal) := by
  rw [coe_sum Finset.univ p]
  simp only [Ideal.div_coe hl, ← EReal.coe_mul]
  rw [coe_sum, coe_sum, ← EReal.coe_mul, Finset.sum_mul]
  congr 1
  exact Finset.sum_congr rfl fun n _ => by ring

/-! ## One head's attention on real scores and values -/

/-- The greatest of a row of real scores is a real. -/
theorem rowmax_isReal (s : Fin 2048 → EReal) (hs : ∀ n, IsReal (s n)) : IsReal (rowmax s) := by
  rw [rowmax, ofBits_neg_inf]
  exact fold_max_isReal s hs _ ⟨0, Finset.mem_univ _⟩

/-- The exponential of a real score less its row's greatest is a positive real. -/
theorem pexp_pos (s : Fin 2048 → Fin 2048 → EReal) (hs : ∀ i n, IsReal (s i n)) (i n : Fin 2048) :
    ∃ p : ℝ, 0 < p ∧ pexp s i n = (p : EReal) := by
  obtain ⟨a, ha⟩ := hs i n
  obtain ⟨m, hm⟩ := rowmax_isReal (s i) (hs i)
  exact ⟨Real.exp (a - m), Real.exp_pos _, by rw [pexp, ha, hm, ← EReal.coe_sub, Ideal.exp_coe]⟩

/-- On real scores and real values the two normalisations agree. -/
theorem attAfter_eq_attBefore (v : Fin 2048 → Fin 64 → EReal) (s : Fin 2048 → Fin 2048 → EReal)
    (hv : ∀ n j, IsReal (v n j)) (hs : ∀ i n, IsReal (s i n)) (i : Fin 2048) (j : Fin 64) :
    attAfter v s i j = attBefore v s i j := by
  choose p hp0 hp using fun n => pexp_pos s hs i n
  choose w hw using fun n => hv n j
  have hl : (∑ n, p n) ≠ 0 := (Finset.sum_pos (fun n _ => hp0 n) ⟨0, Finset.mem_univ _⟩).ne'
  simp only [attAfter, attBefore, hp, hw]
  exact div_sum_mul p w hl

/-- A score times one eighth is that score divided by eight, on every extended real. -/
theorem scoreMul_eq_scoreDiv (q k : Fin 2048 → Fin 64 → EReal) : scoreMul q k = scoreDiv q k := by
  funext i n
  rw [scoreMul, scoreDiv, ofBits_eighth, ofBits_8, Ideal.div_coe (by norm_num : (8 : ℝ) ≠ 0)]

/-- Real queries and keys give real scores. -/
theorem scoreDiv_isReal (q k : Fin 2048 → Fin 64 → EReal) (hq : ∀ i j, IsReal (q i j))
    (hk : ∀ n j, IsReal (k n j)) (i n : Fin 2048) : IsReal (scoreDiv q k i n) := by
  rw [scoreDiv, ofBits_8, score]
  exact (IsReal.sum fun j => (hq i j).mul (hk n j)).div (by norm_num)

/-! ## The layer's stages on real inputs -/

section Stages

variable (X C : Fin 2 → Fin 2048 → Fin 1024 → EReal) (γ β : Fin 1024 → EReal)
  (Wkv : Fin 2048 → Fin 1024 → EReal) (Wq : Fin 1024 → Fin 1024 → EReal)

theorem mean_isReal (hX : ∀ b s d, IsReal (X b s d)) (b : Fin 2) (s : Fin 2048) : IsReal (mean X b s) := by
  rw [mean, ofBits_1024]
  exact (IsReal.sum fun d => hX b s d).div (by norm_num)

theorem cen_isReal (hX : ∀ b s d, IsReal (X b s d)) (b : Fin 2) (s : Fin 2048) (d : Fin 1024) :
    IsReal (cen X b s d) :=
  (hX b s d).sub (mean_isReal X hX b s)

/-- The variance of a real row is a real that is not negative: a sum of squares times 1/1024. -/
theorem var_nonneg (hX : ∀ b s d, IsReal (X b s d)) (b : Fin 2) (s : Fin 2048) :
    ∃ r : ℝ, 0 ≤ r ∧ var X b s = (r : EReal) := by
  choose c hc using fun d => cen_isReal X hX b s d
  refine ⟨(∑ d, c d * c d) * (1 / 1024),
    mul_nonneg (Finset.sum_nonneg fun d _ => mul_self_nonneg (c d)) (by norm_num), ?_⟩
  rw [var, ofBits_1024, Ideal.div_coe (by norm_num : (1024 : ℝ) ≠ 0)]
  simp only [hc, ← EReal.coe_mul]
  rw [coe_sum, ← EReal.coe_mul]

theorem lnorm_isReal (hX : ∀ b s d, IsReal (X b s d)) (hγ : ∀ d, IsReal (γ d)) (hβ : ∀ d, IsReal (β d))
    (b : Fin 2) (s : Fin 2048) (d : Fin 1024) : IsReal (lnorm X γ β b s d) := by
  obtain ⟨r, hr0, hr⟩ := var_nonneg X hX b s
  obtain ⟨ε, hε0, hε⟩ := ofBits_eps
  have hrs : IsReal (Ideal.rsqrt (var X b s + Ideal.ofBits .f32 0x3727C5AC#32)) := by
    rw [hr, hε, ← EReal.coe_add]
    exact IsReal.rsqrt (by linarith)
  exact (((cen_isReal X hX b s d).mul hrs).mul (hγ d)).add (hβ d)

theorem qproj_isReal (hX : ∀ b s d, IsReal (X b s d)) (hγ : ∀ d, IsReal (γ d)) (hβ : ∀ d, IsReal (β d))
    (hWq : ∀ e d, IsReal (Wq e d)) (b : Fin 2) (s : Fin 2048) (e : Fin 1024) :
    IsReal (qproj X γ β Wq b s e) :=
  IsReal.sum fun d => (lnorm_isReal X γ β hX hγ hβ b s d).mul (hWq e d)

theorem kvproj_isReal (hC : ∀ b s d, IsReal (C b s d)) (hWkv : ∀ e d, IsReal (Wkv e d))
    (b : Fin 2) (s : Fin 2048) (e : Fin 2048) : IsReal (kvproj C Wkv b s e) :=
  IsReal.sum fun d => (hC b s d).mul (hWkv e d)

end Stages

/-! ## The two arrangements of the layer -/

theorem layerAfter_eq_layerBefore (X C : Fin 2 → Fin 2048 → Fin 1024 → EReal) (γ β : Fin 1024 → EReal)
    (Wkv : Fin 2048 → Fin 1024 → EReal) (Wq : Fin 1024 → Fin 1024 → EReal)
    (hX : ∀ b s d, ∃ r : ℝ, X b s d = (r : EReal)) (hC : ∀ b s d, ∃ r : ℝ, C b s d = (r : EReal))
    (hγ : ∀ d, ∃ r : ℝ, γ d = (r : EReal)) (hβ : ∀ d, ∃ r : ℝ, β d = (r : EReal))
    (hWkv : ∀ e d, ∃ r : ℝ, Wkv e d = (r : EReal)) (hWq : ∀ e d, ∃ r : ℝ, Wq e d = (r : EReal))
    (b : Fin 2) (s : Fin 2048) (e : Fin 1024) :
    layerAfter X C γ β Wkv Wq b s e = layerBefore X C γ β Wkv Wq b s e := by
  rw [layerAfter, layerBefore, scoreMul_eq_scoreDiv,
    attAfter_eq_attBefore (vHead C Wkv b (headOf e))
      (scoreDiv (qHead X γ β Wq b (headOf e)) (kHead C Wkv b (headOf e)))
      (fun n j => kvproj_isReal C Wkv hC hWkv b n _)
      (scoreDiv_isReal _ _ (fun i j => qproj_isReal X γ β Wq hX hγ hβ hWq b i _)
        (fun n j => kvproj_isReal C Wkv hC hWkv b n _))
      s (laneOf e)]

end Cert.CrossAttn

end
-- ==== Proof.Finite.lean ====
import proofs.«120350_j23639499997334_2_alg».proof.Pre_finite_inputs
import proofs.«120350_j23639499997334_2_alg».proof.Proof.Gen.Pre_finite_inputs
import Idealize.ShloMosaic.PureOps.Ideal
import Idealize.ShloMosaic.PureOps.Ideal.Laws
import Idealize.ShloMosaic.Lib.ReduceAll

/-!
  From the finiteness precondition to "every entry of every argument array is a real number".

  The precondition is a conjunction of six one-bit words, one per array `a`: the conjunction, over all
  indices `i`, of the comparison `|a i| < +∞`, where `|x| = max x (-x)` in the extended reals and `+∞` is
  the value the f32 pattern `0x7F800000` denotes. A conjunction that is 1 has every conjunct 1; a comparison
  word that is 1 says the strict inequality holds; and an extended real `x` with `max x (-x) < ⊤` is neither
  `⊤` (then `max x (-x) = ⊤`) nor `⊥` (then `-x = ⊤`), hence a real.
-/

namespace Cert.CrossAttn

open Idealize.ShloMosaic

/-- The rank-0 shape has a single index. -/
instance Finite.subsingleton_scalar_idx : Subsingleton Cert.Pre_finite_inputs.S_.Idx := ⟨fun a b => funext fun d => d.elim0⟩

/-- The f32 pattern `0x7F800000` denotes +∞. -/
theorem Finite.ofBits_inf_f32 : Ideal.ofBits .f32 0x7F800000#32 = (⊤ : EReal) := by
  simp [Ideal.ofBits, Ideal.ieee]

/-- An extended real whose absolute value `max x (-x)` lies strictly below +∞ is a real number:
    +∞ fails because `max ⊤ _ = ⊤`, and -∞ fails because `-⊥ = ⊤`. -/
theorem Finite.real_of_abs_lt_top (x : EReal) (h : max x (-x) < (⊤ : EReal)) : ∃ r : ℝ, x = (r : EReal) := by
  induction x using EReal.rec with
  | bot => simp at h
  | coe r => exact ⟨r, rfl⟩
  | top => simp at h

/-- A one-bit word built from a Boolean is 1 exactly when the Boolean is true. -/
theorem Finite.ofBool_eq_one {b : Bool} : BitVec.ofBool b = 1#1 ↔ b = true := by cases b <;> decide

/-- If the conjunction, over every index of `a`, of the comparison words `|a i| < +∞` is 1, then every
    entry of `a` is a real number. (The conjunction is the reduction by `and` over all axes into a result with
    one index; `+∞` is the f32 pattern `0x7F800000` read at every index.) -/
theorem Finite.real_of_all_abs_lt_inf {S T u : Shape} {axes : List (Fin S.rank)} [Subsingleton T.Idx]
    (hb : (⟨0, ![]⟩ : Shape).BroadcastsInDim S (![] : Fin 0 → Fin S.rank)) (hr : S.ReducesTo axes T) (hu : 0 < u.numel)
    (init : IVec u 1) (a : FVec Ideal S .f32) (j : T.Idx)
    (h : Host.reduce IntOp.andi
          (cmpf .olt (Host.absf a) (broadcastInDim S ![] hb (constant (F := Ideal) ⟨0, ![]⟩ .f32 0x7F800000#32)))
          init hr hu j = 1#1) :
    ∀ i, ∃ r : ℝ, a i = (r : EReal) := by
  intro i
  -- every conjunct of a conjunction that is 1 is 1
  have e := Host.reduce_andi_all _ init hr hu j h i
  -- the conjunct at `i` is the comparison word of `max (a i) (-(a i))` against the pattern's value
  have e' : BitVec.ofBool (decide (max (a i) (-(a i)) < Ideal.ofBits .f32 0x7F800000#32)) = 1#1 := e
  rw [Finite.ofBool_eq_one, decide_eq_true_eq, Finite.ofBits_inf_f32] at e'
  exact Finite.real_of_abs_lt_top (a i) e'

/-- Under the finiteness precondition every entry of each of the six argument arrays is a real number. -/
theorem real_of_finite_inputs [hPre : Cert.Pre_finite_inputs.Facts]
    (a0 a1 : FVec Ideal Cert.Pre_finite_inputs.S2x2048x1024 .f32) (a2 a3 : FVec Ideal Cert.Pre_finite_inputs.S1024 .f32)
    (a4 : FVec Ideal Cert.Pre_finite_inputs.S2048x1024 .f32) (a5 : FVec Ideal Cert.Pre_finite_inputs.S1024x1024 .f32)
    (h : Cert.Pre_finite_inputs.fn (F := Ideal) a0 a1 a2 a3 a4 a5 = (fun _ => 1#1)) :
    (∀ i, ∃ r : ℝ, a0 i = (r : EReal)) ∧ (∀ i, ∃ r : ℝ, a1 i = (r : EReal)) ∧ (∀ i, ∃ r : ℝ, a2 i = (r : EReal))
    ∧ (∀ i, ∃ r : ℝ, a3 i = (r : EReal)) ∧ (∀ i, ∃ r : ℝ, a4 i = (r : EReal)) ∧ (∀ i, ∃ r : ℝ, a5 i = (r : EReal)) := by
  -- read the one-bit result at its only index
  have h0 := congrFun h (fun d => d.elim0)
  dsimp only [Cert.Pre_finite_inputs.fn, Cert.Pre_finite_inputs.fn_part1] at h0
  -- the result is ((((c0 ∧ c1) ∧ c2) ∧ c3) ∧ c4) ∧ c5: peel the conjuncts from the right
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨Finite.real_of_all_abs_lt_inf _ _ _ _ a0 _ e0, Finite.real_of_all_abs_lt_inf _ _ _ _ a1 _ e1,
    Finite.real_of_all_abs_lt_inf _ _ _ _ a2 _ e2, Finite.real_of_all_abs_lt_inf _ _ _ _ a3 _ e3,
    Finite.real_of_all_abs_lt_inf _ _ _ _ a4 _ e4, Finite.real_of_all_abs_lt_inf _ _ _ _ a5 _ e5⟩

end Cert.CrossAttn
-- ==== Proof.Claims.lean ====
/-
  The five claims. The three frames are the generated ones (the reference's is its generated run with the result
  dropped); the ledger of rewrites is empty. For the value claim both programs end, from memories agreeing on the six
  arguments, with the layer's result: the kernel's two regions leave the layer normalising after the sum against the
  values, with the scores scaled by one eighth; the reference's host operations compute it normalising before, with
  the scores divided by eight; and under the precondition every argument entry is a real number, so every stage is,
  the softmax denominators are positive reals, and the two arrangements agree.
-/
import proofs.«120350_j23639499997334_2_alg».proof.Defs
import proofs.«120350_j23639499997334_2_alg».proof.Proof.Gen.Kernel.Frame
import proofs.«120350_j23639499997334_2_alg».proof.Proof.Gen.KernelIdeal.Frame
import proofs.«120350_j23639499997334_2_alg».proof.Proof.Gen.ReferenceIdeal.Run
import proofs.«120350_j23639499997334_2_alg».proof.Proof.Gen.ReferenceIdeal.Read
import proofs.«120350_j23639499997334_2_alg».proof.Proof.Gen.Pre_finite_inputs
import proofs.«120350_j23639499997334_2_alg».proof.Proof.KernelRun
import proofs.«120350_j23639499997334_2_alg».proof.Proof.Chain
import proofs.«120350_j23639499997334_2_alg».proof.Proof.RefValue
import proofs.«120350_j23639499997334_2_alg».proof.Proof.Algebra
import proofs.«120350_j23639499997334_2_alg».proof.Proof.Finite

noncomputable section

namespace Cert.Proof.Claims

open Idealize.ShloMosaic Idealize.ShloMosaic.TcCoe Idealize.SL.Sem Cert.CrossAttn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the layer's result: the kernel's as the layer normalising after the sum, the reference's as
    the layer normalising before it, equal on real entries. -/
theorem algebraic : Cert.algebraic_KernelIdeal_ReferenceIdeal := by
  intro m ρ m' ρ' hpre hagree
  refine ⟨fun c => (fun i => layerAfter (argX m c) (argC m c) (argG m c) (argB m c) (argKV m c) (argQ m c) (i 0) (i 1) (i 2)), ?_, ?_⟩
  · exact (θ_run Cert.KernelIdeal.defs _ _).mono
      (fun r h c => ⟨(h c).1.trans (funext fun i => W3_result_apply m ρ c i), (h c).2⟩)
      (Cert.KernelIdeal.RunValue.run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v51_eq]
    obtain ⟨g0, g1, g2, g3, g4, g5⟩ := hagree c
    rw [g0, g1, g2, g3, g4, g5]
    funext i
    rw [Cert.CrossAttn.Ref.ref_value]
    obtain ⟨r0, r1, r2, r3, r4, r5⟩ := real_of_finite_inputs _ _ _ _ _ _ (hpre c)
    exact (layerAfter_eq_layerBefore _ _ _ _ _ _ (fun b s d => r0 _) (fun b s d => r1 _) (fun d => r2 _)
      (fun d => r3 _) (fun e d => r4 _) (fun e d => r5 _) (i 0) (i 1) (i 2)).symm

end Cert.Proof.Claims

end
-- ==== Proof.lean ====
/-
  A cross-attention layer against its plain reference, at the extended reals.

  The kernel runs in two regions. The first, over 16 tiles of 256 rows, normalises each row of the input (mean and
  variance over its 1024 features, the inverse root of the variance plus epsilon, the affine map), multiplies the
  normalised rows by the transposed query weight and the cross rows by the transposed key/value weight, and stores the
  1024 query, key and value columns head by head: 16 heads of 64 lanes. The second, over 16 (batch, head pair) cells
  times 8 row tiles, takes for each head the scores of 256 query rows against all 2048 key rows, scaled by one eighth,
  subtracts each row's greatest score, exponentiates, sums against the values, divides by the row's sum of
  exponentials, and adds the residual. The reference does the same on the host in one pass, dividing the scores by
  eight and normalising the exponentials before the sum against the values.

  At the extended reals a change of float format is the identity, a matrix product is its sum, and the tiling and
  the head-major layout are re-indexings; what is left between the two programs is the order of the softmax
  normalisation, (sum_k p_k v_k) / (sum_k p_k) against sum_k (p_k / sum p) v_k, and a product with 1/8 against a
  quotient by 8. Under the precondition every argument entry is a real number; then every stage is real, the
  denominators are positive reals, and the two orders agree.

  Spec.lean states the layer in both arrangements; RowSpec.lean its row-level forms; Algebra.lean joins the two
  arrangements on real entries; Finite.lean reads the precondition; RefValue.lean reads the reference's operations as
  the layer; Body0.lean and Body1.lean read the two regions' stored values at an index; Blocks0.lean and Blocks1.lean
  go from blocks to whole arrays; KernelRun.lean states the kernel's run with its result named; Chain.lean chains the
  regions through the host stage; Claims.lean proves the five claims.
-/
import proofs.«120350_j23639499997334_2_alg».proof.Defs
import proofs.«120350_j23639499997334_2_alg».proof.Proof.Gen.Kernel
import proofs.«120350_j23639499997334_2_alg».proof.Proof.Gen.Kernel.Skeleton
import proofs.«120350_j23639499997334_2_alg».proof.Proof.Gen.Kernel.Launch
import proofs.«120350_j23639499997334_2_alg».proof.Proof.Gen.Kernel.Points
import proofs.«120350_j23639499997334_2_alg».proof.Proof.Gen.Kernel.Frame
import proofs.«120350_j23639499997334_2_alg».proof.Proof.Gen.KernelIdeal
import proofs.«120350_j23639499997334_2_alg».proof.Proof.Gen.KernelIdeal.Skeleton
import proofs.«120350_j23639499997334_2_alg».proof.Proof.Gen.KernelIdeal.Launch
import proofs.«120350_j23639499997334_2_alg».proof.Proof.Gen.KernelIdeal.Points
import proofs.«120350_j23639499997334_2_alg».proof.Proof.Gen.KernelIdeal.Frame
import proofs.«120350_j23639499997334_2_alg».proof.Proof.Gen.ReferenceIdeal
import proofs.«120350_j23639499997334_2_alg».proof.Proof.Gen.ReferenceIdeal.Run
import proofs.«120350_j23639499997334_2_alg».proof.Proof.Gen.ReferenceIdeal.Read
import proofs.«120350_j23639499997334_2_alg».proof.Proof.Gen.Pre_finite_inputs
import proofs.«120350_j23639499997334_2_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
